-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_

variable [Facts]

def fn_part2 {F : FTy → Type} [FloatOps F] (main_arg9 : FVec F S6x128 .f32) (main_arg10 : FVec F S6x128 .f32) (main_v33 : IVec S_ 1) : IVec S_ 1 :=
  let main_v34 : FVec F S6x128 .f32 := Host.absf main_arg9
  let main_cst_12 : FVec F S_ .f32 := constant S_ .f32 0x7F800000#32
  let main_v35 : FVec F S6x128 .f32 := broadcastInDim S6x128 ![] bcast_S_S6x128 main_cst_12
  let main_v36 : IVec S6x128 1 := cmpf .olt main_v34 main_v35
  let main_c_13 : IVec S_ 1 := constantI S_ 1 1#1
  let main_v37 : IVec S_ 1 := (fun x v => Host.reduce IntOp.andi x v reducesTo_S6x128_S_d0_1 h_S_) main_v36 main_c_13
  let main_v38 : IVec S_ 1 := andi main_v33 main_v37
  let main_v39 : FVec F S6x128 .f32 := Host.absf main_arg10
  let main_cst_14 : FVec F S_ .f32 := constant S_ .f32 0x7F800000#32
  let main_v40 : FVec F S6x128 .f32 := broadcastInDim S6x128 ![] bcast_S_S6x128 main_cst_14
  let main_v41 : IVec S6x128 1 := cmpf .olt main_v39 main_v40
  let main_c_15 : IVec S_ 1 := constantI S_ 1 1#1
  let main_v42 : IVec S_ 1 := (fun x v => Host.reduce IntOp.andi x v reducesTo_S6x128_S_d0_1 h_S_) main_v41 main_c_15
  let main_v43 : IVec S_ 1 := andi main_v38 main_v42
  let main_cst_16 : FVec F S_ .f32 := constant S_ .f32 0x00000000#32
  let main_v44 : FVec F S6x128 .f32 := broadcastInDim S6x128 ![] bcast_S_S6x128 main_cst_16
  let main_v45 : IVec S6x128 1 := cmpf .oge main_arg10 main_v44
  let main_c_17 : IVec S_ 1 := constantI S_ 1 1#1
  let main_v46 : IVec S_ 1 := (fun x v => Host.reduce IntOp.andi x v reducesTo_S6x128_S_d0_1 h_S_) main_v45 main_c_17
  let main_v47 : IVec S_ 1 := andi main_v43 main_v46
  main_v47

def fn_part1 {F : FTy → Type} [FloatOps F] (main_arg6 : FVec F S6x128 .f32) (main_arg7 : FVec F S6x128 .f32) (main_arg8 : FVec F S6x128 .f32) (main_arg9 : FVec F S6x128 .f32) (main_arg10 : FVec F S6x128 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg6
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S6x128 .f32 := Host.absf main_arg7
  let main_cst_8 : FVec F S_ .f32 := constant S_ .f32 0x7F800000#32
  let main_v25 : FVec F S6x128 .f32 := broadcastInDim S6x128 ![] bcast_S_S6x128 main_cst_8
  let main_v26 : IVec S6x128 1 := cmpf .olt main_v24 main_v25
  let main_c_9 : IVec S_ 1 := constantI S_ 1 1#1
  let main_v27 : IVec S_ 1 := (fun x v => Host.reduce IntOp.andi x v reducesTo_S6x128_S_d0_1 h_S_) main_v26 main_c_9
  let main_v28 : IVec S_ 1 := andi main_v23 main_v27
  let main_v29 : FVec F S6x128 .f32 := Host.absf main_arg8
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S800000 .f32) (main_arg4 : FVec F S6x128x128 .f32) (main_arg5 : FVec F S6x128x128 .f32) (main_arg6 : FVec F S6x128 .f32) (main_arg7 : FVec F S6x128 .f32) (main_arg8 : FVec F S6x128 .f32) (main_arg9 : FVec F S6x128 .f32) (main_arg10 : FVec F S6x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S6x128x128 .f32 := Host.absf main_arg4
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_c_3 : IVec S_ 1 := constantI S_ 1 1#1
  let main_v12 : IVec S_ 1 := (fun x v => Host.reduce IntOp.andi x v reducesTo_S6x128x128_S_d0_1_2 h_S_) main_v11 main_c_3
  let main_v13 : IVec S_ 1 := andi main_v8 main_v12
  let main_v14 : FVec F S6x128x128 .f32 := Host.absf main_arg5
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S1x128x128 : Shape := ⟨3, ![1, 128, 128]⟩
abbrev S128x128 : Shape := ⟨2, ![128, 128]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩

abbrev nBuf : Space → Nat
  | .hbm => 146
  | .vmem => 45
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S6x128x128, .f32⟩
  | 5 => ⟨S6x128x128, .f32⟩
  | 6 => ⟨S6x128, .f32⟩
  | 7 => ⟨S6x128, .f32⟩
  | 8 => ⟨S6x128, .f32⟩
  | 9 => ⟨S6x128, .f32⟩
  | 10 => ⟨S6x128, .f32⟩
  | 11 => ⟨S1x128x128, .f32⟩
  | 12 => ⟨S128x128, .f32⟩
  | 13 => ⟨S1x128x128, .f32⟩
  | 14 => ⟨S128x128, .f32⟩
  | 15 => ⟨S128x256, .f32⟩
  | 16 => ⟨S50000x256, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S128, .f32⟩
  | 42 => ⟨S128, .f32⟩
  | 43 => ⟨S128, .f32⟩
  | 44 => ⟨S1x128, .f32⟩
  | 45 => ⟨S128, .f32⟩
  | 46 => ⟨S1x128, .f32⟩
  | 47 => ⟨S128, .f32⟩
  | 48 => ⟨S128, .f32⟩
  | 49 => ⟨S128, .f32⟩
  | 50 => ⟨S1x128, .f32⟩
  | 51 => ⟨S128, .f32⟩
  | 52 => ⟨S128, .f32⟩
  | 53 => ⟨S1x128, .f32⟩
  | 54 => ⟨S1x128, .f32⟩
  | 55 => ⟨S50000x128, .f32⟩
  | 56 => ⟨S1x128x128, .f32⟩
  | 57 => ⟨S128x128, .f32⟩
  | 58 => ⟨S1x128x128, .f32⟩
  | 59 => ⟨S128x128, .f32⟩
  | 60 => ⟨S128x256, .f32⟩
  | 61 => ⟨S50000x256, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x1, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S1x128, .f32⟩
  | 81 => ⟨S128, .f32⟩
  | 82 => ⟨S1x128, .f32⟩
  | 83 => ⟨S128, .f32⟩
  | 84 => ⟨S_, .f32⟩
  | 85 => ⟨S128, .f32⟩
  | 86 => ⟨S128, .f32⟩
  | 87 => ⟨S128, .f32⟩
  | 88 => ⟨S128, .f32⟩
  | 89 => ⟨S1x128, .f32⟩
  | 90 => ⟨S128, .f32⟩
  | 91 => ⟨S1x128, .f32⟩
  | 92 => ⟨S128, .f32⟩
  | 93 => ⟨S128, .f32⟩
  | 94 => ⟨S128, .f32⟩
  | 95 => ⟨S1x128, .f32⟩
  | 96 => ⟨S128, .f32⟩
  | 97 => ⟨S128, .f32⟩
  | 98 => ⟨S1x128, .f32⟩
  | 99 => ⟨S1x128, .f32⟩
  | 100 => ⟨S50000x128, .f32⟩
  | 101 => ⟨S1x128x128, .f32⟩
  | 102 => ⟨S128x128, .f32⟩
  | 103 => ⟨S1x128x128, .f32⟩
  | 104 => ⟨S128x128, .f32⟩
  | 105 => ⟨S128x256, .f32⟩
  | 106 => ⟨S50000x256, .f32⟩
  | 107 => ⟨S50000x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S1x128, .f32⟩
  | 7 => ⟨S128, .f32⟩
  | 8 => ⟨S1x128, .f32⟩
  | 9 => ⟨S128, .f32⟩
  | 10 => ⟨S128, .f32⟩
  | 11 => ⟨S128, .f32⟩
  | 12 => ⟨S1x128, .f32⟩
  | 13 => ⟨S128, .f32⟩
  | 14 => ⟨S128, .f32⟩
  | 15 => ⟨S1x128, .f32⟩
  | 16 => ⟨S1x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x256, .f32⟩
  | .local _ .vmem, ⟨18, _⟩ => ⟨S5000x256, .f32⟩
  | .local _ .vmem, ⟨19, _⟩ => ⟨S5000x256, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x256, .f32⟩
  | .local _ .vmem, ⟨33, _⟩ => ⟨S5000x256, .f32⟩
  | .local _ .vmem, ⟨34, _⟩ => ⟨S5000x256, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_2 : Ref sig .tc := ⟨.hbm, 64, rfl⟩
abbrev main_v49 : Ref sig .tc := ⟨.hbm, 65, rfl⟩
abbrev main_v50 : Ref sig .tc := ⟨.hbm, 66, rfl⟩
abbrev main_c_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c_6 : Ref sig .tc := ⟨.hbm, 109, rfl⟩
abbrev main_v90 : Ref sig .tc := ⟨.hbm, 110, rfl⟩
abbrev main_v91 : Ref sig .tc := ⟨.hbm, 111, rfl⟩
abbrev main_c_7 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_8 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_9 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S6x128x128_S1x128x128_0_0_0 : S6x128x128.Slices ![0, 0, 0] S1x128x128
  shapeCasts_S1x128x128_S128x128 : S1x128x128.ShapeCasts S128x128
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S6x128_S1x128_0_0 : S6x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S6x128x128_S1x128x128_2_0_0 : S6x128x128.Slices ![2, 0, 0] S1x128x128
  slices_S6x128_S1x128_2_0 : S6x128.Slices ![2, 0] S1x128
  slices_S6x128x128_S1x128x128_5_0_0 : S6x128x128.Slices ![5, 0, 0] S1x128x128
  slices_S6x128_S1x128_5_0 : S6x128.Slices ![5, 0] S1x128
  dot_S5000x128_S128x256_S5000x256_1_0_0_1_n_n_wf : DotDims.WF S5000x128 S128x256 S5000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v120) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v122) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S1x128x128 : Shape := ⟨3, ![1, 128, 128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩

abbrev nBuf : Space → Nat
  | .hbm => 344
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S6x128x128, .f32⟩
  | 5 => ⟨S6x128x128, .f32⟩
  | 6 => ⟨S6x128, .f32⟩
  | 7 => ⟨S6x128, .f32⟩
  | 8 => ⟨S6x128, .f32⟩
  | 9 => ⟨S6x128, .f32⟩
  | 10 => ⟨S6x128, .f32⟩
  | 11 => ⟨S1x128x128, .f32⟩
  | 12 => ⟨S128x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x128, .f32⟩
  | 31 => ⟨S128x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x1, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S800000x1, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S1x128x128, .f32⟩
  | 14 => ⟨S128x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S1x128, .f32⟩
  | 28 => ⟨S128, .f32⟩
  | 29 => ⟨S_, .f32⟩
  | 30 => ⟨S128, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x128x128, .f32⟩
  | 70 => ⟨S128x128, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x1, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S1x128x128, .f32⟩
  | 125 => ⟨S128x128, .f32⟩
  | 126 => ⟨S50000x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S_, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x1, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x128x128, .f32⟩
  | 52 => ⟨S128x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_cst : Ref sig .tc := ⟨.hbm, 63, rfl⟩
abbrev main_call0_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_2 : Ref sig .tc := ⟨.hbm, 70, rfl⟩
abbrev main_v53 : Ref sig .tc := ⟨.hbm, 71, rfl⟩
abbrev main_v54 : Ref sig .tc := ⟨.hbm, 72, rfl⟩
abbrev main_c_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_5 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_call1_cst : Ref sig .tc := ⟨.hbm, 119, rfl⟩
abbrev main_call1_v0 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_c_6 : Ref sig .tc := ⟨.hbm, 125, rfl⟩
abbrev main_v102 : Ref sig .tc := ⟨.hbm, 126, rfl⟩
abbrev main_v103 : Ref sig .tc := ⟨.hbm, 127, rfl⟩
abbrev main_c_7 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_8 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_9 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_call2_cst : Ref sig .tc := ⟨.hbm, 174, rfl⟩
abbrev main_call2_v0 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_c_10 : Ref sig .tc := ⟨.hbm, 181, rfl⟩
abbrev main_v152 : Ref sig .tc := ⟨.hbm, 182, rfl⟩
abbrev main_v153 : Ref sig .tc := ⟨.hbm, 183, rfl⟩
abbrev main_c_11 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_12 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_13 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_call3_cst : Ref sig .tc := ⟨.hbm, 230, rfl⟩
abbrev main_call3_v0 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_c_14 : Ref sig .tc := ⟨.hbm, 236, rfl⟩
abbrev main_v201 : Ref sig .tc := ⟨.hbm, 237, rfl⟩
abbrev main_v202 : Ref sig .tc := ⟨.hbm, 238, rfl⟩
abbrev main_c_15 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_cst_16 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_cst_17 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_call4_cst : Ref sig .tc := ⟨.hbm, 285, rfl⟩
abbrev main_call4_v0 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_c_18 : Ref sig .tc := ⟨.hbm, 291, rfl⟩
abbrev main_v250 : Ref sig .tc := ⟨.hbm, 292, rfl⟩
abbrev main_v251 : Ref sig .tc := ⟨.hbm, 293, rfl⟩
abbrev main_c_19 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_cst_20 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_cst_21 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_call5_cst : Ref sig .tc := ⟨.hbm, 340, rfl⟩
abbrev main_call5_v0 : Ref sig .tc := ⟨.hbm, 341, rfl⟩
abbrev main_v295 : Ref sig .tc := ⟨.hbm, 342, rfl⟩
abbrev main_v296 : Ref sig .tc := ⟨.hbm, 343, rfl⟩

abbrev nD : Nat := 1
abbrev τ : Topo := Topo.v7x

variable {F : FTy → Type} [FloatOps F]

class Facts₀ : Prop where
  slices_S6x128x128_S1x128x128_0_0_0 : S6x128x128.Slices ![0, 0, 0] S1x128x128
  shapeCasts_S1x128x128_S128x128 : S1x128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The kernel program's run with its result kept: from any memory with zero counters every weakly fair execution of
  @main terminates without a fault, the result array ends at what the last region's write-backs leave of its output
  array (the contents after the twelfth segment of the fold of @main's six host stretches and six regions), and
  the eleven argument arrays end unchanged.  It is the frame's launch over the same twelve segments with one more
  buffer read off the final state.
-/
import proofs.«115942_j16338055594707_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_result : θ_run defs (onTc (τ := τ) (main (F := F))) ⟨m, fun _ => 0, ρ⟩ (fun r => ∀ c : Dev nD,
      r.2.mem ((c.tc : Thread nD τ).loc main_v122) = W12 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v122 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.Carry.lean ====
/-
  Walking buffers back through the run.  The run folds the buffer contents through twelve segments: a host
  stretch changes only the buffers its operations write, a region changes only its output arrays.  So an
  argument array, written by nothing, holds its launch contents at every boundary, and a region's output array
  holds what the region left until something writes it again.
-/
import proofs.«115942_j16338055594707_1_alg».proof.Proof.Gen.KernelIdeal.Frame
import Idealize.ShloMosaic.PureOps.Ideal

set_option maxRecDepth 16384

noncomputable section

namespace Cert.KernelIdeal.KVal

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- No operation of the named stretch writes the buffer, so the stretch leaves it as it was: every operation's
    result buffer is a different reference. -/
local macro "host_skip " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The argument arrays hold their launch contents at every region exit -/

/-- The node array is region 0's first input window: the region reads it and leaves it as entered. -/
theorem W2_arg0 (c : Dev nD) : W2 (F := Ideal) m ρ c (Proc.devRef .tc main_arg0) = m ((c : Thread nD τ).loc main_arg0) :=
  ((W2_arr m ρ c 0).trans (((dat0 (V1 m ρ) c).arrAt_in 0 rfl _).trans (A_eq0 (V1 m ρ) c 0))).trans
    ((by host_skip hostOps0 : W1 (F := Ideal) m ρ c (Proc.devRef .tc main_arg0) = W0 m ρ c (Proc.devRef .tc main_arg0)).trans rfl)

/-! ### After region 0 -/
theorem W2_arg1 (c : Dev nD) : W2 (F := Ideal) m ρ c (Proc.devRef .tc main_arg1) = m ((c : Thread nD τ).loc main_arg1) :=
  (W2_of_ne m ρ c main_arg1 (by decide)).trans
    ((by host_skip hostOps0 : W1 (F := Ideal) m ρ c (Proc.devRef .tc main_arg1) = W0 m ρ c (Proc.devRef .tc main_arg1)).trans rfl)
theorem W2_arg2 (c : Dev nD) : W2 (F := Ideal) m ρ c (Proc.devRef .tc main_arg2) = m ((c : Thread nD τ).loc main_arg2) :=
  (W2_of_ne m ρ c main_arg2 (by decide)).trans
    ((by host_skip hostOps0 : W1 (F := Ideal) m ρ c (Proc.devRef .tc main_arg2) = W0 m ρ c (Proc.devRef .tc main_arg2)).trans rfl)
theorem W2_arg3 (c : Dev nD) : W2 (F := Ideal) m ρ c (Proc.devRef .tc main_arg3) = m ((c : Thread nD τ).loc main_arg3) :=
  (W2_of_ne m ρ c main_arg3 (by decide)).trans
    ((by host_skip hostOps0 : W1 (F := Ideal) m ρ c (Proc.devRef .tc main_arg3) = W0 m ρ c (Proc.devRef .tc main_arg3)).trans rfl)
theorem W2_arg4 (c : Dev nD) : W2 (F := Ideal) m ρ c (Proc.devRef .tc main_arg4) = m ((c : Thread nD τ).loc main_arg4) :=
  (W2_of_ne m ρ c main_arg4 (by decide)).trans
    ((by host_skip hostOps0 : W1 (F := Ideal) m ρ c (Proc.devRef .tc main_arg4) = W0 m ρ c (Proc.devRef .tc main_arg4)).trans rfl)
theorem W2_arg5 (c : Dev nD) : W2 (F := Ideal) m ρ c (Proc.devRef .tc main_arg5) = m ((c : Thread nD τ).loc main_arg5) :=
  (W2_of_ne m ρ c main_arg5 (by decide)).trans
    ((by host_skip hostOps0 : W1 (F := Ideal) m ρ c (Proc.devRef .tc main_arg5) = W0 m ρ c (Proc.devRef .tc main_arg5)).trans rfl)
theorem W2_arg6 (c : Dev nD) : W2 (F := Ideal) m ρ c (Proc.devRef .tc main_arg6) = m ((c : Thread nD τ).loc main_arg6) :=
  (W2_of_ne m ρ c main_arg6 (by decide)).trans
    ((by host_skip hostOps0 : W1 (F := Ideal) m ρ c (Proc.devRef .tc main_arg6) = W0 m ρ c (Proc.devRef .tc main_arg6)).trans rfl)
theorem W2_arg7 (c : Dev nD) : W2 (F := Ideal) m ρ c (Proc.devRef .tc main_arg7) = m ((c : Thread nD τ).loc main_arg7) :=
  (W2_of_ne m ρ c main_arg7 (by decide)).trans
    ((by host_skip hostOps0 : W1 (F := Ideal) m ρ c (Proc.devRef .tc main_arg7) = W0 m ρ c (Proc.devRef .tc main_arg7)).trans rfl)
theorem W2_arg8 (c : Dev nD) : W2 (F := Ideal) m ρ c (Proc.devRef .tc main_arg8) = m ((c : Thread nD τ).loc main_arg8) :=
  (W2_of_ne m ρ c main_arg8 (by decide)).trans
    ((by host_skip hostOps0 : W1 (F := Ideal) m ρ c (Proc.devRef .tc main_arg8) = W0 m ρ c (Proc.devRef .tc main_arg8)).trans rfl)
theorem W2_arg9 (c : Dev nD) : W2 (F := Ideal) m ρ c (Proc.devRef .tc main_arg9) = m ((c : Thread nD τ).loc main_arg9) :=
  (W2_of_ne m ρ c main_arg9 (by decide)).trans
    ((by host_skip hostOps0 : W1 (F := Ideal) m ρ c (Proc.devRef .tc main_arg9) = W0 m ρ c (Proc.devRef .tc main_arg9)).trans rfl)
theorem W2_arg10 (c : Dev nD) : W2 (F := Ideal) m ρ c (Proc.devRef .tc main_arg10) = m ((c : Thread nD τ).loc main_arg10) :=
  (W2_of_ne m ρ c main_arg10 (by decide)).trans
    ((by host_skip hostOps0 : W1 (F := Ideal) m ρ c (Proc.devRef .tc main_arg10) = W0 m ρ c (Proc.devRef .tc main_arg10)).trans rfl)

/-! ### After region 1 -/
theorem W4_arg1 (c : Dev nD) : W4 (F := Ideal) m ρ c (Proc.devRef .tc main_arg1) = m ((c : Thread nD τ).loc main_arg1) :=
  (W4_of_ne m ρ c main_arg1 (by decide)).trans
    ((by host_skip hostOps1 : W3 (F := Ideal) m ρ c (Proc.devRef .tc main_arg1) = W2 m ρ c (Proc.devRef .tc main_arg1)).trans (W2_arg1 m ρ c))
theorem W4_arg2 (c : Dev nD) : W4 (F := Ideal) m ρ c (Proc.devRef .tc main_arg2) = m ((c : Thread nD τ).loc main_arg2) :=
  (W4_of_ne m ρ c main_arg2 (by decide)).trans
    ((by host_skip hostOps1 : W3 (F := Ideal) m ρ c (Proc.devRef .tc main_arg2) = W2 m ρ c (Proc.devRef .tc main_arg2)).trans (W2_arg2 m ρ c))
theorem W4_arg3 (c : Dev nD) : W4 (F := Ideal) m ρ c (Proc.devRef .tc main_arg3) = m ((c : Thread nD τ).loc main_arg3) :=
  (W4_of_ne m ρ c main_arg3 (by decide)).trans
    ((by host_skip hostOps1 : W3 (F := Ideal) m ρ c (Proc.devRef .tc main_arg3) = W2 m ρ c (Proc.devRef .tc main_arg3)).trans (W2_arg3 m ρ c))
theorem W4_arg4 (c : Dev nD) : W4 (F := Ideal) m ρ c (Proc.devRef .tc main_arg4) = m ((c : Thread nD τ).loc main_arg4) :=
  (W4_of_ne m ρ c main_arg4 (by decide)).trans
    ((by host_skip hostOps1 : W3 (F := Ideal) m ρ c (Proc.devRef .tc main_arg4) = W2 m ρ c (Proc.devRef .tc main_arg4)).trans (W2_arg4 m ρ c))
theorem W4_arg5 (c : Dev nD) : W4 (F := Ideal) m ρ c (Proc.devRef .tc main_arg5) = m ((c : Thread nD τ).loc main_arg5) :=
  (W4_of_ne m ρ c main_arg5 (by decide)).trans
    ((by host_skip hostOps1 : W3 (F := Ideal) m ρ c (Proc.devRef .tc main_arg5) = W2 m ρ c (Proc.devRef .tc main_arg5)).trans (W2_arg5 m ρ c))
theorem W4_arg6 (c : Dev nD) : W4 (F := Ideal) m ρ c (Proc.devRef .tc main_arg6) = m ((c : Thread nD τ).loc main_arg6) :=
  (W4_of_ne m ρ c main_arg6 (by decide)).trans
    ((by host_skip hostOps1 : W3 (F := Ideal) m ρ c (Proc.devRef .tc main_arg6) = W2 m ρ c (Proc.devRef .tc main_arg6)).trans (W2_arg6 m ρ c))
theorem W4_arg7 (c : Dev nD) : W4 (F := Ideal) m ρ c (Proc.devRef .tc main_arg7) = m ((c : Thread nD τ).loc main_arg7) :=
  (W4_of_ne m ρ c main_arg7 (by decide)).trans
    ((by host_skip hostOps1 : W3 (F := Ideal) m ρ c (Proc.devRef .tc main_arg7) = W2 m ρ c (Proc.devRef .tc main_arg7)).trans (W2_arg7 m ρ c))
theorem W4_arg8 (c : Dev nD) : W4 (F := Ideal) m ρ c (Proc.devRef .tc main_arg8) = m ((c : Thread nD τ).loc main_arg8) :=
  (W4_of_ne m ρ c main_arg8 (by decide)).trans
    ((by host_skip hostOps1 : W3 (F := Ideal) m ρ c (Proc.devRef .tc main_arg8) = W2 m ρ c (Proc.devRef .tc main_arg8)).trans (W2_arg8 m ρ c))
theorem W4_arg9 (c : Dev nD) : W4 (F := Ideal) m ρ c (Proc.devRef .tc main_arg9) = m ((c : Thread nD τ).loc main_arg9) :=
  (W4_of_ne m ρ c main_arg9 (by decide)).trans
    ((by host_skip hostOps1 : W3 (F := Ideal) m ρ c (Proc.devRef .tc main_arg9) = W2 m ρ c (Proc.devRef .tc main_arg9)).trans (W2_arg9 m ρ c))
theorem W4_arg10 (c : Dev nD) : W4 (F := Ideal) m ρ c (Proc.devRef .tc main_arg10) = m ((c : Thread nD τ).loc main_arg10) :=
  (W4_of_ne m ρ c main_arg10 (by decide)).trans
    ((by host_skip hostOps1 : W3 (F := Ideal) m ρ c (Proc.devRef .tc main_arg10) = W2 m ρ c (Proc.devRef .tc main_arg10)).trans (W2_arg10 m ρ c))

/-! ### After region 2 -/
theorem W6_arg1 (c : Dev nD) : W6 (F := Ideal) m ρ c (Proc.devRef .tc main_arg1) = m ((c : Thread nD τ).loc main_arg1) :=
  (W6_of_ne m ρ c main_arg1 (by decide)).trans
    ((by host_skip hostOps2 : W5 (F := Ideal) m ρ c (Proc.devRef .tc main_arg1) = W4 m ρ c (Proc.devRef .tc main_arg1)).trans (W4_arg1 m ρ c))
theorem W6_arg2 (c : Dev nD) : W6 (F := Ideal) m ρ c (Proc.devRef .tc main_arg2) = m ((c : Thread nD τ).loc main_arg2) :=
  (W6_of_ne m ρ c main_arg2 (by decide)).trans
    ((by host_skip hostOps2 : W5 (F := Ideal) m ρ c (Proc.devRef .tc main_arg2) = W4 m ρ c (Proc.devRef .tc main_arg2)).trans (W4_arg2 m ρ c))
theorem W6_arg3 (c : Dev nD) : W6 (F := Ideal) m ρ c (Proc.devRef .tc main_arg3) = m ((c : Thread nD τ).loc main_arg3) :=
  (W6_of_ne m ρ c main_arg3 (by decide)).trans
    ((by host_skip hostOps2 : W5 (F := Ideal) m ρ c (Proc.devRef .tc main_arg3) = W4 m ρ c (Proc.devRef .tc main_arg3)).trans (W4_arg3 m ρ c))
theorem W6_arg4 (c : Dev nD) : W6 (F := Ideal) m ρ c (Proc.devRef .tc main_arg4) = m ((c : Thread nD τ).loc main_arg4) :=
  (W6_of_ne m ρ c main_arg4 (by decide)).trans
    ((by host_skip hostOps2 : W5 (F := Ideal) m ρ c (Proc.devRef .tc main_arg4) = W4 m ρ c (Proc.devRef .tc main_arg4)).trans (W4_arg4 m ρ c))
theorem W6_arg5 (c : Dev nD) : W6 (F := Ideal) m ρ c (Proc.devRef .tc main_arg5) = m ((c : Thread nD τ).loc main_arg5) :=
  (W6_of_ne m ρ c main_arg5 (by decide)).trans
    ((by host_skip hostOps2 : W5 (F := Ideal) m ρ c (Proc.devRef .tc main_arg5) = W4 m ρ c (Proc.devRef .tc main_arg5)).trans (W4_arg5 m ρ c))
theorem W6_arg6 (c : Dev nD) : W6 (F := Ideal) m ρ c (Proc.devRef .tc main_arg6) = m ((c : Thread nD τ).loc main_arg6) :=
  (W6_of_ne m ρ c main_arg6 (by decide)).trans
    ((by host_skip hostOps2 : W5 (F := Ideal) m ρ c (Proc.devRef .tc main_arg6) = W4 m ρ c (Proc.devRef .tc main_arg6)).trans (W4_arg6 m ρ c))
theorem W6_arg7 (c : Dev nD) : W6 (F := Ideal) m ρ c (Proc.devRef .tc main_arg7) = m ((c : Thread nD τ).loc main_arg7) :=
  (W6_of_ne m ρ c main_arg7 (by decide)).trans
    ((by host_skip hostOps2 : W5 (F := Ideal) m ρ c (Proc.devRef .tc main_arg7) = W4 m ρ c (Proc.devRef .tc main_arg7)).trans (W4_arg7 m ρ c))
theorem W6_arg8 (c : Dev nD) : W6 (F := Ideal) m ρ c (Proc.devRef .tc main_arg8) = m ((c : Thread nD τ).loc main_arg8) :=
  (W6_of_ne m ρ c main_arg8 (by decide)).trans
    ((by host_skip hostOps2 : W5 (F := Ideal) m ρ c (Proc.devRef .tc main_arg8) = W4 m ρ c (Proc.devRef .tc main_arg8)).trans (W4_arg8 m ρ c))
theorem W6_arg9 (c : Dev nD) : W6 (F := Ideal) m ρ c (Proc.devRef .tc main_arg9) = m ((c : Thread nD τ).loc main_arg9) :=
  (W6_of_ne m ρ c main_arg9 (by decide)).trans
    ((by host_skip hostOps2 : W5 (F := Ideal) m ρ c (Proc.devRef .tc main_arg9) = W4 m ρ c (Proc.devRef .tc main_arg9)).trans (W4_arg9 m ρ c))
theorem W6_arg10 (c : Dev nD) : W6 (F := Ideal) m ρ c (Proc.devRef .tc main_arg10) = m ((c : Thread nD τ).loc main_arg10) :=
  (W6_of_ne m ρ c main_arg10 (by decide)).trans
    ((by host_skip hostOps2 : W5 (F := Ideal) m ρ c (Proc.devRef .tc main_arg10) = W4 m ρ c (Proc.devRef .tc main_arg10)).trans (W4_arg10 m ρ c))

/-! ### After region 3 -/
theorem W8_arg1 (c : Dev nD) : W8 (F := Ideal) m ρ c (Proc.devRef .tc main_arg1) = m ((c : Thread nD τ).loc main_arg1) :=
  (W8_of_ne m ρ c main_arg1 (by decide)).trans
    ((by host_skip hostOps3 : W7 (F := Ideal) m ρ c (Proc.devRef .tc main_arg1) = W6 m ρ c (Proc.devRef .tc main_arg1)).trans (W6_arg1 m ρ c))
theorem W8_arg2 (c : Dev nD) : W8 (F := Ideal) m ρ c (Proc.devRef .tc main_arg2) = m ((c : Thread nD τ).loc main_arg2) :=
  (W8_of_ne m ρ c main_arg2 (by decide)).trans
    ((by host_skip hostOps3 : W7 (F := Ideal) m ρ c (Proc.devRef .tc main_arg2) = W6 m ρ c (Proc.devRef .tc main_arg2)).trans (W6_arg2 m ρ c))
theorem W8_arg3 (c : Dev nD) : W8 (F := Ideal) m ρ c (Proc.devRef .tc main_arg3) = m ((c : Thread nD τ).loc main_arg3) :=
  (W8_of_ne m ρ c main_arg3 (by decide)).trans
    ((by host_skip hostOps3 : W7 (F := Ideal) m ρ c (Proc.devRef .tc main_arg3) = W6 m ρ c (Proc.devRef .tc main_arg3)).trans (W6_arg3 m ρ c))
theorem W8_arg4 (c : Dev nD) : W8 (F := Ideal) m ρ c (Proc.devRef .tc main_arg4) = m ((c : Thread nD τ).loc main_arg4) :=
  (W8_of_ne m ρ c main_arg4 (by decide)).trans
    ((by host_skip hostOps3 : W7 (F := Ideal) m ρ c (Proc.devRef .tc main_arg4) = W6 m ρ c (Proc.devRef .tc main_arg4)).trans (W6_arg4 m ρ c))
theorem W8_arg5 (c : Dev nD) : W8 (F := Ideal) m ρ c (Proc.devRef .tc main_arg5) = m ((c : Thread nD τ).loc main_arg5) :=
  (W8_of_ne m ρ c main_arg5 (by decide)).trans
    ((by host_skip hostOps3 : W7 (F := Ideal) m ρ c (Proc.devRef .tc main_arg5) = W6 m ρ c (Proc.devRef .tc main_arg5)).trans (W6_arg5 m ρ c))
theorem W8_arg6 (c : Dev nD) : W8 (F := Ideal) m ρ c (Proc.devRef .tc main_arg6) = m ((c : Thread nD τ).loc main_arg6) :=
  (W8_of_ne m ρ c main_arg6 (by decide)).trans
    ((by host_skip hostOps3 : W7 (F := Ideal) m ρ c (Proc.devRef .tc main_arg6) = W6 m ρ c (Proc.devRef .tc main_arg6)).trans (W6_arg6 m ρ c))
theorem W8_arg7 (c : Dev nD) : W8 (F := Ideal) m ρ c (Proc.devRef .tc main_arg7) = m ((c : Thread nD τ).loc main_arg7) :=
  (W8_of_ne m ρ c main_arg7 (by decide)).trans
    ((by host_skip hostOps3 : W7 (F := Ideal) m ρ c (Proc.devRef .tc main_arg7) = W6 m ρ c (Proc.devRef .tc main_arg7)).trans (W6_arg7 m ρ c))
theorem W8_arg8 (c : Dev nD) : W8 (F := Ideal) m ρ c (Proc.devRef .tc main_arg8) = m ((c : Thread nD τ).loc main_arg8) :=
  (W8_of_ne m ρ c main_arg8 (by decide)).trans
    ((by host_skip hostOps3 : W7 (F := Ideal) m ρ c (Proc.devRef .tc main_arg8) = W6 m ρ c (Proc.devRef .tc main_arg8)).trans (W6_arg8 m ρ c))
theorem W8_arg9 (c : Dev nD) : W8 (F := Ideal) m ρ c (Proc.devRef .tc main_arg9) = m ((c : Thread nD τ).loc main_arg9) :=
  (W8_of_ne m ρ c main_arg9 (by decide)).trans
    ((by host_skip hostOps3 : W7 (F := Ideal) m ρ c (Proc.devRef .tc main_arg9) = W6 m ρ c (Proc.devRef .tc main_arg9)).trans (W6_arg9 m ρ c))
theorem W8_arg10 (c : Dev nD) : W8 (F := Ideal) m ρ c (Proc.devRef .tc main_arg10) = m ((c : Thread nD τ).loc main_arg10) :=
  (W8_of_ne m ρ c main_arg10 (by decide)).trans
    ((by host_skip hostOps3 : W7 (F := Ideal) m ρ c (Proc.devRef .tc main_arg10) = W6 m ρ c (Proc.devRef .tc main_arg10)).trans (W6_arg10 m ρ c))

/-! ### After region 4 -/
theorem W10_arg1 (c : Dev nD) : W10 (F := Ideal) m ρ c (Proc.devRef .tc main_arg1) = m ((c : Thread nD τ).loc main_arg1) :=
  (W10_of_ne m ρ c main_arg1 (by decide)).trans
    ((by host_skip hostOps4 : W9 (F := Ideal) m ρ c (Proc.devRef .tc main_arg1) = W8 m ρ c (Proc.devRef .tc main_arg1)).trans (W8_arg1 m ρ c))
theorem W10_arg2 (c : Dev nD) : W10 (F := Ideal) m ρ c (Proc.devRef .tc main_arg2) = m ((c : Thread nD τ).loc main_arg2) :=
  (W10_of_ne m ρ c main_arg2 (by decide)).trans
    ((by host_skip hostOps4 : W9 (F := Ideal) m ρ c (Proc.devRef .tc main_arg2) = W8 m ρ c (Proc.devRef .tc main_arg2)).trans (W8_arg2 m ρ c))
theorem W10_arg3 (c : Dev nD) : W10 (F := Ideal) m ρ c (Proc.devRef .tc main_arg3) = m ((c : Thread nD τ).loc main_arg3) :=
  (W10_of_ne m ρ c main_arg3 (by decide)).trans
    ((by host_skip hostOps4 : W9 (F := Ideal) m ρ c (Proc.devRef .tc main_arg3) = W8 m ρ c (Proc.devRef .tc main_arg3)).trans (W8_arg3 m ρ c))
theorem W10_arg4 (c : Dev nD) : W10 (F := Ideal) m ρ c (Proc.devRef .tc main_arg4) = m ((c : Thread nD τ).loc main_arg4) :=
  (W10_of_ne m ρ c main_arg4 (by decide)).trans
    ((by host_skip hostOps4 : W9 (F := Ideal) m ρ c (Proc.devRef .tc main_arg4) = W8 m ρ c (Proc.devRef .tc main_arg4)).trans (W8_arg4 m ρ c))
theorem W10_arg5 (c : Dev nD) : W10 (F := Ideal) m ρ c (Proc.devRef .tc main_arg5) = m ((c : Thread nD τ).loc main_arg5) :=
  (W10_of_ne m ρ c main_arg5 (by decide)).trans
    ((by host_skip hostOps4 : W9 (F := Ideal) m ρ c (Proc.devRef .tc main_arg5) = W8 m ρ c (Proc.devRef .tc main_arg5)).trans (W8_arg5 m ρ c))
theorem W10_arg6 (c : Dev nD) : W10 (F := Ideal) m ρ c (Proc.devRef .tc main_arg6) = m ((c : Thread nD τ).loc main_arg6) :=
  (W10_of_ne m ρ c main_arg6 (by decide)).trans
    ((by host_skip hostOps4 : W9 (F := Ideal) m ρ c (Proc.devRef .tc main_arg6) = W8 m ρ c (Proc.devRef .tc main_arg6)).trans (W8_arg6 m ρ c))
theorem W10_arg7 (c : Dev nD) : W10 (F := Ideal) m ρ c (Proc.devRef .tc main_arg7) = m ((c : Thread nD τ).loc main_arg7) :=
  (W10_of_ne m ρ c main_arg7 (by decide)).trans
    ((by host_skip hostOps4 : W9 (F := Ideal) m ρ c (Proc.devRef .tc main_arg7) = W8 m ρ c (Proc.devRef .tc main_arg7)).trans (W8_arg7 m ρ c))
theorem W10_arg8 (c : Dev nD) : W10 (F := Ideal) m ρ c (Proc.devRef .tc main_arg8) = m ((c : Thread nD τ).loc main_arg8) :=
  (W10_of_ne m ρ c main_arg8 (by decide)).trans
    ((by host_skip hostOps4 : W9 (F := Ideal) m ρ c (Proc.devRef .tc main_arg8) = W8 m ρ c (Proc.devRef .tc main_arg8)).trans (W8_arg8 m ρ c))
theorem W10_arg9 (c : Dev nD) : W10 (F := Ideal) m ρ c (Proc.devRef .tc main_arg9) = m ((c : Thread nD τ).loc main_arg9) :=
  (W10_of_ne m ρ c main_arg9 (by decide)).trans
    ((by host_skip hostOps4 : W9 (F := Ideal) m ρ c (Proc.devRef .tc main_arg9) = W8 m ρ c (Proc.devRef .tc main_arg9)).trans (W8_arg9 m ρ c))
theorem W10_arg10 (c : Dev nD) : W10 (F := Ideal) m ρ c (Proc.devRef .tc main_arg10) = m ((c : Thread nD τ).loc main_arg10) :=
  (W10_of_ne m ρ c main_arg10 (by decide)).trans
    ((by host_skip hostOps4 : W9 (F := Ideal) m ρ c (Proc.devRef .tc main_arg10) = W8 m ρ c (Proc.devRef .tc main_arg10)).trans (W8_arg10 m ρ c))

/-! ## The regions' output arrays, carried to where they are next read -/

/-- Region 0's product, at its exit. -/
theorem W2_v5 (c : Dev nD) : W2 (F := Ideal) m ρ c (Proc.devRef .tc main_v5) = (dat0 (V1 m ρ) c).arrAt 2 cfg0.N :=
  W2_arr m ρ c 2
/-- Region 1's update, at its exit. -/
theorem W4_v40 (c : Dev nD) : W4 (F := Ideal) m ρ c (Proc.devRef .tc main_v40) = (dat1 (V3 m ρ) c).arrAt 5 cfg1.N :=
  W4_arr m ρ c 5
/-- Region 2 only reads region 1's update (its first input window), and the stretch before it does not write it. -/
theorem W6_v40 (c : Dev nD) : W6 (F := Ideal) m ρ c (Proc.devRef .tc main_v40) = (dat1 (V3 m ρ) c).arrAt 5 cfg1.N :=
  ((W6_arr m ρ c 0).trans (((dat2 (V5 m ρ) c).arrAt_in 0 rfl _).trans (A_eq2 (V5 m ρ) c 0))).trans
    ((by host_skip hostOps2 : W5 (F := Ideal) m ρ c (Proc.devRef .tc main_v40) = W4 m ρ c (Proc.devRef .tc main_v40)).trans
      (W4_v40 m ρ c))
/-- Region 2's product, at its exit. -/
theorem W6_v46 (c : Dev nD) : W6 (F := Ideal) m ρ c (Proc.devRef .tc main_v46) = (dat2 (V5 m ρ) c).arrAt 2 cfg2.N :=
  W6_arr m ρ c 2
/-- Region 3's update, at its exit. -/
theorem W8_v81 (c : Dev nD) : W8 (F := Ideal) m ρ c (Proc.devRef .tc main_v81) = (dat3 (V7 m ρ) c).arrAt 5 cfg3.N :=
  W8_arr m ρ c 5
/-- Region 4 only reads region 3's update (its first input window), and the stretch before it does not write it. -/
theorem W10_v81 (c : Dev nD) : W10 (F := Ideal) m ρ c (Proc.devRef .tc main_v81) = (dat3 (V7 m ρ) c).arrAt 5 cfg3.N :=
  ((W10_arr m ρ c 0).trans (((dat4 (V9 m ρ) c).arrAt_in 0 rfl _).trans (A_eq4 (V9 m ρ) c 0))).trans
    ((by host_skip hostOps4 : W9 (F := Ideal) m ρ c (Proc.devRef .tc main_v81) = W8 m ρ c (Proc.devRef .tc main_v81)).trans
      (W8_v81 m ρ c))
/-- Region 4's product, at its exit. -/
theorem W10_v87 (c : Dev nD) : W10 (F := Ideal) m ρ c (Proc.devRef .tc main_v87) = (dat4 (V9 m ρ) c).arrAt 2 cfg4.N :=
  W10_arr m ρ c 2
/-- Region 5's update: the kernel's result. -/
theorem W12_v122 (c : Dev nD) : W12 (F := Ideal) m ρ c (Proc.devRef .tc main_v122) = (dat5 (V11 m ρ) c).arrAt 5 cfg5.N :=
  W12_arr m ρ c 5

end Cert.KernelIdeal.KVal

end
-- ==== Proof.Spec.lean ====
/-
  The two whole-array functions the six kernel regions compute, stated once over literal shapes at the
  ideal instance (entries are extended reals, every operation exact).

  * `mmOut x w`: the product of a [50000,128] array with a [128,256] array — entry (n, j) is the sum over
    k of x[n,k] * w[k,j].  A row block of the result depends only on the same row block of x, so a grid of
    row blocks computes it block by block.
  * `bnOut x agg slf sc sh`: the residual update x + max((agg + slf) * sc + sh, 0), where the scale sc and
    the shift sh are single rows broadcast down the 50000 rows.  It is pointwise in the row index.
-/
import Idealize.ShloMosaic.PureOps.Ideal
import Idealize.ShloMosaic.Lib.ValueIdx

noncomputable section

namespace Cert.Gcn

open Idealize.ShloMosaic Idealize.ShloMosaic.ValueIdx

abbrev SX : Shape := ⟨2, ![50000, 128]⟩
abbrev SC : Shape := ⟨2, ![50000, 256]⟩
abbrev SW2 : Shape := ⟨2, ![128, 256]⟩
abbrev SP : Shape := ⟨2, ![1, 128]⟩

/-- Entry (n, j) of the product of `x` ([50000,128]) with `w` ([128,256]): the sum over k of x[n,k] * w[k,j]. -/
def mmOut (x : FVec Ideal SX .f32) (w : FVec Ideal SW2 .f32) : FVec Ideal SC .f32 :=
  fun i => ∑ k : Fin 128, x (ix2 (⟨(i 0).val, (i 0).isLt⟩ : Fin 50000) k) * w (ix2 k (⟨(i 1).val, (i 1).isLt⟩ : Fin 256))

/-- Entry (n, j) of the residual update: x[n,j] + max((agg[n,j] + slf[n,j]) * sc[0,j] + sh[0,j], 0); the zero is
    kept as the f32 zero word's value, which both programs carry. -/
def bnOut (x agg slf : FVec Ideal SX .f32) (sc sh : FVec Ideal SP .f32) : FVec Ideal SX .f32 :=
  fun i => x i + max ((agg i + slf i) * sc (ix2 (0 : Fin 1) (⟨(i 1).val, (i 1).isLt⟩ : Fin 128))
      + sh (ix2 (0 : Fin 1) (⟨(i 1).val, (i 1).isLt⟩ : Fin 128))) (Ideal.ofBits .f32 0x00000000#32)

end Cert.Gcn

end
-- ==== Proof.KTerms.lean ====
/-
  The kernel program's host arithmetic between its regions, named once: the weight pair laid side by side, the
  two column halves of a product, the edge aggregation (gather the source rows, weight them, sum them into
  their target rows), one parameter row of a [6,128] table, the batch-norm scale and shift rows, and one whole
  layer  x ↦ x + max((agg + self) * scale + shift, 0)  as a function of the node array x and the inputs.
-/
import proofs.«115942_j16338055594707_1_alg».proof.KernelIdeal
import proofs.«115942_j16338055594707_1_alg».proof.Proof.Gen.KernelIdeal
import proofs.«115942_j16338055594707_1_alg».proof.Proof.Spec

noncomputable section

namespace Cert.KernelIdeal.KT

open Cert.KernelIdeal Cert.KernelIdeal.Gen Cert.Gcn Idealize.ShloMosaic

/-- The [128,256] weight pair of one layer: rows of W[l] and SW[l] side by side. -/
def wwOf (o : Fin 3 → Nat) (h : S6x128x128.Slices o S1x128x128) (a4 a5 : FVec Ideal S6x128x128 .f32) : FVec Ideal S128x256 .f32 :=
  concatenate S128x256 1 [⟨S128x128, shapeCast _ (extractStridedSlice S1x128x128 o a4 h) shapeCasts_S1x128x128_S128x128⟩,
    ⟨S128x128, shapeCast _ (extractStridedSlice S1x128x128 o a5 h) shapeCasts_S1x128x128_S128x128⟩] concatenates_S128x128_S128x128_S128x256_d1

/-- The left column half (columns 0..127) of a [50000,256] product: the neighbour term's support. -/
def supOf (cmb : FVec Ideal S50000x256 .f32) : FVec Ideal S50000x128 .f32 :=
  extractStridedSlice S50000x128 ![0, 0] cmb slices_S50000x256_S50000x128_0_0
/-- The right column half (columns 128..255): the self term. -/
def slfOf (cmb : FVec Ideal S50000x256 .f32) : FVec Ideal S50000x128 .f32 :=
  extractStridedSlice S50000x128 ![0, 128] cmb slices_S50000x256_S50000x128_0_128

/-- The edge aggregation: row e of the gathered array is the support row at source node col[e] (a negative index
    counted from the end), weighted by the edge weight; the rows are summed into their target nodes row[e]. -/
def aggOf (sup : FVec Ideal S50000x128 .f32) (a1 a2 : IVec S800000 32) (a3 : FVec Ideal S800000 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a1)
    (mulf (Host.gather gather_S50000x128_S800000x1_S800000x128_1_0_n_n_0_1_1128 sup
        (broadcastInDim S800000x1 ![0] bcast_S800000_S800000x1_0
          (select (cmpi .slt a2 (broadcastInDim S800000 ![] bcast_S_S800000 (constantI S_ 32 0#32)))
            (addi a2 (broadcastInDim S800000 ![] bcast_S_S800000 (constantI S_ 32 50000#32))) a2)))
      (broadcastInDim S800000x128 ![0, 1] bcast_S800000x1_S800000x128_0_1 (broadcastInDim S800000x1 ![0] bcast_S800000_S800000x1_0 a3)))

/-- Row l of a [6,128] parameter table as a [128] vector. -/
def rowOf (o : Fin 2 → Nat) (h : S6x128.Slices o S1x128) (a : FVec Ideal S6x128 .f32) : FVec Ideal S128 .f32 :=
  shapeCast _ (extractStridedSlice S1x128 o a h) shapeCasts_S1x128_S128

/-- The batch-norm scale row: gamma[l] * rsqrt(rvar[l] + eps). -/
def scaleOf (o : Fin 2 → Nat) (h : S6x128.Slices o S1x128) (a7 a10 : FVec Ideal S6x128 .f32) : FVec Ideal S128 .f32 :=
  mulf (rowOf o h a7) (Host.rsqrt (addf (rowOf o h a10) (broadcastInDim S128 ![] bcast_S_S128 (constant (F := Ideal) S_ .f32 0x3727C5AC#32))))

/-- The batch-norm shift row: (b[l] - rmean[l]) * scale + beta[l]. -/
def shiftOf (o : Fin 2 → Nat) (h : S6x128.Slices o S1x128) (a6 a7 a8 a9 a10 : FVec Ideal S6x128 .f32) : FVec Ideal S128 .f32 :=
  addf (mulf (subf (rowOf o h a6) (rowOf o h a9)) (scaleOf o h a7 a10)) (rowOf o h a8)

/-- A [128] vector as a [1,128] row. -/
def asRow (v : FVec Ideal S128 .f32) : FVec Ideal S1x128 .f32 := shapeCast _ v shapeCasts_S128_S1x128

/-- One layer of the kernel's program on the node array `x`. -/
def layerOf (o3 : Fin 3 → Nat) (h3 : S6x128x128.Slices o3 S1x128x128) (o2 : Fin 2 → Nat) (h2 : S6x128.Slices o2 S1x128)
    (x : FVec Ideal S50000x128 .f32) (a1 a2 : IVec S800000 32) (a3 : FVec Ideal S800000 .f32)
    (a4 a5 : FVec Ideal S6x128x128 .f32) (a6 a7 a8 a9 a10 : FVec Ideal S6x128 .f32) : FVec Ideal S50000x128 .f32 :=
  bnOut x (aggOf (supOf (mmOut x (wwOf o3 h3 a4 a5))) a1 a2 a3) (slfOf (mmOut x (wwOf o3 h3 a4 a5)))
    (asRow (scaleOf o2 h2 a7 a10)) (asRow (shiftOf o2 h2 a6 a7 a8 a9 a10))

end Cert.KernelIdeal.KT

end
-- ==== Proof.RegMM.lean ====
/- The three matrix-product regions: after all ten row blocks are written back, the output array is the whole
   product `mmOut` of the two arrays the region found on entry.

   Each region's body loads a [5000,128] row block and the whole [128,256] weight array, and stores their product
   into the matching [5000,256] row block of the output.  Entry (p, q) of that block is the sum over k of
   block[p,k] * w[k,q]; the block's row p is row 5000 t + p of the left array at grid point t, so the stored block is
   block t of the whole product, and the ten blocks tile the 50000 rows. -/
import proofs.«115942_j16338055594707_1_alg».proof.Proof.Gen.KernelIdeal.Frame
import proofs.«115942_j16338055594707_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The matrix product of a row block at an index

The three product kernels share one dimension record: the left operand's axis 1 is contracted against the right
operand's axis 0, no batch axes. At output index (p, q) and contraction coordinate k the operands are read at
(p, k) and (k, q). -/

theorem dot_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem dot_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem dot_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem dot_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product into the zero accumulator, at entry (p, q): the sum over k of a[p,k] * b[k,q]. -/
theorem mm_zero_apply {φ₁ φ₂ : FTy} (a : FVec Ideal S5000x128 φ₁) (b : FVec Ideal S128x256 φ₂) (p : Fin 5000) (q : Fin 256) :
    matmul dot_S5000x128_S128x256_S5000x256_1_0_0_1_n_n none a b (constant S5000x256 .f32 0x00000000#32) (ix2 p q)
      = ∑ k : Fin 128, a (ix2 p k) * b (ix2 k q) := by
  refine (Ideal.matmul_constant_zero_apply dot_S5000x128_S128x256_S5000x256_1_0_0_1_n_n none a b (ix2 p q)).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (dot_rhs_0 _ _).trans hk
    | ⟨1, _⟩ => exact dot_rhs_1 _ _)
  rw [el, er]

/-- Region 0's payload at entry (p, q) of the block: the rounding to bf16 is the identity on ideal values and the
    shape cast is to the same shape. -/
theorem pay0_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  rw [shapeCast_self]
  exact mm_zero_apply _ _ p q

theorem pay2_apply (x0 : Vec Ideal S5000x128 .f32) (x1 : Vec Ideal S128x256 .f32) (p : Fin 5000) (q : Fin 256) :
    k2_pay1 x0 x1 (ix2 p q) = ∑ k : Fin 128, x0 (ix2 p k) * x1 (ix2 k q) := by
  unfold k2_pay1
  rw [shapeCast_self, shapeCast_self]
  exact mm_zero_apply _ _ p q

theorem pay4_apply (x0 : Vec Ideal S5000x128 .f32) (x1 : Vec Ideal S128x256 .f32) (p : Fin 5000) (q : Fin 256) :
    k4_pay1 x0 x1 (ix2 p q) = ∑ k : Fin 128, x0 (ix2 p k) * x1 (ix2 k q) := by
  unfold k4_pay1
  rw [shapeCast_self, shapeCast_self]
  exact mm_zero_apply _ _ p q

-- the buffer contents when a region is entered: every statement below holds for any such contents
variable (V : (c : Dev nD) → (b : Ref sig .tc) → Buf (Elt Ideal) ((c : Thread nD τ).loc b))

theorem mm_zero_off : (![0, 0] : Fin 2 → Nat) = fun _ => 0 := funext fun a => by fin_cases a <;> rfl

/-! ## Region 0 -/

/-- The printed index maps, decided over the grid: the row-block windows are at block (t, 0), the weight window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of its array. -/
theorem lhs_blk0 (c : Dev nD) (t : Fin cfg0.N) (p : Fin 5000) (k : Fin 128) (r : Fin 50000) (hr : r.val = t.val * 5000 + p.val) :
    (iblk0 (F := Ideal) V c 0 t : Vec Ideal S5000x128 .f32) (ix2 p k) = (V c main_arg0 : S50000x128.Idx → Elt Ideal .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The right operand's block at every point is its whole array. -/
theorem rhs_blk0 (c : Dev nD) (t : Fin cfg0.N) (k : Fin 128) (q : Fin 256) :
    (iblk0 (F := Ideal) V c 1 t : Vec Ideal S128x256 .f32) (ix2 k q) = (V c main_v4 : S128x256.Idx → Elt Ideal .f32) (ix2 k q) := by
  obtain ⟨-, -, e2, e3, -⟩ := idx_facts0 t
  unfold iblk0
  rw [View.read_apply]
  show V c main_v4 _ = V c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

set_option maxHeartbeats 1000000 in
/-- WHAT POINT t WRITES BACK is block t of the whole product of the two arrays the region found on entry. -/
theorem flushed_mm0 (c : Dev nD) (t : Fin cfg0.N) :
    (dat0 (F := Ideal) V c).flushed 2 t = ((cfg0.win 2).blk t).view.read (Elt Ideal) (mmOut (V c main_arg0) (V c main_v4)) := by
  show (cfg0.win 2).cut (grid0.coords t) ((dat0 (F := Ideal) V c).after 2 t) = _
  rw [after0_2]
  unfold out0_2
  rw [View.canon_unit_zero mm_zero_off]
  simp only [View.ld_unit_zero (S := S5000x128) mm_zero_off, View.ld_unit_zero (S := S128x256) mm_zero_off]
  obtain ⟨-, -, -, -, e4, e5⟩ := idx_facts0 t
  funext j
  obtain ⟨p, q, rfl⟩ : ∃ (p : Fin 5000) (q : Fin 256), j = ix2 p q := ⟨j 0, j 1, eq_ix2 j⟩
  rw [View.read_apply]
  refine (pay0_apply (iblk0 (F := Ideal) V c 0 t) (iblk0 (F := Ideal) V c 1 t) p q).trans ?_
  unfold mmOut
  refine Finset.sum_congr rfl fun k _ => ?_
  have h0 : ((((cfg0.win 2).blk t).view.emb (ix2 p q)) 0).val = t.val * 5000 + p.val := by
    show win0_2.index t (0 : Fin 2) * 5000 + 1 * p.val = _; rw [e4]; omega
  have h1 : ((((cfg0.win 2).blk t).view.emb (ix2 p q)) 1).val = q.val := by
    show win0_2.index t (1 : Fin 2) * 256 + 1 * q.val = _; rw [e5]; omega
  exact congrArg₂ (· * ·) (lhs_blk0 V c t p k ⟨_, (((cfg0.win 2).blk t).view.emb (ix2 p q) 0).isLt⟩ h0)
    ((rhs_blk0 V c t k q).trans (congrArg (V c main_v4) (congrArg (ix2 k) (Fin.ext h1.symm))))

/-- An index of the output array is in point t's block iff each coordinate is in the block's range on its axis. -/
theorem mem_blk_mm0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v5).slice (win0_2.rect t)).set ↔ _
  rw [View.set_slice_whole, Rect.mem_set_unit]
  exact Iff.rfl

/-- The ten row blocks cover the output array: row r is in the block of point r / 5000. -/
theorem cover_mm0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  have ht : t.val = (i 0).val / 5000 := rfl
  obtain ⟨-, -, -, -, e4, e5⟩ := idx_facts0 t
  refine ⟨t, flush0_2 t, ?_⟩
  rw [mem_blk_mm0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 256 ≤ (i 1).val ∧ (i 1).val < win0_2.index t (1 : Fin 2) * 256 + 256; rw [e5]; omega

/-- THE OUTPUT ARRAY after the region's ten write-backs: the whole product. -/
theorem final_mm0 (c : Dev nD) : (dat0 (F := Ideal) V c).arrAt 2 cfg0.N = mmOut (V c main_arg0) (V c main_v4) :=
  (dat0 (F := Ideal) V c).arrAt_eq_of_cover 2 (mmOut (V c main_arg0) (V c main_v4)) (fun t _ => flushed_mm0 V c t) cover_mm0

/-! ## Region 2 -/

/-- The printed index maps, decided over the grid: the row-block windows are at block (t, 0), the weight window at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000 t … 5000 t + 4999 of its array. -/
theorem lhs_blk2 (c : Dev nD) (t : Fin cfg2.N) (p : Fin 5000) (k : Fin 128) (r : Fin 50000) (hr : r.val = t.val * 5000 + p.val) :
    (iblk2 (F := Ideal) V c 0 t : Vec Ideal S5000x128 .f32) (ix2 p k) = (V c main_v40 : S50000x128.Idx → Elt Ideal .f32) (ix2 r k) := by
  obtain ⟨e0, e1, -⟩ := idx_facts2 t
  unfold iblk2
  rw [View.read_apply]
  show V c main_v40 _ = V c main_v40 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The right operand's block at every point is its whole array. -/
theorem rhs_blk2 (c : Dev nD) (t : Fin cfg2.N) (k : Fin 128) (q : Fin 256) :
    (iblk2 (F := Ideal) V c 1 t : Vec Ideal S128x256 .f32) (ix2 k q) = (V c main_v45 : S128x256.Idx → Elt Ideal .f32) (ix2 k q) := by
  obtain ⟨-, -, e2, e3, -⟩ := idx_facts2 t
  unfold iblk2
  rw [View.read_apply]
  show V c main_v45 _ = V c main_v45 _
  congr 1
  funext a
  apply Fin.ext
  match a with
  | ⟨0, _⟩ => show win2_1.index t (0 : Fin 2) * 128 + 1 * k.val = k.val; rw [e2]; omega
  | ⟨1, _⟩ => show win2_1.index t (1 : Fin 2) * 256 + 1 * q.val = q.val; rw [e3]; omega

set_option maxHeartbeats 1000000 in
/-- WHAT POINT t WRITES BACK is block t of the whole product of the two arrays the region found on entry. -/
theorem flushed_mm2 (c : Dev nD) (t : Fin cfg2.N) :
    (dat2 (F := Ideal) V c).flushed 2 t = ((cfg2.win 2).blk t).view.read (Elt Ideal) (mmOut (V c main_v40) (V c main_v45)) := by
  show (cfg2.win 2).cut (grid2.coords t) ((dat2 (F := Ideal) V c).after 2 t) = _
  rw [after2_2]
  unfold out2_2
  rw [View.canon_unit_zero mm_zero_off]
  simp only [View.ld_unit_zero (S := S5000x128) mm_zero_off, View.ld_unit_zero (S := S128x256) mm_zero_off]
  obtain ⟨-, -, -, -, e4, e5⟩ := idx_facts2 t
  funext j
  obtain ⟨p, q, rfl⟩ : ∃ (p : Fin 5000) (q : Fin 256), j = ix2 p q := ⟨j 0, j 1, eq_ix2 j⟩
  rw [View.read_apply]
  refine (pay2_apply (iblk2 (F := Ideal) V c 0 t) (iblk2 (F := Ideal) V c 1 t) p q).trans ?_
  unfold mmOut
  refine Finset.sum_congr rfl fun k _ => ?_
  have h0 : ((((cfg2.win 2).blk t).view.emb (ix2 p q)) 0).val = t.val * 5000 + p.val := by
    show win2_2.index t (0 : Fin 2) * 5000 + 1 * p.val = _; rw [e4]; omega
  have h1 : ((((cfg2.win 2).blk t).view.emb (ix2 p q)) 1).val = q.val := by
    show win2_2.index t (1 : Fin 2) * 256 + 1 * q.val = _; rw [e5]; omega
  exact congrArg₂ (· * ·) (lhs_blk2 V c t p k ⟨_, (((cfg2.win 2).blk t).view.emb (ix2 p q) 0).isLt⟩ h0)
    ((rhs_blk2 V c t k q).trans (congrArg (V c main_v45) (congrArg (ix2 k) (Fin.ext h1.symm))))

/-- An index of the output array is in point t's block iff each coordinate is in the block's range on its axis. -/
theorem mem_blk_mm2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v46).slice (win2_2.rect t)).set ↔ _
  rw [View.set_slice_whole, Rect.mem_set_unit]
  exact Iff.rfl

/-- The ten row blocks cover the output array: row r is in the block of point r / 5000. -/
theorem cover_mm2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  have ht : t.val = (i 0).val / 5000 := rfl
  obtain ⟨-, -, -, -, e4, e5⟩ := idx_facts2 t
  refine ⟨t, flush2_2 t, ?_⟩
  rw [mem_blk_mm2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 256 ≤ (i 1).val ∧ (i 1).val < win2_2.index t (1 : Fin 2) * 256 + 256; rw [e5]; omega

/-- THE OUTPUT ARRAY after the region's ten write-backs: the whole product. -/
theorem final_mm2 (c : Dev nD) : (dat2 (F := Ideal) V c).arrAt 2 cfg2.N = mmOut (V c main_v40) (V c main_v45) :=
  (dat2 (F := Ideal) V c).arrAt_eq_of_cover 2 (mmOut (V c main_v40) (V c main_v45)) (fun t _ => flushed_mm2 V c t) cover_mm2

/-! ## Region 4 -/

/-- The printed index maps, decided over the grid: the row-block windows are at block (t, 0), the weight window at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is rows 5000 t … 5000 t + 4999 of its array. -/
theorem lhs_blk4 (c : Dev nD) (t : Fin cfg4.N) (p : Fin 5000) (k : Fin 128) (r : Fin 50000) (hr : r.val = t.val * 5000 + p.val) :
    (iblk4 (F := Ideal) V c 0 t : Vec Ideal S5000x128 .f32) (ix2 p k) = (V c main_v81 : S50000x128.Idx → Elt Ideal .f32) (ix2 r k) := by
  obtain ⟨e0, e1, -⟩ := idx_facts4 t
  unfold iblk4
  rw [View.read_apply]
  show V c main_v81 _ = V c main_v81 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The right operand's block at every point is its whole array. -/
theorem rhs_blk4 (c : Dev nD) (t : Fin cfg4.N) (k : Fin 128) (q : Fin 256) :
    (iblk4 (F := Ideal) V c 1 t : Vec Ideal S128x256 .f32) (ix2 k q) = (V c main_v86 : S128x256.Idx → Elt Ideal .f32) (ix2 k q) := by
  obtain ⟨-, -, e2, e3, -⟩ := idx_facts4 t
  unfold iblk4
  rw [View.read_apply]
  show V c main_v86 _ = V c main_v86 _
  congr 1
  funext a
  apply Fin.ext
  match a with
  | ⟨0, _⟩ => show win4_1.index t (0 : Fin 2) * 128 + 1 * k.val = k.val; rw [e2]; omega
  | ⟨1, _⟩ => show win4_1.index t (1 : Fin 2) * 256 + 1 * q.val = q.val; rw [e3]; omega

set_option maxHeartbeats 1000000 in
/-- WHAT POINT t WRITES BACK is block t of the whole product of the two arrays the region found on entry. -/
theorem flushed_mm4 (c : Dev nD) (t : Fin cfg4.N) :
    (dat4 (F := Ideal) V c).flushed 2 t = ((cfg4.win 2).blk t).view.read (Elt Ideal) (mmOut (V c main_v81) (V c main_v86)) := by
  show (cfg4.win 2).cut (grid4.coords t) ((dat4 (F := Ideal) V c).after 2 t) = _
  rw [after4_2]
  unfold out4_2
  rw [View.canon_unit_zero mm_zero_off]
  simp only [View.ld_unit_zero (S := S5000x128) mm_zero_off, View.ld_unit_zero (S := S128x256) mm_zero_off]
  obtain ⟨-, -, -, -, e4, e5⟩ := idx_facts4 t
  funext j
  obtain ⟨p, q, rfl⟩ : ∃ (p : Fin 5000) (q : Fin 256), j = ix2 p q := ⟨j 0, j 1, eq_ix2 j⟩
  rw [View.read_apply]
  refine (pay4_apply (iblk4 (F := Ideal) V c 0 t) (iblk4 (F := Ideal) V c 1 t) p q).trans ?_
  unfold mmOut
  refine Finset.sum_congr rfl fun k _ => ?_
  have h0 : ((((cfg4.win 2).blk t).view.emb (ix2 p q)) 0).val = t.val * 5000 + p.val := by
    show win4_2.index t (0 : Fin 2) * 5000 + 1 * p.val = _; rw [e4]; omega
  have h1 : ((((cfg4.win 2).blk t).view.emb (ix2 p q)) 1).val = q.val := by
    show win4_2.index t (1 : Fin 2) * 256 + 1 * q.val = _; rw [e5]; omega
  exact congrArg₂ (· * ·) (lhs_blk4 V c t p k ⟨_, (((cfg4.win 2).blk t).view.emb (ix2 p q) 0).isLt⟩ h0)
    ((rhs_blk4 V c t k q).trans (congrArg (V c main_v86) (congrArg (ix2 k) (Fin.ext h1.symm))))

/-- An index of the output array is in point t's block iff each coordinate is in the block's range on its axis. -/
theorem mem_blk_mm4 (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v87).slice (win4_2.rect t)).set ↔ _
  rw [View.set_slice_whole, Rect.mem_set_unit]
  exact Iff.rfl

/-- The ten row blocks cover the output array: row r is in the block of point r / 5000. -/
theorem cover_mm4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 10 := N_4
  let t : Fin cfg4.N := ⟨(i 0).val / 5000, by rw [hN]; omega⟩
  have ht : t.val = (i 0).val / 5000 := rfl
  obtain ⟨-, -, -, -, e4, e5⟩ := idx_facts4 t
  refine ⟨t, flush4_2 t, ?_⟩
  rw [mem_blk_mm4]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 256 ≤ (i 1).val ∧ (i 1).val < win4_2.index t (1 : Fin 2) * 256 + 256; rw [e5]; omega

/-- THE OUTPUT ARRAY after the region's ten write-backs: the whole product. -/
theorem final_mm4 (c : Dev nD) : (dat4 (F := Ideal) V c).arrAt 2 cfg4.N = mmOut (V c main_v81) (V c main_v86) :=
  (dat4 (F := Ideal) V c).arrAt_eq_of_cover 2 (mmOut (V c main_v81) (V c main_v86)) (fun t _ => flushed_mm4 V c t) cover_mm4

end Cert.KernelIdeal.RegVal

end
-- ==== Proof.RegBN.lean ====
/- The three residual-update regions: after all ten row blocks are written back, the output array is the whole
   pointwise update `bnOut` of the five arrays the region found on entry.

   Per region: one element of the stored row block as x + max((agg + slf) * sc + sh, 0); the block index of each
   window at every grid point; each input block as rows of its array; the block a point writes back as that block of
   `bnOut`; the ten row blocks tile the output array (row r belongs to point r / 5000); hence the whole array. -/
import proofs.«115942_j16338055594707_1_alg».proof.Proof.Gen.KernelIdeal.Frame
import proofs.«115942_j16338055594707_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- the buffer contents when a region is entered: every statement below holds for any such contents
variable (V : (c : Dev nD) → (b : Ref sig .tc) → Buf (Elt Ideal) ((c : Thread nD τ).loc b))

/-- The zero offsets of a whole-buffer load or store, as the constant function. -/
theorem zero_offsets : (![0, 0] : Fin 2 → Nat) = fun _ => 0 := funext fun a => by fin_cases a <;> rfl

/-! ## Region 1 -/

/-- One element of the update a row block stores: x + max((agg + slf) * sc + sh, 0), the scale and the shift read
    in their one row. -/
theorem bn_pay1_apply (v0 v2 : Vec Ideal S5000x128 .f32) (v5 v9 : Vec Ideal S1x128 .f32) (v15 : Vec Ideal S5000x128 .f32)
    (p : Fin 5000) (q : Fin 128) :
    k1_pay1 v0 v2 v5 v9 v15 (ix2 p q)
      = v15 (ix2 p q) + max ((v0 (ix2 p q) + v2 (ix2 p q)) * v5 (ix2 (0 : Fin 1) q) + v9 (ix2 (0 : Fin 1) q)) (Ideal.ofBits .f32 0x00000000#32) := by
  unfold k1_pay1
  simp only [shapeCast_self]
  rw [addf_apply, maximumf_apply, addf_apply, mulf_apply, addf_apply, broadcast_apply, broadcastTo_1b_ab_apply, broadcastTo_1b_ab_apply]
  rfl

/-- The printed index maps over the ten grid points: the four row-block windows are at block (t, 0), the two
    one-row windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row block t of the residual input: rows 5000 t … 5000 t + 4999 of its array. -/
theorem iblk1_0_apply (c : Dev nD) (t : Fin cfg1.N) (y : S5000x128.Idx) (k : S50000x128.Idx)
    (hk0 : (k 0).val = t.val * 5000 + (y 0).val) (hk1 : (k 1).val = (y 1).val) :
    (iblk1 V c 0 t : Vec Ideal S5000x128 .f32) y = (V c main_arg0 : Vec Ideal S50000x128 .f32) k := by
  have e0 := (idx_facts1 t).1
  have e1 := (idx_facts1 t).2.1
  unfold iblk1
  rw [View.read_apply]
  show V c main_arg0 _ = V c main_arg0 _
  refine congrArg (V c main_arg0) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Row block t of the aggregated input. -/
theorem iblk1_1_apply (c : Dev nD) (t : Fin cfg1.N) (y : S5000x128.Idx) (k : S50000x128.Idx)
    (hk0 : (k 0).val = t.val * 5000 + (y 0).val) (hk1 : (k 1).val = (y 1).val) :
    (iblk1 V c 1 t : Vec Ideal S5000x128 .f32) y = (V c main_v20 : Vec Ideal S50000x128 .f32) k := by
  have e0 := (idx_facts1 t).2.2.1
  have e1 := (idx_facts1 t).2.2.2.1
  unfold iblk1
  rw [View.read_apply]
  show V c main_v20 _ = V c main_v20 _
  refine congrArg (V c main_v20) (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 128 + 1 * (y 1).val = (k 1).val; rw [e1, hk1]; omega

/-- Row block t of the self input. -/
theorem iblk1_2_apply (c : Dev nD) (t : Fin cfg1.N) (y : S5000x128.Idx) (k : S50000x128.Idx)
    (hk0 : (k 0).val = t.val * 5000 + (y 0).val) (hk1 : (k 1).val = (y 1).val) :
    (iblk1 V c 2 t : Vec Ideal S5000x128 .f32) y = (V c main_v7 : Vec Ideal S50000x128 .f32) k := by
  have e0 := (idx_facts1 t).2.2.2.2.1
  have e1 := (idx_facts1 t).2.2.2.2.2.1
  unfold iblk1
  rw [View.read_apply]
  show V c main_v7 _ = V c main_v7 _
  refine congrArg (V c main_v7) (funext fun a => Fin.ext ?_)
  match a with
  | ⟨0, _⟩ => show win1_2.index t (0 : Fin 2) * 5000 + 1 * (y 0).val = (k 0).val; rw [e0, hk0]; omega
  | ⟨1, _⟩ => show win1_2.index t (1 : Fin 2) * 128 + 1 * (y 1).val = (k 1).val; rw [e1, hk1]; omega

/-- The scale's one block is its whole row. -/
theorem iblk1_3_apply (c : Dev nD) (t : Fin cfg1.N) (y : S1x128.Idx) (k : S1x128.Idx)
    (hk0 : (k 0).val = (y 0).val) (hk1 : (k 1).val = (y 1).val) :
    (iblk1 V c 3 t : Vec Ideal S1x128 .f32) y = (V c main_v38 : Vec Ideal S1x128 .f32) k := by
  have e0 := (idx_facts1 t).2.2.2.2.2.2.1
  have e1 := (idx_facts1 t).2.2.2.2.2.2.2.1
  unfold iblk1
  rw [View.read_apply]
  show V c main_v38 _ = V c main_v38 _
  refine congrArg (V c main_v38) (funext fun a => Fin.ext ?_)
  match a with
  | ⟨0, _⟩ => show win1_3.index t (0 : Fin 2) * 1 + 1 * (y 0).val = (k 0).val; rw [e0, hk0]; omega
  | ⟨1, _⟩ => show win1_3.index t (1 : Fin 2) * 128 + 1 * (y 1).val = (k 1).val; rw [e1, hk1]; omega

/-- The shift's one block is its whole row. -/
theorem iblk1_4_apply (c : Dev nD) (t : Fin cfg1.N) (y : S1x128.Idx) (k : S1x128.Idx)
    (hk0 : (k 0).val = (y 0).val) (hk1 : (k 1).val = (y 1).val) :
    (iblk1 V c 4 t : Vec Ideal S1x128 .f32) y = (V c main_v39 : Vec Ideal S1x128 .f32) k := by
  have e0 := (idx_facts1 t).2.2.2.2.2.2.2.2.1
  have e1 := (idx_facts1 t).2.2.2.2.2.2.2.2.2.1
  unfold iblk1
  rw [View.read_apply]
  show V c main_v39 _ = V c main_v39 _
  refine congrArg (V c main_v39) (funext fun a => Fin.ext ?_)
  match a with
  | ⟨0, _⟩ => show win1_4.index t (0 : Fin 2) * 1 + 1 * (y 0).val = (k 0).val; rw [e0, hk0]; omega
  | ⟨1, _⟩ => show win1_4.index t (1 : Fin 2) * 128 + 1 * (y 1).val = (k 1).val; rw [e1, hk1]; omega

/-- What point t writes back is block t of the whole-array update. -/
theorem flushed_bn1 (c : Dev nD) (t : Fin cfg1.N) :
    (dat1 (F := Ideal) V c).flushed 5 t = ((cfg1.win 5).blk t).view.read (Elt Ideal)
      (bnOut (V c main_arg0) (V c main_v20) (V c main_v7) (V c main_v38) (V c main_v39)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  have e0 := (idx_facts1 t).2.2.2.2.2.2.2.2.2.2.1
  have e1 := (idx_facts1 t).2.2.2.2.2.2.2.2.2.2.2
  funext j
  obtain ⟨p, q, rfl⟩ : ∃ (p : Fin 5000) (q : Fin 128), j = ix2 p q := ⟨j 0, j 1, eq_ix2 j⟩
  have hr0 : ((((cfg1.win 5).blk t).view.emb (ix2 p q) : S50000x128.Idx) 0).val = t.val * 5000 + p.val := by
    show win1_5.index t (0 : Fin 2) * 5000 + 1 * p.val = _; rw [e0]; omega
  have hr1 : ((((cfg1.win 5).blk t).view.emb (ix2 p q) : S50000x128.Idx) 1).val = q.val := by
    show win1_5.index t (1 : Fin 2) * 128 + 1 * q.val = _; rw [e1]; omega
  show k1_pay1 (iblk1 V c 1 t) (iblk1 V c 2 t) (iblk1 V c 3 t) (iblk1 V c 4 t) (iblk1 V c 0 t) (ix2 p q)
    = bnOut (V c main_arg0) (V c main_v20) (V c main_v7) (V c main_v38) (V c main_v39) (((cfg1.win 5).blk t).view.emb (ix2 p q))
  rw [bn_pay1_apply,
    iblk1_0_apply V c t (ix2 p q) _ hr0 hr1, iblk1_1_apply V c t (ix2 p q) _ hr0 hr1, iblk1_2_apply V c t (ix2 p q) _ hr0 hr1,
    iblk1_3_apply V c t (ix2 (0 : Fin 1) q) (ix2 (0 : Fin 1) ⟨_, ((((cfg1.win 5).blk t).view.emb (ix2 p q) : S50000x128.Idx) 1).isLt⟩) rfl hr1,
    iblk1_4_apply V c t (ix2 (0 : Fin 1) q) (ix2 (0 : Fin 1) ⟨_, ((((cfg1.win 5).blk t).view.emb (ix2 p q) : S50000x128.Idx) 1).isLt⟩) rfl hr1]
  rfl

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row r of the output array is written back by point r / 5000: the ten row blocks tile the array. -/
theorem cover_bn1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  have e0 := (idx_facts1 t).2.2.2.2.2.2.2.2.2.2.1
  have e1 := (idx_facts1 t).2.2.2.2.2.2.2.2.2.2.2
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- After the ten write-backs the output array is the whole-array update of the five arrays found on entry. -/
theorem final_bn1 (c : Dev nD) : (dat1 (F := Ideal) V c).arrAt 5 cfg1.N = bnOut (V c main_arg0) (V c main_v20) (V c main_v7) (V c main_v38) (V c main_v39) :=
  (dat1 (F := Ideal) V c).arrAt_eq_of_cover 5 (bnOut (V c main_arg0) (V c main_v20) (V c main_v7) (V c main_v38) (V c main_v39))
    (fun t _ => flushed_bn1 V c t) cover_bn1

/-! ## Region 3 -/

/-- One element of the update a row block stores: x + max((agg + slf) * sc + sh, 0), the scale and the shift read
    in their one row. -/
theorem bn_pay3_apply (v0 v2 : Vec Ideal S5000x128 .f32) (v5 v9 : Vec Ideal S1x128 .f32) (v15 : Vec Ideal S5000x128 .f32)
    (p : Fin 5000) (q : Fin 128) :
    k3_pay1 v0 v2 v5 v9 v15 (ix2 p q)
      = v15 (ix2 p q) + max ((v0 (ix2 p q) + v2 (ix2 p q)) * v5 (ix2 (0 : Fin 1) q) + v9 (ix2 (0 : Fin 1) q)) (Ideal.ofBits .f32 0x00000000#32) := by
  unfold k3_pay1
  simp only [shapeCast_self]
  rw [addf_apply, maximumf_apply, addf_apply, mulf_apply, addf_apply, broadcast_apply, broadcastTo_1b_ab_apply, broadcastTo_1b_ab_apply]
  rfl

/-- The printed index maps over the ten grid points: the four row-block windows are at block (t, 0), the two
    one-row windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row block t of the residual input: rows 5000 t … 5000 t + 4999 of its array. -/
theorem iblk3_0_apply (c : Dev nD) (t : Fin cfg3.N) (y : S5000x128.Idx) (k : S50000x128.Idx)
    (hk0 : (k 0).val = t.val * 5000 + (y 0).val) (hk1 : (k 1).val = (y 1).val) :
    (iblk3 V c 0 t : Vec Ideal S5000x128 .f32) y = (V c main_v40 : Vec Ideal S50000x128 .f32) k := by
  have e0 := (idx_facts3 t).1
  have e1 := (idx_facts3 t).2.1
  unfold iblk3
  rw [View.read_apply]
  show V c main_v40 _ = V c main_v40 _
  refine congrArg (V c main_v40) (funext fun a => Fin.ext ?_)
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Row block t of the aggregated input. -/
theorem iblk3_1_apply (c : Dev nD) (t : Fin cfg3.N) (y : S5000x128.Idx) (k : S50000x128.Idx)
    (hk0 : (k 0).val = t.val * 5000 + (y 0).val) (hk1 : (k 1).val = (y 1).val) :
    (iblk3 V c 1 t : Vec Ideal S5000x128 .f32) y = (V c main_v61 : Vec Ideal S50000x128 .f32) k := by
  have e0 := (idx_facts3 t).2.2.1
  have e1 := (idx_facts3 t).2.2.2.1
  unfold iblk3
  rw [View.read_apply]
  show V c main_v61 _ = V c main_v61 _
  refine congrArg (V c main_v61) (funext fun a => Fin.ext ?_)
  match a with
  | ⟨0, _⟩ => show win3_1.index t (0 : Fin 2) * 5000 + 1 * (y 0).val = (k 0).val; rw [e0, hk0]; omega
  | ⟨1, _⟩ => show win3_1.index t (1 : Fin 2) * 128 + 1 * (y 1).val = (k 1).val; rw [e1, hk1]; omega

/-- Row block t of the self input. -/
theorem iblk3_2_apply (c : Dev nD) (t : Fin cfg3.N) (y : S5000x128.Idx) (k : S50000x128.Idx)
    (hk0 : (k 0).val = t.val * 5000 + (y 0).val) (hk1 : (k 1).val = (y 1).val) :
    (iblk3 V c 2 t : Vec Ideal S5000x128 .f32) y = (V c main_v48 : Vec Ideal S50000x128 .f32) k := by
  have e0 := (idx_facts3 t).2.2.2.2.1
  have e1 := (idx_facts3 t).2.2.2.2.2.1
  unfold iblk3
  rw [View.read_apply]
  show V c main_v48 _ = V c main_v48 _
  refine congrArg (V c main_v48) (funext fun a => Fin.ext ?_)
  match a with
  | ⟨0, _⟩ => show win3_2.index t (0 : Fin 2) * 5000 + 1 * (y 0).val = (k 0).val; rw [e0, hk0]; omega
  | ⟨1, _⟩ => show win3_2.index t (1 : Fin 2) * 128 + 1 * (y 1).val = (k 1).val; rw [e1, hk1]; omega

/-- The scale's one block is its whole row. -/
theorem iblk3_3_apply (c : Dev nD) (t : Fin cfg3.N) (y : S1x128.Idx) (k : S1x128.Idx)
    (hk0 : (k 0).val = (y 0).val) (hk1 : (k 1).val = (y 1).val) :
    (iblk3 V c 3 t : Vec Ideal S1x128 .f32) y = (V c main_v79 : Vec Ideal S1x128 .f32) k := by
  have e0 := (idx_facts3 t).2.2.2.2.2.2.1
  have e1 := (idx_facts3 t).2.2.2.2.2.2.2.1
  unfold iblk3
  rw [View.read_apply]
  show V c main_v79 _ = V c main_v79 _
  refine congrArg (V c main_v79) (funext fun a => Fin.ext ?_)
  match a with
  | ⟨0, _⟩ => show win3_3.index t (0 : Fin 2) * 1 + 1 * (y 0).val = (k 0).val; rw [e0, hk0]; omega
  | ⟨1, _⟩ => show win3_3.index t (1 : Fin 2) * 128 + 1 * (y 1).val = (k 1).val; rw [e1, hk1]; omega

/-- The shift's one block is its whole row. -/
theorem iblk3_4_apply (c : Dev nD) (t : Fin cfg3.N) (y : S1x128.Idx) (k : S1x128.Idx)
    (hk0 : (k 0).val = (y 0).val) (hk1 : (k 1).val = (y 1).val) :
    (iblk3 V c 4 t : Vec Ideal S1x128 .f32) y = (V c main_v80 : Vec Ideal S1x128 .f32) k := by
  have e0 := (idx_facts3 t).2.2.2.2.2.2.2.2.1
  have e1 := (idx_facts3 t).2.2.2.2.2.2.2.2.2.1
  unfold iblk3
  rw [View.read_apply]
  show V c main_v80 _ = V c main_v80 _
  refine congrArg (V c main_v80) (funext fun a => Fin.ext ?_)
  match a with
  | ⟨0, _⟩ => show win3_4.index t (0 : Fin 2) * 1 + 1 * (y 0).val = (k 0).val; rw [e0, hk0]; omega
  | ⟨1, _⟩ => show win3_4.index t (1 : Fin 2) * 128 + 1 * (y 1).val = (k 1).val; rw [e1, hk1]; omega

/-- What point t writes back is block t of the whole-array update. -/
theorem flushed_bn3 (c : Dev nD) (t : Fin cfg3.N) :
    (dat3 (F := Ideal) V c).flushed 5 t = ((cfg3.win 5).blk t).view.read (Elt Ideal)
      (bnOut (V c main_v40) (V c main_v61) (V c main_v48) (V c main_v79) (V c main_v80)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  have e0 := (idx_facts3 t).2.2.2.2.2.2.2.2.2.2.1
  have e1 := (idx_facts3 t).2.2.2.2.2.2.2.2.2.2.2
  funext j
  obtain ⟨p, q, rfl⟩ : ∃ (p : Fin 5000) (q : Fin 128), j = ix2 p q := ⟨j 0, j 1, eq_ix2 j⟩
  have hr0 : ((((cfg3.win 5).blk t).view.emb (ix2 p q) : S50000x128.Idx) 0).val = t.val * 5000 + p.val := by
    show win3_5.index t (0 : Fin 2) * 5000 + 1 * p.val = _; rw [e0]; omega
  have hr1 : ((((cfg3.win 5).blk t).view.emb (ix2 p q) : S50000x128.Idx) 1).val = q.val := by
    show win3_5.index t (1 : Fin 2) * 128 + 1 * q.val = _; rw [e1]; omega
  show k3_pay1 (iblk3 V c 1 t) (iblk3 V c 2 t) (iblk3 V c 3 t) (iblk3 V c 4 t) (iblk3 V c 0 t) (ix2 p q)
    = bnOut (V c main_v40) (V c main_v61) (V c main_v48) (V c main_v79) (V c main_v80) (((cfg3.win 5).blk t).view.emb (ix2 p q))
  rw [bn_pay3_apply,
    iblk3_0_apply V c t (ix2 p q) _ hr0 hr1, iblk3_1_apply V c t (ix2 p q) _ hr0 hr1, iblk3_2_apply V c t (ix2 p q) _ hr0 hr1,
    iblk3_3_apply V c t (ix2 (0 : Fin 1) q) (ix2 (0 : Fin 1) ⟨_, ((((cfg3.win 5).blk t).view.emb (ix2 p q) : S50000x128.Idx) 1).isLt⟩) rfl hr1,
    iblk3_4_apply V c t (ix2 (0 : Fin 1) q) (ix2 (0 : Fin 1) ⟨_, ((((cfg3.win 5).blk t).view.emb (ix2 p q) : S50000x128.Idx) 1).isLt⟩) rfl hr1]
  rfl

/-- An index of the output array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v81).slice (win3_5.rect t)).set ↔ _
  rw [View.set_slice_whole, Rect.mem_set_unit]
  exact Iff.rfl

/-- Row r of the output array is written back by point r / 5000: the ten row blocks tile the array. -/
theorem cover_bn3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  have e0 := (idx_facts3 t).2.2.2.2.2.2.2.2.2.2.1
  have e1 := (idx_facts3 t).2.2.2.2.2.2.2.2.2.2.2
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- After the ten write-backs the output array is the whole-array update of the five arrays found on entry. -/
theorem final_bn3 (c : Dev nD) : (dat3 (F := Ideal) V c).arrAt 5 cfg3.N = bnOut (V c main_v40) (V c main_v61) (V c main_v48) (V c main_v79) (V c main_v80) :=
  (dat3 (F := Ideal) V c).arrAt_eq_of_cover 5 (bnOut (V c main_v40) (V c main_v61) (V c main_v48) (V c main_v79) (V c main_v80))
    (fun t _ => flushed_bn3 V c t) cover_bn3

/-! ## Region 5 -/

/-- One element of the update a row block stores: x + max((agg + slf) * sc + sh, 0), the scale and the shift read
    in their one row. -/
theorem bn_pay5_apply (v0 v2 : Vec Ideal S5000x128 .f32) (v5 v9 : Vec Ideal S1x128 .f32) (v15 : Vec Ideal S5000x128 .f32)
    (p : Fin 5000) (q : Fin 128) :
    k5_pay1 v0 v2 v5 v9 v15 (ix2 p q)
      = v15 (ix2 p q) + max ((v0 (ix2 p q) + v2 (ix2 p q)) * v5 (ix2 (0 : Fin 1) q) + v9 (ix2 (0 : Fin 1) q)) (Ideal.ofBits .f32 0x00000000#32) := by
  unfold k5_pay1
  simp only [shapeCast_self]
  rw [addf_apply, maximumf_apply, addf_apply, mulf_apply, addf_apply, broadcast_apply, broadcastTo_1b_ab_apply, broadcastTo_1b_ab_apply]
  rfl

/-- The printed index maps over the ten grid points: the four row-block windows are at block (t, 0), the two
    one-row windows at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row block t of the residual input: rows 5000 t … 5000 t + 4999 of its array. -/
theorem iblk5_0_apply (c : Dev nD) (t : Fin cfg5.N) (y : S5000x128.Idx) (k : S50000x128.Idx)
    (hk0 : (k 0).val = t.val * 5000 + (y 0).val) (hk1 : (k 1).val = (y 1).val) :
    (iblk5 V c 0 t : Vec Ideal S5000x128 .f32) y = (V c main_v81 : Vec Ideal S50000x128 .f32) k := by
  have e0 := (idx_facts5 t).1
  have e1 := (idx_facts5 t).2.1
  unfold iblk5
  rw [View.read_apply]
  show V c main_v81 _ = V c main_v81 _
  refine congrArg (V c main_v81) (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 128 + 1 * (y 1).val = (k 1).val; rw [e1, hk1]; omega

/-- Row block t of the aggregated input. -/
theorem iblk5_1_apply (c : Dev nD) (t : Fin cfg5.N) (y : S5000x128.Idx) (k : S50000x128.Idx)
    (hk0 : (k 0).val = t.val * 5000 + (y 0).val) (hk1 : (k 1).val = (y 1).val) :
    (iblk5 V c 1 t : Vec Ideal S5000x128 .f32) y = (V c main_v102 : Vec Ideal S50000x128 .f32) k := by
  have e0 := (idx_facts5 t).2.2.1
  have e1 := (idx_facts5 t).2.2.2.1
  unfold iblk5
  rw [View.read_apply]
  show V c main_v102 _ = V c main_v102 _
  refine congrArg (V c main_v102) (funext fun a => Fin.ext ?_)
  match a with
  | ⟨0, _⟩ => show win5_1.index t (0 : Fin 2) * 5000 + 1 * (y 0).val = (k 0).val; rw [e0, hk0]; omega
  | ⟨1, _⟩ => show win5_1.index t (1 : Fin 2) * 128 + 1 * (y 1).val = (k 1).val; rw [e1, hk1]; omega

/-- Row block t of the self input. -/
theorem iblk5_2_apply (c : Dev nD) (t : Fin cfg5.N) (y : S5000x128.Idx) (k : S50000x128.Idx)
    (hk0 : (k 0).val = t.val * 5000 + (y 0).val) (hk1 : (k 1).val = (y 1).val) :
    (iblk5 V c 2 t : Vec Ideal S5000x128 .f32) y = (V c main_v89 : Vec Ideal S50000x128 .f32) k := by
  have e0 := (idx_facts5 t).2.2.2.2.1
  have e1 := (idx_facts5 t).2.2.2.2.2.1
  unfold iblk5
  rw [View.read_apply]
  show V c main_v89 _ = V c main_v89 _
  refine congrArg (V c main_v89) (funext fun a => Fin.ext ?_)
  match a with
  | ⟨0, _⟩ => show win5_2.index t (0 : Fin 2) * 5000 + 1 * (y 0).val = (k 0).val; rw [e0, hk0]; omega
  | ⟨1, _⟩ => show win5_2.index t (1 : Fin 2) * 128 + 1 * (y 1).val = (k 1).val; rw [e1, hk1]; omega

/-- The scale's one block is its whole row. -/
theorem iblk5_3_apply (c : Dev nD) (t : Fin cfg5.N) (y : S1x128.Idx) (k : S1x128.Idx)
    (hk0 : (k 0).val = (y 0).val) (hk1 : (k 1).val = (y 1).val) :
    (iblk5 V c 3 t : Vec Ideal S1x128 .f32) y = (V c main_v120 : Vec Ideal S1x128 .f32) k := by
  have e0 := (idx_facts5 t).2.2.2.2.2.2.1
  have e1 := (idx_facts5 t).2.2.2.2.2.2.2.1
  unfold iblk5
  rw [View.read_apply]
  show V c main_v120 _ = V c main_v120 _
  refine congrArg (V c main_v120) (funext fun a => Fin.ext ?_)
  match a with
  | ⟨0, _⟩ => show win5_3.index t (0 : Fin 2) * 1 + 1 * (y 0).val = (k 0).val; rw [e0, hk0]; omega
  | ⟨1, _⟩ => show win5_3.index t (1 : Fin 2) * 128 + 1 * (y 1).val = (k 1).val; rw [e1, hk1]; omega

/-- The shift's one block is its whole row. -/
theorem iblk5_4_apply (c : Dev nD) (t : Fin cfg5.N) (y : S1x128.Idx) (k : S1x128.Idx)
    (hk0 : (k 0).val = (y 0).val) (hk1 : (k 1).val = (y 1).val) :
    (iblk5 V c 4 t : Vec Ideal S1x128 .f32) y = (V c main_v121 : Vec Ideal S1x128 .f32) k := by
  have e0 := (idx_facts5 t).2.2.2.2.2.2.2.2.1
  have e1 := (idx_facts5 t).2.2.2.2.2.2.2.2.2.1
  unfold iblk5
  rw [View.read_apply]
  show V c main_v121 _ = V c main_v121 _
  refine congrArg (V c main_v121) (funext fun a => Fin.ext ?_)
  match a with
  | ⟨0, _⟩ => show win5_4.index t (0 : Fin 2) * 1 + 1 * (y 0).val = (k 0).val; rw [e0, hk0]; omega
  | ⟨1, _⟩ => show win5_4.index t (1 : Fin 2) * 128 + 1 * (y 1).val = (k 1).val; rw [e1, hk1]; omega

/-- What point t writes back is block t of the whole-array update. -/
theorem flushed_bn5 (c : Dev nD) (t : Fin cfg5.N) :
    (dat5 (F := Ideal) V c).flushed 5 t = ((cfg5.win 5).blk t).view.read (Elt Ideal)
      (bnOut (V c main_v81) (V c main_v102) (V c main_v89) (V c main_v120) (V c main_v121)) := by
  show (cfg5.win 5).cut (grid5.coords t) ((dat5 V c).after 5 t) = _
  rw [after5_5]
  unfold out5_5
  rw [View.canon_unit_zero zero_offsets]
  simp only [View.ld_unit_zero (S := S5000x128) zero_offsets, View.ld_unit_zero (S := S1x128) zero_offsets]
  have e0 := (idx_facts5 t).2.2.2.2.2.2.2.2.2.2.1
  have e1 := (idx_facts5 t).2.2.2.2.2.2.2.2.2.2.2
  funext j
  obtain ⟨p, q, rfl⟩ : ∃ (p : Fin 5000) (q : Fin 128), j = ix2 p q := ⟨j 0, j 1, eq_ix2 j⟩
  have hr0 : ((((cfg5.win 5).blk t).view.emb (ix2 p q) : S50000x128.Idx) 0).val = t.val * 5000 + p.val := by
    show win5_5.index t (0 : Fin 2) * 5000 + 1 * p.val = _; rw [e0]; omega
  have hr1 : ((((cfg5.win 5).blk t).view.emb (ix2 p q) : S50000x128.Idx) 1).val = q.val := by
    show win5_5.index t (1 : Fin 2) * 128 + 1 * q.val = _; rw [e1]; omega
  show k5_pay1 (iblk5 V c 1 t) (iblk5 V c 2 t) (iblk5 V c 3 t) (iblk5 V c 4 t) (iblk5 V c 0 t) (ix2 p q)
    = bnOut (V c main_v81) (V c main_v102) (V c main_v89) (V c main_v120) (V c main_v121) (((cfg5.win 5).blk t).view.emb (ix2 p q))
  rw [bn_pay5_apply,
    iblk5_0_apply V c t (ix2 p q) _ hr0 hr1, iblk5_1_apply V c t (ix2 p q) _ hr0 hr1, iblk5_2_apply V c t (ix2 p q) _ hr0 hr1,
    iblk5_3_apply V c t (ix2 (0 : Fin 1) q) (ix2 (0 : Fin 1) ⟨_, ((((cfg5.win 5).blk t).view.emb (ix2 p q) : S50000x128.Idx) 1).isLt⟩) rfl hr1,
    iblk5_4_apply V c t (ix2 (0 : Fin 1) q) (ix2 (0 : Fin 1) ⟨_, ((((cfg5.win 5).blk t).view.emb (ix2 p q) : S50000x128.Idx) 1).isLt⟩) rfl hr1]
  rfl

/-- An index of the output array is in point t's block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v122).slice (win5_5.rect t)).set ↔ _
  rw [View.set_slice_whole, Rect.mem_set_unit]
  exact Iff.rfl

/-- Row r of the output array is written back by point r / 5000: the ten row blocks tile the array. -/
theorem cover_bn5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [show cfg5.N = 10 from N_5]; omega⟩, rfl⟩
  have e0 := (idx_facts5 t).2.2.2.2.2.2.2.2.2.2.1
  have e1 := (idx_facts5 t).2.2.2.2.2.2.2.2.2.2.2
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- After the ten write-backs the output array is the whole-array update of the five arrays found on entry. -/
theorem final_bn5 (c : Dev nD) : (dat5 (F := Ideal) V c).arrAt 5 cfg5.N = bnOut (V c main_v81) (V c main_v102) (V c main_v89) (V c main_v120) (V c main_v121) :=
  (dat5 (F := Ideal) V c).arrAt_eq_of_cover 5 (bnOut (V c main_v81) (V c main_v102) (V c main_v89) (V c main_v120) (V c main_v121))
    (fun t _ => flushed_bn5 V c t) cover_bn5

end Cert.KernelIdeal.RegVal

end
-- ==== Proof.Entry0.lean ====
/-
  What region 0 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, and the layer's [128,256] weight pair.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e0_x (c : Dev nD) : V1 m ρ c main_arg0 = W0 m ρ c (Proc.devRef .tc main_arg0) :=
  StableHlo.after_of_forall_not_mem (b := Proc.devRef .tc main_arg0) _ _ (List.forall_iff_forall_mem.mp (by
    -- every operation of the stretch writes a single buffer, and the array differs from each
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The weight pair of the layer: the two [128,128] slices laid side by side. -/
theorem e0_ww (c : Dev nD) :
    V1 m ρ c main_v4 = KT.wwOf ![0, 0, 0] slices_S6x128x128_S1x128x128_0_0_0
      (W0 m ρ c (Proc.devRef .tc main_arg4)) (W0 m ρ c (Proc.devRef .tc main_arg5)) := by
  show StableHlo.after hostOps0 (W0 m ρ c) (Proc.devRef .tc main_v4) = _
  after_results
  rfl

end Cert.KernelIdeal.Entry

end
-- ==== Proof.Entry1.lean ====
/-
  What region 1 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, the aggregated neighbour term, the self term, and the layer's scale and shift rows.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e1_x (c : Dev nD) : V3 m ρ c main_arg0 = W2 m ρ c (Proc.devRef .tc main_arg0) :=
  StableHlo.after_of_forall_not_mem (b := Proc.devRef .tc main_arg0) _ _ (List.forall_iff_forall_mem.mp (by
    -- every operation of the stretch writes a single buffer, and the array differs from each
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The aggregated neighbour term: the edge aggregation of the left column half of the preceding product. -/
theorem e1_agg (c : Dev nD) :
    V3 m ρ c main_v20 = KT.aggOf (KT.supOf (W2 m ρ c (Proc.devRef .tc main_v5)))
      (W2 m ρ c (Proc.devRef .tc main_arg1)) (W2 m ρ c (Proc.devRef .tc main_arg2))
      (W2 m ρ c (Proc.devRef .tc main_arg3)) := by
  show StableHlo.after hostOps1 (W2 m ρ c) (Proc.devRef .tc main_v20) = _
  after_results_simp
  rfl

/-- The self term: the right column half of the preceding product. -/
theorem e1_slf (c : Dev nD) :
    V3 m ρ c main_v7 = KT.slfOf (W2 m ρ c (Proc.devRef .tc main_v5)) := by
  show StableHlo.after hostOps1 (W2 m ρ c) (Proc.devRef .tc main_v7) = _
  after_results_simp
  rfl

/-- The scale row of the layer, as a [1,128] array. -/
theorem e1_sc (c : Dev nD) :
    V3 m ρ c main_v38 = KT.asRow (KT.scaleOf ![0, 0] slices_S6x128_S1x128_0_0
      (W2 m ρ c (Proc.devRef .tc main_arg7)) (W2 m ρ c (Proc.devRef .tc main_arg10))) := by
  show StableHlo.after hostOps1 (W2 m ρ c) (Proc.devRef .tc main_v38) = _
  after_results_simp
  rfl

/-- The shift row of the layer, as a [1,128] array. -/
theorem e1_sh (c : Dev nD) :
    V3 m ρ c main_v39 = KT.asRow (KT.shiftOf ![0, 0] slices_S6x128_S1x128_0_0
      (W2 m ρ c (Proc.devRef .tc main_arg6)) (W2 m ρ c (Proc.devRef .tc main_arg7))
      (W2 m ρ c (Proc.devRef .tc main_arg8)) (W2 m ρ c (Proc.devRef .tc main_arg9))
      (W2 m ρ c (Proc.devRef .tc main_arg10))) := by
  show StableHlo.after hostOps1 (W2 m ρ c) (Proc.devRef .tc main_v39) = _
  after_results_simp
  rfl

end Cert.KernelIdeal.Entry

end
-- ==== Proof.Entry2.lean ====
/-
  What region 2 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, and the layer's [128,256] weight pair.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e2_x (c : Dev nD) : V5 m ρ c main_v40 = W4 m ρ c (Proc.devRef .tc main_v40) :=
  StableHlo.after_of_forall_not_mem (b := Proc.devRef .tc main_v40) _ _ (List.forall_iff_forall_mem.mp (by
    -- every operation of the stretch writes a single buffer, and the array differs from each
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The weight pair of the layer: the two [128,128] slices laid side by side. -/
theorem e2_ww (c : Dev nD) :
    V5 m ρ c main_v45 = KT.wwOf ![2, 0, 0] slices_S6x128x128_S1x128x128_2_0_0
      (W4 m ρ c (Proc.devRef .tc main_arg4)) (W4 m ρ c (Proc.devRef .tc main_arg5)) := by
  show StableHlo.after hostOps2 (W4 m ρ c) (Proc.devRef .tc main_v45) = _
  after_results
  rfl

end Cert.KernelIdeal.Entry

end
-- ==== Proof.Entry3.lean ====
/-
  What region 3 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, the aggregated neighbour term, the self term, and the layer's scale and shift rows.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e3_x (c : Dev nD) : V7 m ρ c main_v40 = W6 m ρ c (Proc.devRef .tc main_v40) :=
  StableHlo.after_of_forall_not_mem (b := Proc.devRef .tc main_v40) _ _ (List.forall_iff_forall_mem.mp (by
    -- every operation of the stretch writes a single buffer, and the array differs from each
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The aggregated neighbour term: the edge aggregation of the left column half of the preceding product. -/
theorem e3_agg (c : Dev nD) :
    V7 m ρ c main_v61 = KT.aggOf (KT.supOf (W6 m ρ c (Proc.devRef .tc main_v46)))
      (W6 m ρ c (Proc.devRef .tc main_arg1)) (W6 m ρ c (Proc.devRef .tc main_arg2))
      (W6 m ρ c (Proc.devRef .tc main_arg3)) := by
  show StableHlo.after hostOps3 (W6 m ρ c) (Proc.devRef .tc main_v61) = _
  after_results_simp
  rfl

/-- The self term: the right column half of the preceding product. -/
theorem e3_slf (c : Dev nD) :
    V7 m ρ c main_v48 = KT.slfOf (W6 m ρ c (Proc.devRef .tc main_v46)) := by
  show StableHlo.after hostOps3 (W6 m ρ c) (Proc.devRef .tc main_v48) = _
  after_results_simp
  rfl

/-- The scale row of the layer, as a [1,128] array. -/
theorem e3_sc (c : Dev nD) :
    V7 m ρ c main_v79 = KT.asRow (KT.scaleOf ![2, 0] slices_S6x128_S1x128_2_0
      (W6 m ρ c (Proc.devRef .tc main_arg7)) (W6 m ρ c (Proc.devRef .tc main_arg10))) := by
  show StableHlo.after hostOps3 (W6 m ρ c) (Proc.devRef .tc main_v79) = _
  after_results_simp
  rfl

/-- The shift row of the layer, as a [1,128] array. -/
theorem e3_sh (c : Dev nD) :
    V7 m ρ c main_v80 = KT.asRow (KT.shiftOf ![2, 0] slices_S6x128_S1x128_2_0
      (W6 m ρ c (Proc.devRef .tc main_arg6)) (W6 m ρ c (Proc.devRef .tc main_arg7))
      (W6 m ρ c (Proc.devRef .tc main_arg8)) (W6 m ρ c (Proc.devRef .tc main_arg9))
      (W6 m ρ c (Proc.devRef .tc main_arg10))) := by
  show StableHlo.after hostOps3 (W6 m ρ c) (Proc.devRef .tc main_v80) = _
  after_results_simp
  rfl

end Cert.KernelIdeal.Entry

end
-- ==== Proof.Entry4.lean ====
/-
  What region 4 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, and the layer's [128,256] weight pair.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e4_x (c : Dev nD) : V9 m ρ c main_v81 = W8 m ρ c (Proc.devRef .tc main_v81) :=
  StableHlo.after_of_forall_not_mem (b := Proc.devRef .tc main_v81) _ _ (List.forall_iff_forall_mem.mp (by
    -- every operation of the stretch writes a single buffer, and the array differs from each
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The weight pair of the layer: the two [128,128] slices laid side by side. -/
theorem e4_ww (c : Dev nD) :
    V9 m ρ c main_v86 = KT.wwOf ![5, 0, 0] slices_S6x128x128_S1x128x128_5_0_0
      (W8 m ρ c (Proc.devRef .tc main_arg4)) (W8 m ρ c (Proc.devRef .tc main_arg5)) := by
  show StableHlo.after hostOps4 (W8 m ρ c) (Proc.devRef .tc main_v86) = _
  after_results
  rfl

end Cert.KernelIdeal.Entry

end
-- ==== Proof.Entry5.lean ====
/-
  What region 5 of the kernel program finds in its window arrays on entry, as named host terms over the buffer
  contents at the previous segment boundary. The host stretch before the region is a straight line of array
  operations, each writing one fresh buffer; a buffer that none of them writes keeps its contents, and a buffer
  that one of them writes holds that operation's function of its operands' contents, which unfolds, operand by
  operand, to the named term: the node array as it was, the aggregated neighbour term, the self term, and the layer's scale and shift rows.
-/
import proofs.«115942_j16338055594707_1_alg».proof.Proof.Gen.KernelIdeal.Frame
import proofs.«115942_j16338055594707_1_alg».proof.Proof.KTerms

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The node array is written by no operation of the stretch. -/
theorem e5_x (c : Dev nD) : V11 m ρ c main_v81 = W10 m ρ c (Proc.devRef .tc main_v81) :=
  StableHlo.after_of_forall_not_mem (b := Proc.devRef .tc main_v81) _ _ (List.forall_iff_forall_mem.mp (by
    -- every operation of the stretch writes a single buffer, and the array differs from each
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-- The aggregated neighbour term: the edge aggregation of the left column half of the preceding product. -/
theorem e5_agg (c : Dev nD) :
    V11 m ρ c main_v102 = KT.aggOf (KT.supOf (W10 m ρ c (Proc.devRef .tc main_v87)))
      (W10 m ρ c (Proc.devRef .tc main_arg1)) (W10 m ρ c (Proc.devRef .tc main_arg2))
      (W10 m ρ c (Proc.devRef .tc main_arg3)) := by
  show StableHlo.after hostOps5 (W10 m ρ c) (Proc.devRef .tc main_v102) = _
  after_results_simp
  rfl

/-- The self term: the right column half of the preceding product. -/
theorem e5_slf (c : Dev nD) :
    V11 m ρ c main_v89 = KT.slfOf (W10 m ρ c (Proc.devRef .tc main_v87)) := by
  show StableHlo.after hostOps5 (W10 m ρ c) (Proc.devRef .tc main_v89) = _
  after_results_simp
  rfl

/-- The scale row of the layer, as a [1,128] array. -/
theorem e5_sc (c : Dev nD) :
    V11 m ρ c main_v120 = KT.asRow (KT.scaleOf ![5, 0] slices_S6x128_S1x128_5_0
      (W10 m ρ c (Proc.devRef .tc main_arg7)) (W10 m ρ c (Proc.devRef .tc main_arg10))) := by
  show StableHlo.after hostOps5 (W10 m ρ c) (Proc.devRef .tc main_v120) = _
  after_results_simp
  rfl

/-- The shift row of the layer, as a [1,128] array. -/
theorem e5_sh (c : Dev nD) :
    V11 m ρ c main_v121 = KT.asRow (KT.shiftOf ![5, 0] slices_S6x128_S1x128_5_0
      (W10 m ρ c (Proc.devRef .tc main_arg6)) (W10 m ρ c (Proc.devRef .tc main_arg7))
      (W10 m ρ c (Proc.devRef .tc main_arg8)) (W10 m ρ c (Proc.devRef .tc main_arg9))
      (W10 m ρ c (Proc.devRef .tc main_arg10))) := by
  show StableHlo.after hostOps5 (W10 m ρ c) (Proc.devRef .tc main_v121) = _
  after_results_simp
  rfl

end Cert.KernelIdeal.Entry

end
-- ==== Proof.KValue.lean ====
/-
  The kernel program's result as three layers of the launch memory.  Each matrix-product region leaves the
  product of the arrays it found, each residual-update region the pointwise update of the five arrays it found;
  what a region finds is a named host term of the buffers at the previous boundary; and those buffers are either
  launch arguments, unchanged through the run, or the previous region's output.  Chaining these equations from the
  launch gives, region by region, one whole layer  x ↦ x + max((agg + self) * scale + shift, 0)  of the node
  array, and the buffer returned is the third layer of the second of the first.
-/
import proofs.«115942_j16338055594707_1_alg».proof.Proof.Carry
import proofs.«115942_j16338055594707_1_alg».proof.Proof.KTerms
import proofs.«115942_j16338055594707_1_alg».proof.Proof.RegMM
import proofs.«115942_j16338055594707_1_alg».proof.Proof.RegBN
import proofs.«115942_j16338055594707_1_alg».proof.Proof.Entry0
import proofs.«115942_j16338055594707_1_alg».proof.Proof.Entry1
import proofs.«115942_j16338055594707_1_alg».proof.Proof.Entry2
import proofs.«115942_j16338055594707_1_alg».proof.Proof.Entry3
import proofs.«115942_j16338055594707_1_alg».proof.Proof.Entry4
import proofs.«115942_j16338055594707_1_alg».proof.Proof.Entry5

set_option maxRecDepth 16384

noncomputable section

namespace Cert.KernelIdeal.KVal

open Cert.KernelIdeal Cert.KernelIdeal.Gen Cert.Gcn
open Cert.KernelIdeal.RegVal Cert.KernelIdeal.Entry
open Idealize.ShloMosaic Idealize.ShloMosaic.TcCoe
open Idealize.SL.Sem

variable (m : (ℓ : Loc nD τ sig) → Buf (Elt Ideal) ℓ) (ρ : Dev nD → PrngReg)

/-! ## Layer 1 (regions 0 and 1) -/

/-- At launch every buffer holds the launch memory. -/
theorem W0_eq (c : Dev nD) (b : Ref sig .tc) : W0 (F := Ideal) m ρ c (Proc.devRef .tc b) = m ((c : Thread nD τ).loc b) := rfl

/-- Region 0 leaves the product of the node array with layer 0's weight pair. -/
theorem c0_eq (c : Dev nD) : (dat0 (F := Ideal) (V1 m ρ) c).arrAt 2 cfg0.N = mmOut (m ((c : Thread nD τ).loc main_arg0)) (KT.wwOf ![0, 0, 0] slices_S6x128x128_S1x128x128_0_0_0 (m ((c : Thread nD τ).loc main_arg4)) (m ((c : Thread nD τ).loc main_arg5))) := by
  rw [final_mm0 (V1 m ρ) c, e0_x m ρ c, e0_ww m ρ c, W0_eq m ρ c main_arg0, W0_eq m ρ c main_arg4, W0_eq m ρ c main_arg5]

/-- Region 1 leaves layer 0 applied to the launched node array. -/
theorem x1_eq (c : Dev nD) : (dat1 (F := Ideal) (V3 m ρ) c).arrAt 5 cfg1.N = KT.layerOf ![0, 0, 0] slices_S6x128x128_S1x128x128_0_0_0 ![0, 0] slices_S6x128_S1x128_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [final_bn1 (V3 m ρ) c, e1_x m ρ c, e1_agg m ρ c, e1_slf m ρ c, e1_sc m ρ c, e1_sh m ρ c,
    W2_arg0 m ρ c, W2_v5 m ρ c, c0_eq m ρ c, W2_arg1 m ρ c, W2_arg2 m ρ c, W2_arg3 m ρ c, W2_arg6 m ρ c, W2_arg7 m ρ c,
    W2_arg8 m ρ c, W2_arg9 m ρ c, W2_arg10 m ρ c]
  rfl

/-! ## Layer 2 (regions 2 and 3) -/

/-- Region 2 leaves the product of layer 0's result with layer 2's weight pair. -/
theorem c2_eq (c : Dev nD) : (dat2 (F := Ideal) (V5 m ρ) c).arrAt 2 cfg2.N = mmOut (KT.layerOf ![0, 0, 0] slices_S6x128x128_S1x128x128_0_0_0 ![0, 0] slices_S6x128_S1x128_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (KT.wwOf ![2, 0, 0] slices_S6x128x128_S1x128x128_2_0_0 (m ((c : Thread nD τ).loc main_arg4)) (m ((c : Thread nD τ).loc main_arg5))) := by
  rw [final_mm2 (V5 m ρ) c, e2_x m ρ c, e2_ww m ρ c, W4_v40 m ρ c, x1_eq m ρ c, W4_arg4 m ρ c, W4_arg5 m ρ c]

/-- Region 3 leaves layer 2 applied to layer 0's result. -/
theorem x2_eq (c : Dev nD) : (dat3 (F := Ideal) (V7 m ρ) c).arrAt 5 cfg3.N = KT.layerOf ![2, 0, 0] slices_S6x128x128_S1x128x128_2_0_0 ![2, 0] slices_S6x128_S1x128_2_0 (KT.layerOf ![0, 0, 0] slices_S6x128x128_S1x128x128_0_0_0 ![0, 0] slices_S6x128_S1x128_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [final_bn3 (V7 m ρ) c, e3_x m ρ c, e3_agg m ρ c, e3_slf m ρ c, e3_sc m ρ c, e3_sh m ρ c,
    W6_v40 m ρ c, x1_eq m ρ c, W6_v46 m ρ c, c2_eq m ρ c, W6_arg1 m ρ c, W6_arg2 m ρ c, W6_arg3 m ρ c, W6_arg6 m ρ c,
    W6_arg7 m ρ c, W6_arg8 m ρ c, W6_arg9 m ρ c, W6_arg10 m ρ c]
  rfl

/-! ## Layer 3 (regions 4 and 5) -/

/-- Region 4 leaves the product of layer 2's result with layer 5's weight pair. -/
theorem c4_eq (c : Dev nD) : (dat4 (F := Ideal) (V9 m ρ) c).arrAt 2 cfg4.N = mmOut (KT.layerOf ![2, 0, 0] slices_S6x128x128_S1x128x128_2_0_0 ![2, 0] slices_S6x128_S1x128_2_0 (KT.layerOf ![0, 0, 0] slices_S6x128x128_S1x128x128_0_0_0 ![0, 0] slices_S6x128_S1x128_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (KT.wwOf ![5, 0, 0] slices_S6x128x128_S1x128x128_5_0_0 (m ((c : Thread nD τ).loc main_arg4)) (m ((c : Thread nD τ).loc main_arg5))) := by
  rw [final_mm4 (V9 m ρ) c, e4_x m ρ c, e4_ww m ρ c, W8_v81 m ρ c, x2_eq m ρ c, W8_arg4 m ρ c, W8_arg5 m ρ c]

/-- The kernel's result buffer at the end of the run: three layers of the launch memory. -/
theorem result_eq (c : Dev nD) : W12 (F := Ideal) m ρ c (Proc.devRef .tc main_v122) = KT.layerOf ![5, 0, 0] slices_S6x128x128_S1x128x128_5_0_0 ![5, 0] slices_S6x128_S1x128_5_0 (KT.layerOf ![2, 0, 0] slices_S6x128x128_S1x128x128_2_0_0 ![2, 0] slices_S6x128_S1x128_2_0 (KT.layerOf ![0, 0, 0] slices_S6x128x128_S1x128x128_0_0_0 ![0, 0] slices_S6x128_S1x128_0_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W12_v122 m ρ c, final_bn5 (V11 m ρ) c, e5_x m ρ c, e5_agg m ρ c, e5_slf m ρ c, e5_sc m ρ c, e5_sh m ρ c,
    W10_v81 m ρ c, x2_eq m ρ c, W10_v87 m ρ c, c4_eq m ρ c, W10_arg1 m ρ c, W10_arg2 m ρ c, W10_arg3 m ρ c, W10_arg6 m ρ c,
    W10_arg7 m ρ c, W10_arg8 m ρ c, W10_arg9 m ρ c, W10_arg10 m ρ c]
  rfl

end Cert.KernelIdeal.KVal

end
-- ==== Proof.RTerms.lean ====
/-
  One layer of the reference program as a function of the node array `x` and the inputs, in the order the reference
  computes it:  x + max(((((agg + x·SW[l]) + b[l]) - rmean[l]) * rsqrt(rvar[l] + eps)) * gamma[l] + beta[l], 0),
  where agg sums, into each target node, the weighted rows of x·W[l] at the edges' source nodes, and each parameter
  row is broadcast down the 50000 rows.
-/
import proofs.«115942_j16338055594707_1_alg».proof.ReferenceIdeal
import proofs.«115942_j16338055594707_1_alg».proof.Proof.Gen.ReferenceIdeal
import Idealize.ShloMosaic.PureOps.Ideal

noncomputable section

namespace Cert.ReferenceIdeal.RT

open Cert.ReferenceIdeal Cert.ReferenceIdeal.Gen Idealize.ShloMosaic

/-- Layer l's [128,128] weight matrix out of a [6,128,128] table. -/
def wOf (l : Nat) (h : S6x128x128.Slices ![l, 0, 0] S1x128x128) (a : FVec Ideal S6x128x128 .f32) : FVec Ideal S128x128 .f32 :=
  shapeCast _ (extractStridedSlice S1x128x128 ![l, 0, 0] a h) shapeCasts_S1x128x128_S128x128

/-- Row l of a [6,128] parameter table as a [128] vector. -/
def rowV (l : Nat) (h : S6x128.Slices ![l, 0] S1x128) (a : FVec Ideal S6x128 .f32) : FVec Ideal S128 .f32 :=
  shapeCast _ (extractStridedSlice S1x128 ![l, 0] a h) shapeCasts_S1x128_S128

/-- A [128] vector broadcast down the 50000 rows. -/
def down (v : FVec Ideal S128 .f32) : FVec Ideal S50000x128 .f32 :=
  broadcastInDim S50000x128 ![0, 1] bcast_S1x128_S50000x128_0_1 (broadcastInDim S1x128 ![1] bcast_S128_S1x128_1 v)

/-- The edge aggregation of a support array: gather the source rows, weight them, sum them into the target rows. -/
def aggR (sup : FVec Ideal S50000x128 .f32) (a1 a2 : IVec S800000 32) (a3 : FVec Ideal S800000 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 a1)
    (mulf (Host.gather gather_S50000x128_S800000x1_S800000x128_1_0_n_n_0_1_1128 sup
        (broadcastInDim S800000x1 ![0] bcast_S800000_S800000x1_0
          (select (cmpi .slt a2 (broadcastInDim S800000 ![] bcast_S_S800000 (constantI S_ 32 0#32)))
            (addi a2 (broadcastInDim S800000 ![] bcast_S_S800000 (constantI S_ 32 50000#32))) a2)))
      (broadcastInDim S800000x128 ![0, 1] bcast_S800000x1_S800000x128_0_1 (broadcastInDim S800000x1 ![0] bcast_S800000_S800000x1_0 a3)))

/-- rsqrt(rvar[l] + eps) as a [128] vector. -/
def rsV (l : Nat) (h : S6x128.Slices ![l, 0] S1x128) (a10 : FVec Ideal S6x128 .f32) : FVec Ideal S128 .f32 :=
  Host.rsqrt (addf (rowV l h a10) (broadcastInDim S128 ![] bcast_S_S128 (constant (F := Ideal) S_ .f32 0x3727C5AC#32)))

/-- One layer of the reference on the node array `x`. -/
def rLayer (l : Nat) (h3 : S6x128x128.Slices ![l, 0, 0] S1x128x128) (h2 : S6x128.Slices ![l, 0] S1x128)
    (x : FVec Ideal S50000x128 .f32) (a1 a2 : IVec S800000 32) (a3 : FVec Ideal S800000 .f32)
    (a4 a5 : FVec Ideal S6x128x128 .f32) (a6 a7 a8 a9 a10 : FVec Ideal S6x128 .f32) : FVec Ideal S50000x128 .f32 :=
  addf x (maximumf
    (addf (mulf (mulf (subf (addf (addf
        (aggR (Host.dotGeneral dot_S50000x128_S128x128_S50000x128_1_0_0_1_n_n none x (wOf l h3 a4)) a1 a2 a3)
        (Host.dotGeneral dot_S50000x128_S128x128_S50000x128_1_0_0_1_n_n none x (wOf l h3 a5)))
        (down (rowV l h2 a6))) (down (rowV l h2 a9))) (down (rsV l h2 a10))) (down (rowV l h2 a7))) (down (rowV l h2 a8)))
    (broadcastInDim S50000x128 ![] bcast_S_S50000x128 (constant (F := Ideal) S_ .f32 0x00000000#32)))

end Cert.ReferenceIdeal.RT

end
-- ==== Proof.LibDot.lean ====
/-
  A product of an `n × K` matrix by a `K × c` right factor, read entry by entry: the kernel's product accumulated
  into a zero array and the host's product are the same finite sum.

  For an `n × K` array `a` and a `K × c` array `b` contracted over the middle axis, entry `(p, q)` of the product is
  `∑ k : Fin K, a (p, k) * b (k, q)`. The dimension-number record `D` is abstract: what is asked of it is that it
  contracts one axis of extent `K` and where its operand indices sit (row of the result and contraction index on the
  left operand, contraction index and column of the result on the right one) — four coordinate facts that hold by
  computation at any literal record of this kind.
-/
import Idealize.ShloMosaic.Lib.ValueIdx
import Idealize.ShloMosaic.PureOps.Ideal.Laws

noncomputable section

namespace Cert.LibDot

open Idealize.ShloMosaic Idealize.ShloMosaic.ValueIdx
open scoped BigOperators

variable {n K c : Nat} {φ₁ φ₂ : FTy} (D : DotDims ⟨2, ![n, K]⟩ ⟨2, ![K, c]⟩ ⟨2, ![n, c]⟩)
  (hr : D.contr.rank = 1) (hs : D.contr.size ⟨0, by omega⟩ = K)
  (hl0 : ∀ j k, (D.lhsIdx j k 0).val = (j 0).val) (hl1 : ∀ j k, (D.lhsIdx j k 1).val = (k ⟨0, by omega⟩).val)
  (hr0 : ∀ j k, (D.rhsIdx j k 0).val = (k ⟨0, by omega⟩).val) (hr1 : ∀ j k, (D.rhsIdx j k 1).val = (j 1).val)

include hs hl0 hl1 hr0 hr1 in
/-- The sum over the record's contraction index is the sum over the middle coordinate. -/
theorem sum_contr (a : (⟨2, ![n, K]⟩ : Shape).Idx → EReal) (b : (⟨2, ![K, c]⟩ : Shape).Idx → EReal) (p : Fin n) (q : Fin c) :
    ∑ k : D.contr.Idx, a (D.lhsIdx (ix2 p q) k) * b (D.rhsIdx (ix2 p q) k) = ∑ k : Fin K, a (ix2 p k) * b (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

include hs hl0 hl1 hr0 hr1 in
/-- The kernel's product into a zero accumulator, at entry `(p, q)`. -/
theorem matmul_zero_apply (prec : Option ContractPrecision) (a : FVec Ideal ⟨2, ![n, K]⟩ φ₁) (b : FVec Ideal ⟨2, ![K, c]⟩ φ₂)
    (p : Fin n) (q : Fin c) :
    matmul D prec a b (constant ⟨2, ![n, c]⟩ .f32 0x00000000#32) (ix2 p q) = ∑ k : Fin K, a (ix2 p k) * b (ix2 k q) :=
  (Ideal.matmul_constant_zero_apply D prec a b (ix2 p q)).trans (sum_contr D hr hs hl0 hl1 hr0 hr1 a b p q)

include hs hl0 hl1 hr0 hr1 in
/-- The host's product, at entry `(p, q)`. -/
theorem dotGeneral_apply (prec : Option ContractPrecision) (a : FVec Ideal ⟨2, ![n, K]⟩ φ₁) (b : FVec Ideal ⟨2, ![K, c]⟩ φ₂)
    (p : Fin n) (q : Fin c) :
    Host.dotGeneral D prec a b (ix2 p q) = ∑ k : Fin K, a (ix2 p k) * b (ix2 k q) :=
  (Ideal.dotGeneral_apply D prec _ a b (ix2 p q)).trans (sum_contr D hr hs hl0 hl1 hr0 hr1 a b p q)

end Cert.LibDot

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.LibERealAffine.lean ====
/-
  Right-distributivity on the extended reals, in the one case an affine
  normalisation needs.

  On `EReal` the law `(x + y) * z = x * z + y * z` fails in general (take
  `x = ⊤`, `y = ⊥`), but it holds as soon as ONE summand and the factor are
  real numbers: the only summand that can be infinite is then `x`, and an
  infinite `x` absorbs the real summand on both sides, with the sign of the
  real factor deciding which infinity both sides are (and a zero factor making
  both sides zero).

  `add_coe_mul_coe` is that law; `affine_regroup` is the regrouping
  `A·(g·r) + ((b − μ)·(g·r) + β) = (((A + b) − μ)·r)·g + β` it yields, for an
  arbitrary extended real `A` and real `b μ r g β`.
-/
import Mathlib.Data.EReal.Inv

namespace Cert.LibERealAffine

/-- `(A + d) * s = A * s + d * s` for an extended real `A` and reals `d`, `s`. -/
theorem add_coe_mul_coe (A : EReal) (d s : ℝ) :
    (A + (d : EReal)) * (s : EReal) = A * (s : EReal) + (d : EReal) * (s : EReal) := by
  induction A using EReal.rec with
  | bot =>
    rw [EReal.bot_add]
    rcases lt_trichotomy s 0 with hs | hs | hs
    · rw [EReal.bot_mul_coe_of_neg hs, ← EReal.coe_mul, EReal.top_add_coe]
    · subst hs
      simp
    · rw [EReal.bot_mul_coe_of_pos hs, EReal.bot_add]
  | coe a =>
    rw [← EReal.coe_add, ← EReal.coe_mul, ← EReal.coe_mul, ← EReal.coe_mul, ← EReal.coe_add,
      add_mul]
  | top =>
    rw [EReal.top_add_coe]
    rcases lt_trichotomy s 0 with hs | hs | hs
    · rw [EReal.top_mul_coe_of_neg hs, EReal.bot_add]
    · subst hs
      simp
    · rw [EReal.top_mul_coe_of_pos hs, ← EReal.coe_mul, EReal.top_add_coe]

/-- Subtracting a real after adding a real is adding their real difference. -/
theorem add_coe_sub_coe (A : EReal) (b μ : ℝ) :
    (A + (b : EReal)) - (μ : EReal) = A + ((b - μ : ℝ) : EReal) := by
  rw [EReal.coe_sub, sub_eq_add_neg, sub_eq_add_neg, add_assoc]

/-- The affine regrouping: scale-then-shift of `A` by real parameters, written
with the product `g * r` distributed over the sum, equals the same map written
as `(((A + b) − μ) * r) * g + β`. -/
theorem affine_regroup (A : EReal) (b μ r g β : ℝ) :
    A * ((g : EReal) * (r : EReal))
        + (((b : EReal) - (μ : EReal)) * ((g : EReal) * (r : EReal)) + (β : EReal))
      = ((((A + (b : EReal)) - (μ : EReal)) * (r : EReal)) * (g : EReal)) + (β : EReal) := by
  rw [add_coe_sub_coe, mul_assoc, ← EReal.coe_mul r g, add_coe_mul_coe, EReal.coe_sub,
    EReal.coe_mul, mul_comm (r : EReal) (g : EReal), add_assoc]

end Cert.LibERealAffine
-- ==== Proof.LibConsts.lean ====
/- The f32 words this proof evaluates at the ideal instance: the word 0x3727C5AC (the nearest f32 to 1e-5) denotes a
   positive real.  Stated once, so that no other module unfolds the decoding of a word. -/
import Idealize.ShloMosaic.PureOps.Ideal

noncomputable section

namespace Cert.LibConsts

open Idealize.ShloMosaic

/-- The f32 word 0x3727C5AC denotes the dyadic rational 10995116 / 2^40, a positive real. -/
theorem eps_word : Ideal.ofBits .f32 0x3727C5AC#32 = (((10995116 : ℝ) / 1099511627776 : ℝ) : EReal) := by
  simp [Ideal.ofBits, Ideal.ieee, -EReal.coe_mul]; norm_num

theorem eps_pos : ∃ e : ℝ, 0 < e ∧ Ideal.ofBits .f32 0x3727C5AC#32 = (e : EReal) :=
  ⟨(10995116 : ℝ) / 1099511627776, by norm_num, eps_word⟩

end Cert.LibConsts

end
-- ==== Proof.Bridge.lean ====
/-
  One layer of the kernel's program and one layer of the reference are the same function of the node array.

  The kernel multiplies the node array once by the pair [W[l] | SW[l]] and takes the two column halves; the reference
  multiplies by W[l] and by SW[l] separately: entry by entry both are the same finite sums.  Both then aggregate the
  same support array over the edges with the same operations, so the aggregated array is one function of it.  The
  kernel folds the batch-norm into a scale row  g * r  and a shift row  (b - μ) * (g * r) + β  (r = rsqrt(var + eps))
  and computes  A * scale + shift ; the reference computes  (((A + b) - μ) * r) * g + β .  With the parameter rows real
  and the variances nonnegative (so that var + eps > 0 and r is real) the two agree for EVERY extended real A, so
  nothing is asked of the aggregated values themselves.
-/
import proofs.«115942_j16338055594707_1_alg».proof.Proof.KTerms
import proofs.«115942_j16338055594707_1_alg».proof.Proof.RTerms
import proofs.«115942_j16338055594707_1_alg».proof.Proof.LibDot
import proofs.«115942_j16338055594707_1_alg».proof.Proof.LibRowReads
import proofs.«115942_j16338055594707_1_alg».proof.Proof.LibERealAffine
import proofs.«115942_j16338055594707_1_alg».proof.Proof.LibConsts
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx Cert.Gcn Cert.LibRowReads
open Cert.KernelIdeal (KT.wwOf KT.supOf KT.slfOf KT.aggOf KT.rowOf KT.scaleOf KT.shiftOf KT.asRow KT.layerOf)
open Cert.ReferenceIdeal (RT.wOf RT.rowV RT.down RT.aggR RT.rsV RT.rLayer)

abbrev S3 : Shape := ⟨3, ![6, 128, 128]⟩
abbrev ST : Shape := ⟨2, ![6, 128]⟩
abbrev SE : Shape := ⟨1, ![800000]⟩

/-- The reference's product record. -/
abbrev RD : DotDims Cert.ReferenceIdeal.S50000x128 Cert.ReferenceIdeal.S128x128 Cert.ReferenceIdeal.S50000x128 :=
  Cert.ReferenceIdeal.dot_S50000x128_S128x128_S50000x128_1_0_0_1_n_n

theorem rd_hr : RD.contr.rank = 1 := rfl
theorem rd_hs : RD.contr.size ⟨0, by decide⟩ = 128 := rfl
theorem rd_l0 (j : Cert.ReferenceIdeal.S50000x128.Idx) (k : RD.contr.Idx) : (RD.lhsIdx j k 0).val = (j 0).val := by
  unfold DotDims.lhsIdx
  rw [dif_neg (show ¬(0 : Fin Cert.ReferenceIdeal.S50000x128.rank) ∈ RD.lhsBatch by decide),
    dif_pos (show (0 : Fin Cert.ReferenceIdeal.S50000x128.rank) ∈ RD.lhsNonContracting by decide)]
  rfl
theorem rd_l1 (j : Cert.ReferenceIdeal.S50000x128.Idx) (k : RD.contr.Idx) : (RD.lhsIdx j k 1).val = (k ⟨0, by decide⟩).val :=
  RD.lhsIdx_val_of_single rfl j k
theorem rd_r0 (j : Cert.ReferenceIdeal.S50000x128.Idx) (k : RD.contr.Idx) : (RD.rhsIdx j k 0).val = (k ⟨0, by decide⟩).val :=
  RD.rhsIdx_val_of_single rfl j k
theorem rd_r1 (j : Cert.ReferenceIdeal.S50000x128.Idx) (k : RD.contr.Idx) : (RD.rhsIdx j k 1).val = (j 1).val := by
  unfold DotDims.rhsIdx
  rw [dif_neg (show ¬(1 : Fin Cert.ReferenceIdeal.S128x128.rank) ∈ RD.rhsBatch by decide),
    dif_pos (show (1 : Fin Cert.ReferenceIdeal.S128x128.rank) ∈ RD.rhsNonContracting by decide)]
  rfl

theorem dot_read (x : FVec Ideal SX .f32) (w : FVec Ideal ⟨2, ![128, 128]⟩ .f32) (n : Fin 50000) (j : Fin 128) :
    Host.dotGeneral RD none x w (ix2 n j) = ∑ k : Fin 128, x (ix2 n k) * w (ix2 k j) :=
  Cert.LibDot.dotGeneral_apply RD rd_hr rd_hs rd_l0 rd_l1 rd_r0 rd_r1 none x w n j

/-! ## The weight pair and the two products -/

theorem ww_left (l : Nat) (hl : l < 6) (h : Cert.KernelIdeal.S6x128x128.Slices ![l, 0, 0] Cert.KernelIdeal.S1x128x128)
    (a4 a5 : FVec Ideal S3 .f32) (k : Fin 128) (j : Fin 128) (hj : j.val < 256) :
    Cert.KernelIdeal.KT.wwOf ![l, 0, 0] h a4 a5 (ix2 k (⟨j.val, hj⟩ : Fin 256)) = a4 (ix3 (⟨l, hl⟩ : Fin 6) k j) := by
  unfold Cert.KernelIdeal.KT.wwOf
  exact (pair_left_read (K := 128) (C := 128) _ _ _ k j hj).trans (slab_read l hl _ _ a4 k j)

theorem ww_right (l : Nat) (hl : l < 6) (h : Cert.KernelIdeal.S6x128x128.Slices ![l, 0, 0] Cert.KernelIdeal.S1x128x128)
    (a4 a5 : FVec Ideal S3 .f32) (k : Fin 128) (j : Fin 128) (hj : j.val + 128 < 256) :
    Cert.KernelIdeal.KT.wwOf ![l, 0, 0] h a4 a5 (ix2 k (⟨j.val + 128, hj⟩ : Fin 256)) = a5 (ix3 (⟨l, hl⟩ : Fin 6) k j) := by
  unfold Cert.KernelIdeal.KT.wwOf
  exact (pair_right_read (K := 128) (C := 128) _ _ _ k j hj).trans (slab_read l hl _ _ a5 k j)

theorem wOf_read (l : Nat) (hl : l < 6) (h : Cert.ReferenceIdeal.S6x128x128.Slices ![l, 0, 0] Cert.ReferenceIdeal.S1x128x128)
    (a : FVec Ideal S3 .f32) (k : Fin 128) (j : Fin 128) :
    Cert.ReferenceIdeal.RT.wOf l h a (ix2 k j) = a (ix3 (⟨l, hl⟩ : Fin 6) k j) := by
  unfold Cert.ReferenceIdeal.RT.wOf
  exact slab_read l hl _ _ a k j

/-- The left column half of the kernel's product with the weight pair is the reference's product with W[l]. -/
theorem sup_eq (l : Nat) (hl : l < 6) (hK : Cert.KernelIdeal.S6x128x128.Slices ![l, 0, 0] Cert.KernelIdeal.S1x128x128)
    (hR : Cert.ReferenceIdeal.S6x128x128.Slices ![l, 0, 0] Cert.ReferenceIdeal.S1x128x128)
    (x : FVec Ideal SX .f32) (a4 a5 : FVec Ideal S3 .f32) :
    Cert.KernelIdeal.KT.supOf (mmOut x (Cert.KernelIdeal.KT.wwOf ![l, 0, 0] hK a4 a5))
      = Host.dotGeneral RD none x (Cert.ReferenceIdeal.RT.wOf l hR a4) := by
  funext i
  obtain ⟨n, j, rfl⟩ : ∃ (n : Fin 50000) (j : Fin 128), i = ix2 n j := ⟨i 0, i 1, eq_ix2 i⟩
  rw [dot_read]
  unfold Cert.KernelIdeal.KT.supOf
  refine (band_left_read (N := 50000) (C := 128) _ _ n j (by omega)).trans ?_
  unfold mmOut
  refine Finset.sum_congr rfl fun k _ => ?_
  rw [wOf_read l hl hR a4 k j]
  exact congrArg (x (ix2 n k) * ·) (ww_left l hl hK a4 a5 k j _)

/-- The right column half of the kernel's product with the weight pair is the reference's product with SW[l]. -/
theorem slf_eq (l : Nat) (hl : l < 6) (hK : Cert.KernelIdeal.S6x128x128.Slices ![l, 0, 0] Cert.KernelIdeal.S1x128x128)
    (hR : Cert.ReferenceIdeal.S6x128x128.Slices ![l, 0, 0] Cert.ReferenceIdeal.S1x128x128)
    (x : FVec Ideal SX .f32) (a4 a5 : FVec Ideal S3 .f32) :
    Cert.KernelIdeal.KT.slfOf (mmOut x (Cert.KernelIdeal.KT.wwOf ![l, 0, 0] hK a4 a5))
      = Host.dotGeneral RD none x (Cert.ReferenceIdeal.RT.wOf l hR a5) := by
  funext i
  obtain ⟨n, j, rfl⟩ : ∃ (n : Fin 50000) (j : Fin 128), i = ix2 n j := ⟨i 0, i 1, eq_ix2 i⟩
  rw [dot_read]
  unfold Cert.KernelIdeal.KT.slfOf
  refine (band_right_read (N := 50000) (C := 128) _ _ n j (by omega)).trans ?_
  unfold mmOut
  refine Finset.sum_congr rfl fun k _ => ?_
  rw [wOf_read l hl hR a5 k j]
  exact congrArg (x (ix2 n k) * ·) (ww_right l hl hK a4 a5 k j _)

/-- The edge aggregation is one function of the support array in both programs. -/
theorem agg_eq (s : FVec Ideal SX .f32) (a1 a2 : IVec SE 32) (a3 : FVec Ideal SE .f32) :
    Cert.KernelIdeal.KT.aggOf s a1 a2 a3 = Cert.ReferenceIdeal.RT.aggR s a1 a2 a3 := rfl

/-! ## Parameter rows, read at an index -/

theorem rowOf_read (l : Nat) (hl : l < 6) (h : Cert.KernelIdeal.S6x128.Slices ![l, 0] Cert.KernelIdeal.S1x128)
    (a : FVec Ideal ST .f32) (j : Fin 128) :
    Cert.KernelIdeal.KT.rowOf ![l, 0] h a (ix1 j) = a (ix2 (⟨l, hl⟩ : Fin 6) j) := by
  unfold Cert.KernelIdeal.KT.rowOf
  exact row_read l hl _ _ a j

theorem rowV_read (l : Nat) (hl : l < 6) (h : Cert.ReferenceIdeal.S6x128.Slices ![l, 0] Cert.ReferenceIdeal.S1x128)
    (a : FVec Ideal ST .f32) (j : Fin 128) :
    Cert.ReferenceIdeal.RT.rowV l h a (ix1 j) = a (ix2 (⟨l, hl⟩ : Fin 6) j) := by
  unfold Cert.ReferenceIdeal.RT.rowV
  exact row_read l hl _ _ a j

theorem down_at (v : FVec Ideal ⟨1, ![128]⟩ .f32) (n : Fin 50000) (j : Fin 128) :
    Cert.ReferenceIdeal.RT.down v (ix2 n j) = v (ix1 j) := by
  unfold Cert.ReferenceIdeal.RT.down
  exact down_read (by decide) _ _ v n j

theorem epsK_read (j : Fin 128) :
    (broadcastInDim Cert.KernelIdeal.S128 ![] Cert.KernelIdeal.Gen.bcast_S_S128 (constant (F := Ideal) Cert.KernelIdeal.S_ .f32 0x3727C5AC#32)) (ix1 j)
      = Ideal.ofBits .f32 0x3727C5AC#32 :=
  splat_read _ _ _

theorem epsR_read (j : Fin 128) :
    (broadcastInDim Cert.ReferenceIdeal.S128 ![] Cert.ReferenceIdeal.Gen.bcast_S_S128 (constant (F := Ideal) Cert.ReferenceIdeal.S_ .f32 0x3727C5AC#32)) (ix1 j)
      = Ideal.ofBits .f32 0x3727C5AC#32 :=
  splat_read _ _ _

theorem zeroR_read (i : SX.Idx) :
    (broadcastInDim Cert.ReferenceIdeal.S50000x128 ![] Cert.ReferenceIdeal.Gen.bcast_S_S50000x128 (constant (F := Ideal) Cert.ReferenceIdeal.S_ .f32 0x00000000#32)) i
      = Ideal.ofBits .f32 0x00000000#32 :=
  splat_read _ _ _

theorem scale_read (l : Nat) (hl : l < 6) (h : Cert.KernelIdeal.S6x128.Slices ![l, 0] Cert.KernelIdeal.S1x128)
    (a7 a10 : FVec Ideal ST .f32) (j : Fin 128) :
    Cert.KernelIdeal.KT.asRow (Cert.KernelIdeal.KT.scaleOf ![l, 0] h a7 a10) (ix2 (0 : Fin 1) j)
      = a7 (ix2 (⟨l, hl⟩ : Fin 6) j) * Ideal.rsqrt (a10 (ix2 (⟨l, hl⟩ : Fin 6) j) + Ideal.ofBits .f32 0x3727C5AC#32) := by
  unfold Cert.KernelIdeal.KT.asRow
  refine (asRow_read _ _ j).trans ?_
  unfold Cert.KernelIdeal.KT.scaleOf
  simp only [mulf_apply, addf_apply, Host.rsqrt, Ideal.hostUnary_rsqrt_def]
  rw [rowOf_read l hl h a7 j, rowOf_read l hl h a10 j, epsK_read j]

theorem shift_read (l : Nat) (hl : l < 6) (h : Cert.KernelIdeal.S6x128.Slices ![l, 0] Cert.KernelIdeal.S1x128)
    (a6 a7 a8 a9 a10 : FVec Ideal ST .f32) (j : Fin 128) :
    Cert.KernelIdeal.KT.asRow (Cert.KernelIdeal.KT.shiftOf ![l, 0] h a6 a7 a8 a9 a10) (ix2 (0 : Fin 1) j)
      = (a6 (ix2 (⟨l, hl⟩ : Fin 6) j) - a9 (ix2 (⟨l, hl⟩ : Fin 6) j))
          * (a7 (ix2 (⟨l, hl⟩ : Fin 6) j) * Ideal.rsqrt (a10 (ix2 (⟨l, hl⟩ : Fin 6) j) + Ideal.ofBits .f32 0x3727C5AC#32))
        + a8 (ix2 (⟨l, hl⟩ : Fin 6) j) := by
  unfold Cert.KernelIdeal.KT.asRow
  refine (asRow_read _ _ j).trans ?_
  unfold Cert.KernelIdeal.KT.shiftOf Cert.KernelIdeal.KT.scaleOf
  simp only [mulf_apply, addf_apply, subf_apply, Host.rsqrt, Ideal.hostUnary_rsqrt_def]
  rw [rowOf_read l hl h a6 j, rowOf_read l hl h a7 j, rowOf_read l hl h a8 j, rowOf_read l hl h a9 j,
    rowOf_read l hl h a10 j, epsK_read j]

theorem rsV_read (l : Nat) (hl : l < 6) (h : Cert.ReferenceIdeal.S6x128.Slices ![l, 0] Cert.ReferenceIdeal.S1x128)
    (a10 : FVec Ideal ST .f32) (j : Fin 128) :
    Cert.ReferenceIdeal.RT.rsV l h a10 (ix1 j) = Ideal.rsqrt (a10 (ix2 (⟨l, hl⟩ : Fin 6) j) + Ideal.ofBits .f32 0x3727C5AC#32) := by
  unfold Cert.ReferenceIdeal.RT.rsV
  simp only [addf_apply, Host.rsqrt, Ideal.hostUnary_rsqrt_def]
  rw [rowV_read l hl h a10 j, epsR_read j]

theorem bnOut_at (x agg slf : FVec Ideal SX .f32) (sc sh : FVec Ideal SP .f32) (n : Fin 50000) (j : Fin 128) :
    bnOut x agg slf sc sh (ix2 n j)
      = x (ix2 n j) + max ((agg (ix2 n j) + slf (ix2 n j)) * sc (ix2 (0 : Fin 1) j) + sh (ix2 (0 : Fin 1) j)) (Ideal.ofBits .f32 0x00000000#32) := rfl

/-- rsqrt of a nonnegative real plus a positive real is a real. -/
theorem rsqrt_real (v e : ℝ) (hv : 0 ≤ v) (he : 0 < e) : ∃ r : ℝ, Ideal.rsqrt ((v : EReal) + (e : EReal)) = (r : EReal) := by
  refine ⟨(Real.sqrt (v + e))⁻¹, ?_⟩
  rw [← EReal.coe_add, Ideal.rsqrt_coe, if_neg (not_lt.2 (by linarith)), if_neg (by linarith)]

/-! ## One layer: the kernel's arrangement is the reference's -/

/-- With row l of the five parameter tables real and the variances nonnegative, one layer of the kernel's program and
    one layer of the reference are the same function of the node array: both aggregate the same support array, and
    entry by entry  A * (g * r) + ((b - μ) * (g * r) + β) = (((A + b) - μ) * r) * g + β  for every extended real A. -/
theorem layer_eq (l : Nat) (hl : l < 6)
    (h3K : Cert.KernelIdeal.S6x128x128.Slices ![l, 0, 0] Cert.KernelIdeal.S1x128x128)
    (h3R : Cert.ReferenceIdeal.S6x128x128.Slices ![l, 0, 0] Cert.ReferenceIdeal.S1x128x128)
    (h2K : Cert.KernelIdeal.S6x128.Slices ![l, 0] Cert.KernelIdeal.S1x128)
    (h2R : Cert.ReferenceIdeal.S6x128.Slices ![l, 0] Cert.ReferenceIdeal.S1x128)
    (x : FVec Ideal SX .f32) (a1 a2 : IVec SE 32) (a3 : FVec Ideal SE .f32) (a4 a5 : FVec Ideal S3 .f32)
    (a6 a7 a8 a9 a10 : FVec Ideal ST .f32)
    (h6 : ∀ i, ∃ r : ℝ, a6 i = (r : EReal)) (h7 : ∀ i, ∃ r : ℝ, a7 i = (r : EReal)) (h8 : ∀ i, ∃ r : ℝ, a8 i = (r : EReal))
    (h9 : ∀ i, ∃ r : ℝ, a9 i = (r : EReal)) (h10 : ∀ i, ∃ r : ℝ, a10 i = (r : EReal)) (hv : ∀ i, (0 : EReal) ≤ a10 i) :
    Cert.KernelIdeal.KT.layerOf ![l, 0, 0] h3K ![l, 0] h2K x a1 a2 a3 a4 a5 a6 a7 a8 a9 a10
      = Cert.ReferenceIdeal.RT.rLayer l h3R h2R x a1 a2 a3 a4 a5 a6 a7 a8 a9 a10 := by
  funext i
  obtain ⟨n, j, rfl⟩ : ∃ (n : Fin 50000) (j : Fin 128), i = ix2 n j := ⟨i 0, i 1, eq_ix2 i⟩
  unfold Cert.KernelIdeal.KT.layerOf Cert.ReferenceIdeal.RT.rLayer
  rw [sup_eq l hl h3K h3R, slf_eq l hl h3K h3R, agg_eq, bnOut_at, scale_read l hl h2K, shift_read l hl h2K]
  simp only [addf_apply, mulf_apply, subf_apply, maximumf_apply]
  rw [down_at, down_at, down_at, down_at, down_at, rowV_read l hl h2R a6 j, rowV_read l hl h2R a9 j,
    rowV_read l hl h2R a7 j, rowV_read l hl h2R a8 j, rsV_read l hl h2R a10 j, zeroR_read]
  obtain ⟨b, eb⟩ := h6 (ix2 (⟨l, hl⟩ : Fin 6) j)
  obtain ⟨g, eg⟩ := h7 (ix2 (⟨l, hl⟩ : Fin 6) j)
  obtain ⟨β, eβ⟩ := h8 (ix2 (⟨l, hl⟩ : Fin 6) j)
  obtain ⟨μ, eμ⟩ := h9 (ix2 (⟨l, hl⟩ : Fin 6) j)
  obtain ⟨v, ev⟩ := h10 (ix2 (⟨l, hl⟩ : Fin 6) j)
  have hv0 : 0 ≤ v := by have := hv (ix2 (⟨l, hl⟩ : Fin 6) j); rw [ev] at this; exact EReal.coe_nonneg.mp this
  obtain ⟨e, he0, he⟩ := Cert.LibConsts.eps_pos
  rw [eb, eg, eβ, eμ, ev, he]
  obtain ⟨r, er⟩ := rsqrt_real v e hv0 he0
  rw [er]
  exact congrArg (fun t => x (ix2 n j) + max t (Ideal.ofBits .f32 0x00000000#32)) (Cert.LibERealAffine.affine_regroup _ b μ r g β)

end Cert.Bridge

end
-- ==== Proof.PreFacts.lean ====
/-
  What the precondition `finite_inputs` gives about the five per-layer parameter
  arrays of shape [6, 128] (bias, scale, shift, running mean, running variance).

  The precondition is a conjunction, by `and` of one-bit words, of one
  `all (|x| < +∞)` per float input and a final `all (rvar ≥ 0)`. Read at the
  extended reals: `|x| = max x (-x)` is below `⊤` exactly when `x` is neither
  `⊤` nor `⊥`, that is when `x` is (the coercion of) a real number; the pattern
  `0x7F800000` denotes `⊤` and the pattern `0` denotes `0`. A reduction by
  `and` over every axis that comes out `1` met a `1` at every index, so each
  conjunct holds at every index of its array.

  `params_real`: under the precondition every entry of the five [6, 128]
  arrays is a real number, and every entry of the last (the running variance)
  is nonnegative.
-/
import proofs.«115942_j16338055594707_1_alg».proof.Pre_finite_inputs
import proofs.«115942_j16338055594707_1_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

variable [Cert.Pre_finite_inputs.Facts]

/-- The rank-0 shape has exactly one index. -/
instance : Subsingleton S_.Idx := ⟨fun a b => funext fun d => d.elim0⟩

/-- The f32 pattern of `+∞` denotes the top of the extended reals. -/
theorem top_f32 : Ideal.ofBits .f32 0x7F800000#32 = (⊤ : EReal) := by simp [Ideal.ofBits, Ideal.ieee]

/-- The f32 pattern of `+0` denotes zero. -/
theorem zero_f32 : Ideal.ofBits .f32 0x00000000#32 = (0 : EReal) := by simp [Ideal.ofBits, Ideal.ieee]

/-- The `and` of two rank-0 one-bit arrays is `1` at an index iff both are. -/
theorem andi_apply_eq_one (x y : IVec S_ 1) (j : S_.Idx) :
    andi x y j = 1#1 ↔ x j = 1#1 ∧ y j = 1#1 := IntOp.andi_eq_one

/-- The one-bit word of a decidable proposition is `1` iff the proposition holds. -/
theorem ofBool_decide_eq_one (p : Prop) [Decidable p] : BitVec.ofBool (decide p) = 1#1 ↔ p := by
  by_cases h : p <;> simp [h]

/-- `|x| < ⊤` on the extended reals says `x` is a real number: `|⊥| = |⊤| = ⊤`. -/
theorem real_of_abs_lt_top (x : EReal) (h : Ideal.cmp .olt (max x (-x)) ⊤ = 1#1) :
    ∃ r : ℝ, x = (r : EReal) := by
  unfold Ideal.cmp at h
  rw [ofBool_decide_eq_one] at h
  induction x using EReal.rec with
  | bot => simp at h
  | coe r => exact ⟨r, rfl⟩
  | top => simp at h

/-- The comparison `x ≥ 0` being `1` is the order fact `0 ≤ x`. -/
theorem nonneg_of_oge_zero (x : EReal) (h : Ideal.cmp .oge x 0 = 1#1) : (0 : EReal) ≤ x := by
  unfold Ideal.cmp at h
  rw [ofBool_decide_eq_one] at h
  exact h

/-- `all (|x| < +∞)` over a [6, 128] array being `1`: every entry is a real number. -/
theorem all_real (x : FVec Ideal S6x128 .f32) (init : IVec S_ 1) (j : S_.Idx)
    (e : Host.reduce IntOp.andi
        (cmpf .olt (Host.absf x)
          (broadcastInDim S6x128 ![] Facts.bcast_S_S6x128 (constant S_ .f32 0x7F800000#32)))
        init Facts.reducesTo_S6x128_S_d0_1 Facts.h_S_ j = 1#1) :
    ∀ i, ∃ r : ℝ, x i = (r : EReal) := by
  intro i
  have h := Host.reduce_andi_all _ _ _ _ j e i
  -- at index `i` the compared words are `|x i|` and the broadcast scalar's one value
  have h' : Ideal.cmp .olt (max (x i) (-(x i))) (Ideal.ofBits .f32 0x7F800000#32) = 1#1 := h
  rw [top_f32] at h'
  exact real_of_abs_lt_top (x i) h'

/-- `all (x ≥ 0)` over a [6, 128] array being `1`: every entry is nonnegative. -/
theorem all_nonneg (x : FVec Ideal S6x128 .f32) (init : IVec S_ 1) (j : S_.Idx)
    (e : Host.reduce IntOp.andi
        (cmpf .oge x
          (broadcastInDim S6x128 ![] Facts.bcast_S_S6x128 (constant S_ .f32 0x00000000#32)))
        init Facts.reducesTo_S6x128_S_d0_1 Facts.h_S_ j = 1#1) :
    ∀ i, (0 : EReal) ≤ x i := by
  intro i
  have h := Host.reduce_andi_all _ _ _ _ j e i
  have h' : Ideal.cmp .oge (x i) (Ideal.ofBits .f32 0x00000000#32) = 1#1 := h
  rw [zero_f32] at h'
  exact nonneg_of_oge_zero (x i) h'

variable (a0 : FVec Ideal S50000x128 .f32) (a1 : IVec S800000 32) (a2 : IVec S800000 32)
  (a3 : FVec Ideal S800000 .f32) (a4 : FVec Ideal S6x128x128 .f32) (a5 : FVec Ideal S6x128x128 .f32)
  (a6 a7 a8 a9 a10 : FVec Ideal S6x128 .f32)

/-- Under the precondition, the five [6, 128] parameter arrays hold real numbers and the last
    of them (the running variance) is nonnegative everywhere. -/
theorem params_real
    (h : Cert.Pre_finite_inputs.fn (F := Ideal) a0 a1 a2 a3 a4 a5 a6 a7 a8 a9 a10 = fun _ => 1#1) :
    (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal))
      ∧ (∀ i, ∃ r : ℝ, a10 i = (r : EReal)) ∧ (∀ i, (0 : EReal) ≤ a10 i) := by
  have e := congrFun h ix0
  -- the function is a left-nested `and` of ten full reductions; peel the last six conjuncts
  dsimp only [fn, fn_part1, fn_part2] at e
  obtain ⟨e, h10n⟩ := (andi_apply_eq_one _ _ _).1 e
  obtain ⟨e, h10⟩ := (andi_apply_eq_one _ _ _).1 e
  obtain ⟨e, h9⟩ := (andi_apply_eq_one _ _ _).1 e
  obtain ⟨e, h8⟩ := (andi_apply_eq_one _ _ _).1 e
  obtain ⟨e, h7⟩ := (andi_apply_eq_one _ _ _).1 e
  obtain ⟨-, h6⟩ := (andi_apply_eq_one _ _ _).1 e
  exact ⟨all_real a6 _ _ h6, all_real a7 _ _ h7, all_real a8 _ _ h8, all_real a9 _ _ h9,
    all_real a10 _ _ h10, all_nonneg a10 _ _ h10n⟩

end Cert.PreFacts

end
-- ==== Proof.RefKeep.lean ====
/-
  The reference program is a straight line of array operations, cut into its six layers (each one or two literal
  pieces of the operation list).  Each operation writes one buffer of its own, so a buffer that no operation of a
  layer writes — an argument array, or an earlier layer's
  result — holds after the layer what it held before, whatever the contents the layer starts from.  And running
  two lists of operations one after the other is running their concatenation.
-/
import proofs.«115942_j16338055594707_1_alg».proof.Proof.RefOps
import Idealize.ShloMosaic.PureOps.Ideal

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

/-- The contents after two lists of operations run in turn are the contents after their concatenation. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => rw [List.cons_append, after_cons, after_cons, ih]

/-- No operation of the named layer writes the buffer, so the layer leaves it as it was: every operation's result
    buffer is a different reference. -/
local macro "layer_skip " ops:ident : tactic =>
  `(tactic| (refine after_of_forall_not_mem _ _ (List.forall_iff_forall_mem.mp ?_)
             simp only [$ops:ident, q0, q1, q2, q3, q4, q5, q6, q7, q8, q9, q10, List.flatten_cons, List.flatten_nil, List.append_nil, List.cons_append,
               List.nil_append, List.Forall, nullary_writes, unary_writes, binary_writes,
               ternary_writes, quaternary_writes, reshape_writes, binaryIndexed_writes, Finset.mem_singleton]
             repeat' apply And.intro
             all_goals exact devRef_ne_of_ne (by decide)))

/-! ## Layer 0 writes no argument array -/

theorem keep0_arg0 (W : Valuation τ sig (Elt Ideal)) :
    after (opsL0 (F := Ideal)) W (Proc.devRef .tc main_arg0) = W (Proc.devRef .tc main_arg0) := by layer_skip opsL0
theorem keep0_arg1 (W : Valuation τ sig (Elt Ideal)) :
    after (opsL0 (F := Ideal)) W (Proc.devRef .tc main_arg1) = W (Proc.devRef .tc main_arg1) := by layer_skip opsL0
theorem keep0_arg2 (W : Valuation τ sig (Elt Ideal)) :
    after (opsL0 (F := Ideal)) W (Proc.devRef .tc main_arg2) = W (Proc.devRef .tc main_arg2) := by layer_skip opsL0
theorem keep0_arg3 (W : Valuation τ sig (Elt Ideal)) :
    after (opsL0 (F := Ideal)) W (Proc.devRef .tc main_arg3) = W (Proc.devRef .tc main_arg3) := by layer_skip opsL0
theorem keep0_arg4 (W : Valuation τ sig (Elt Ideal)) :
    after (opsL0 (F := Ideal)) W (Proc.devRef .tc main_arg4) = W (Proc.devRef .tc main_arg4) := by layer_skip opsL0
theorem keep0_arg5 (W : Valuation τ sig (Elt Ideal)) :
    after (opsL0 (F := Ideal)) W (Proc.devRef .tc main_arg5) = W (Proc.devRef .tc main_arg5) := by layer_skip opsL0
theorem keep0_arg6 (W : Valuation τ sig (Elt Ideal)) :
    after (opsL0 (F := Ideal)) W (Proc.devRef .tc main_arg6) = W (Proc.devRef .tc main_arg6) := by layer_skip opsL0
theorem keep0_arg7 (W : Valuation τ sig (Elt Ideal)) :
    after (opsL0 (F := Ideal)) W (Proc.devRef .tc main_arg7) = W (Proc.devRef .tc main_arg7) := by layer_skip opsL0
theorem keep0_arg8 (W : Valuation τ sig (Elt Ideal)) :
    after (opsL0 (F := Ideal)) W (Proc.devRef .tc main_arg8) = W (Proc.devRef .tc main_arg8) := by layer_skip opsL0
theorem keep0_arg9 (W : Valuation τ sig (Elt Ideal)) :
    after (opsL0 (F := Ideal)) W (Proc.devRef .tc main_arg9) = W (Proc.devRef .tc main_arg9) := by layer_skip opsL0
theorem keep0_arg10 (W : Valuation τ sig (Elt Ideal)) :
    after (opsL0 (F := Ideal)) W (Proc.devRef .tc main_arg10) = W (Proc.devRef .tc main_arg10) := by layer_skip opsL0

/-! ## Layer 1 writes no argument array -/

theorem keep1_arg0 (W : Valuation τ sig (Elt Ideal)) :
    after (opsL1 (F := Ideal)) W (Proc.devRef .tc main_arg0) = W (Proc.devRef .tc main_arg0) := by layer_skip opsL1
theorem keep1_arg1 (W : Valuation τ sig (Elt Ideal)) :
    after (opsL1 (F := Ideal)) W (Proc.devRef .tc main_arg1) = W (Proc.devRef .tc main_arg1) := by layer_skip opsL1
theorem keep1_arg2 (W : Valuation τ sig (Elt Ideal)) :
    after (opsL1 (F := Ideal)) W (Proc.devRef .tc main_arg2) = W (Proc.devRef .tc main_arg2) := by layer_skip opsL1
theorem keep1_arg3 (W : Valuation τ sig (Elt Ideal)) :
    after (opsL1 (F := Ideal)) W (Proc.devRef .tc main_arg3) = W (Proc.devRef .tc main_arg3) := by layer_skip opsL1
theorem keep1_arg4 (W : Valuation τ sig (Elt Ideal)) :
    after (opsL1 (F := Ideal)) W (Proc.devRef .tc main_arg4) = W (Proc.devRef .tc main_arg4) := by layer_skip opsL1
theorem keep1_arg5 (W : Valuation τ sig (Elt Ideal)) :
    after (opsL1 (F := Ideal)) W (Proc.devRef .tc main_arg5) = W (Proc.devRef .tc main_arg5) := by layer_skip opsL1
theorem keep1_arg6 (W : Valuation τ sig (Elt Ideal)) :
    after (opsL1 (F := Ideal)) W (Proc.devRef .tc main_arg6) = W (Proc.devRef .tc main_arg6) := by layer_skip opsL1
theorem keep1_arg7 (W : Valuation τ sig (Elt Ideal)) :
    after (opsL1 (F := Ideal)) W (Proc.devRef .tc main_arg7) = W (Proc.devRef .tc main_arg7) := by layer_skip opsL1
theorem keep1_arg8 (W : Valuation τ sig (Elt Ideal)) :
    after (opsL1 (F := Ideal)) W (Proc.devRef .tc main_arg8) = W (Proc.devRef .tc main_arg8) := by layer_skip opsL1
theorem keep1_arg9 (W : Valuation τ sig (Elt Ideal)) :
    after (opsL1 (F := Ideal)) W (Proc.devRef .tc main_arg9) = W (Proc.devRef .tc main_arg9) := by layer_skip opsL1
theorem keep1_arg10 (W : Valuation τ sig (Elt Ideal)) :
    after (opsL1 (F := Ideal)) W (Proc.devRef .tc main_arg10) = W (Proc.devRef .tc main_arg10) := by layer_skip opsL1

/-! ## Layer 2 writes no argument array -/

theorem keep2_arg0 (W : Valuation τ sig (Elt Ideal)) :
    after (opsL2 (F := Ideal)) W (Proc.devRef .tc main_arg0) = W (Proc.devRef .tc main_arg0) := by layer_skip opsL2
theorem keep2_arg1 (W : Valuation τ sig (Elt Ideal)) :
    after (opsL2 (F := Ideal)) W (Proc.devRef .tc main_arg1) = W (Proc.devRef .tc main_arg1) := by layer_skip opsL2
theorem keep2_arg2 (W : Valuation τ sig (Elt Ideal)) :
    after (opsL2 (F := Ideal)) W (Proc.devRef .tc main_arg2) = W (Proc.devRef .tc main_arg2) := by layer_skip opsL2
theorem keep2_arg3 (W : Valuation τ sig (Elt Ideal)) :
    after (opsL2 (F := Ideal)) W (Proc.devRef .tc main_arg3) = W (Proc.devRef .tc main_arg3) := by layer_skip opsL2
theorem keep2_arg4 (W : Valuation τ sig (Elt Ideal)) :
    after (opsL2 (F := Ideal)) W (Proc.devRef .tc main_arg4) = W (Proc.devRef .tc main_arg4) := by layer_skip opsL2
theorem keep2_arg5 (W : Valuation τ sig (Elt Ideal)) :
    after (opsL2 (F := Ideal)) W (Proc.devRef .tc main_arg5) = W (Proc.devRef .tc main_arg5) := by layer_skip opsL2
theorem keep2_arg6 (W : Valuation τ sig (Elt Ideal)) :
    after (opsL2 (F := Ideal)) W (Proc.devRef .tc main_arg6) = W (Proc.devRef .tc main_arg6) := by layer_skip opsL2
theorem keep2_arg7 (W : Valuation τ sig (Elt Ideal)) :
    after (opsL2 (F := Ideal)) W (Proc.devRef .tc main_arg7) = W (Proc.devRef .tc main_arg7) := by layer_skip opsL2
theorem keep2_arg8 (W : Valuation τ sig (Elt Ideal)) :
    after (opsL2 (F := Ideal)) W (Proc.devRef .tc main_arg8) = W (Proc.devRef .tc main_arg8) := by layer_skip opsL2
theorem keep2_arg9 (W : Valuation τ sig (Elt Ideal)) :
    after (opsL2 (F := Ideal)) W (Proc.devRef .tc main_arg9) = W (Proc.devRef .tc main_arg9) := by layer_skip opsL2
theorem keep2_arg10 (W : Valuation τ sig (Elt Ideal)) :
    after (opsL2 (F := Ideal)) W (Proc.devRef .tc main_arg10) = W (Proc.devRef .tc main_arg10) := by layer_skip opsL2

/-! ## Layer 3 writes no argument array -/

theorem keep3_arg0 (W : Valuation τ sig (Elt Ideal)) :
    after (opsL3 (F := Ideal)) W (Proc.devRef .tc main_arg0) = W (Proc.devRef .tc main_arg0) := by layer_skip opsL3
theorem keep3_arg1 (W : Valuation τ sig (Elt Ideal)) :
    after (opsL3 (F := Ideal)) W (Proc.devRef .tc main_arg1) = W (Proc.devRef .tc main_arg1) := by layer_skip opsL3
theorem keep3_arg2 (W : Valuation τ sig (Elt Ideal)) :
    after (opsL3 (F := Ideal)) W (Proc.devRef .tc main_arg2) = W (Proc.devRef .tc main_arg2) := by layer_skip opsL3
theorem keep3_arg3 (W : Valuation τ sig (Elt Ideal)) :
    after (opsL3 (F := Ideal)) W (Proc.devRef .tc main_arg3) = W (Proc.devRef .tc main_arg3) := by layer_skip opsL3
theorem keep3_arg4 (W : Valuation τ sig (Elt Ideal)) :
    after (opsL3 (F := Ideal)) W (Proc.devRef .tc main_arg4) = W (Proc.devRef .tc main_arg4) := by layer_skip opsL3
theorem keep3_arg5 (W : Valuation τ sig (Elt Ideal)) :
    after (opsL3 (F := Ideal)) W (Proc.devRef .tc main_arg5) = W (Proc.devRef .tc main_arg5) := by layer_skip opsL3
theorem keep3_arg6 (W : Valuation τ sig (Elt Ideal)) :
    after (opsL3 (F := Ideal)) W (Proc.devRef .tc main_arg6) = W (Proc.devRef .tc main_arg6) := by layer_skip opsL3
theorem keep3_arg7 (W : Valuation τ sig (Elt Ideal)) :
    after (opsL3 (F := Ideal)) W (Proc.devRef .tc main_arg7) = W (Proc.devRef .tc main_arg7) := by layer_skip opsL3
theorem keep3_arg8 (W : Valuation τ sig (Elt Ideal)) :
    after (opsL3 (F := Ideal)) W (Proc.devRef .tc main_arg8) = W (Proc.devRef .tc main_arg8) := by layer_skip opsL3
theorem keep3_arg9 (W : Valuation τ sig (Elt Ideal)) :
    after (opsL3 (F := Ideal)) W (Proc.devRef .tc main_arg9) = W (Proc.devRef .tc main_arg9) := by layer_skip opsL3
theorem keep3_arg10 (W : Valuation τ sig (Elt Ideal)) :
    after (opsL3 (F := Ideal)) W (Proc.devRef .tc main_arg10) = W (Proc.devRef .tc main_arg10) := by layer_skip opsL3

/-! ## Layer 4 writes no argument array -/

theorem keep4_arg0 (W : Valuation τ sig (Elt Ideal)) :
    after (opsL4 (F := Ideal)) W (Proc.devRef .tc main_arg0) = W (Proc.devRef .tc main_arg0) := by layer_skip opsL4
theorem keep4_arg1 (W : Valuation τ sig (Elt Ideal)) :
    after (opsL4 (F := Ideal)) W (Proc.devRef .tc main_arg1) = W (Proc.devRef .tc main_arg1) := by layer_skip opsL4
theorem keep4_arg2 (W : Valuation τ sig (Elt Ideal)) :
    after (opsL4 (F := Ideal)) W (Proc.devRef .tc main_arg2) = W (Proc.devRef .tc main_arg2) := by layer_skip opsL4
theorem keep4_arg3 (W : Valuation τ sig (Elt Ideal)) :
    after (opsL4 (F := Ideal)) W (Proc.devRef .tc main_arg3) = W (Proc.devRef .tc main_arg3) := by layer_skip opsL4
theorem keep4_arg4 (W : Valuation τ sig (Elt Ideal)) :
    after (opsL4 (F := Ideal)) W (Proc.devRef .tc main_arg4) = W (Proc.devRef .tc main_arg4) := by layer_skip opsL4
theorem keep4_arg5 (W : Valuation τ sig (Elt Ideal)) :
    after (opsL4 (F := Ideal)) W (Proc.devRef .tc main_arg5) = W (Proc.devRef .tc main_arg5) := by layer_skip opsL4
theorem keep4_arg6 (W : Valuation τ sig (Elt Ideal)) :
    after (opsL4 (F := Ideal)) W (Proc.devRef .tc main_arg6) = W (Proc.devRef .tc main_arg6) := by layer_skip opsL4
theorem keep4_arg7 (W : Valuation τ sig (Elt Ideal)) :
    after (opsL4 (F := Ideal)) W (Proc.devRef .tc main_arg7) = W (Proc.devRef .tc main_arg7) := by layer_skip opsL4
theorem keep4_arg8 (W : Valuation τ sig (Elt Ideal)) :
    after (opsL4 (F := Ideal)) W (Proc.devRef .tc main_arg8) = W (Proc.devRef .tc main_arg8) := by layer_skip opsL4
theorem keep4_arg9 (W : Valuation τ sig (Elt Ideal)) :
    after (opsL4 (F := Ideal)) W (Proc.devRef .tc main_arg9) = W (Proc.devRef .tc main_arg9) := by layer_skip opsL4
theorem keep4_arg10 (W : Valuation τ sig (Elt Ideal)) :
    after (opsL4 (F := Ideal)) W (Proc.devRef .tc main_arg10) = W (Proc.devRef .tc main_arg10) := by layer_skip opsL4

/-! ## Layer 5 writes no argument array -/

theorem keep5_arg0 (W : Valuation τ sig (Elt Ideal)) :
    after (opsL5 (F := Ideal)) W (Proc.devRef .tc main_arg0) = W (Proc.devRef .tc main_arg0) := by layer_skip opsL5
theorem keep5_arg1 (W : Valuation τ sig (Elt Ideal)) :
    after (opsL5 (F := Ideal)) W (Proc.devRef .tc main_arg1) = W (Proc.devRef .tc main_arg1) := by layer_skip opsL5
theorem keep5_arg2 (W : Valuation τ sig (Elt Ideal)) :
    after (opsL5 (F := Ideal)) W (Proc.devRef .tc main_arg2) = W (Proc.devRef .tc main_arg2) := by layer_skip opsL5
theorem keep5_arg3 (W : Valuation τ sig (Elt Ideal)) :
    after (opsL5 (F := Ideal)) W (Proc.devRef .tc main_arg3) = W (Proc.devRef .tc main_arg3) := by layer_skip opsL5
theorem keep5_arg4 (W : Valuation τ sig (Elt Ideal)) :
    after (opsL5 (F := Ideal)) W (Proc.devRef .tc main_arg4) = W (Proc.devRef .tc main_arg4) := by layer_skip opsL5
theorem keep5_arg5 (W : Valuation τ sig (Elt Ideal)) :
    after (opsL5 (F := Ideal)) W (Proc.devRef .tc main_arg5) = W (Proc.devRef .tc main_arg5) := by layer_skip opsL5
theorem keep5_arg6 (W : Valuation τ sig (Elt Ideal)) :
    after (opsL5 (F := Ideal)) W (Proc.devRef .tc main_arg6) = W (Proc.devRef .tc main_arg6) := by layer_skip opsL5
theorem keep5_arg7 (W : Valuation τ sig (Elt Ideal)) :
    after (opsL5 (F := Ideal)) W (Proc.devRef .tc main_arg7) = W (Proc.devRef .tc main_arg7) := by layer_skip opsL5
theorem keep5_arg8 (W : Valuation τ sig (Elt Ideal)) :
    after (opsL5 (F := Ideal)) W (Proc.devRef .tc main_arg8) = W (Proc.devRef .tc main_arg8) := by layer_skip opsL5
theorem keep5_arg9 (W : Valuation τ sig (Elt Ideal)) :
    after (opsL5 (F := Ideal)) W (Proc.devRef .tc main_arg9) = W (Proc.devRef .tc main_arg9) := by layer_skip opsL5
theorem keep5_arg10 (W : Valuation τ sig (Elt Ideal)) :
    after (opsL5 (F := Ideal)) W (Proc.devRef .tc main_arg10) = W (Proc.devRef .tc main_arg10) := by layer_skip opsL5

/-! ## The later layers leave the earlier layers' results -/

/-- Layer 1 does not write layer 0's result. -/
theorem keep1_v49 (W : Valuation τ sig (Elt Ideal)) :
    after (opsL1 (F := Ideal)) W (Proc.devRef .tc main_v49) = W (Proc.devRef .tc main_v49) := by layer_skip opsL1
/-- Layers 3 and 4 do not write layer 2's result. -/
theorem keep3_v148 (W : Valuation τ sig (Elt Ideal)) :
    after (opsL3 (F := Ideal)) W (Proc.devRef .tc main_v148) = W (Proc.devRef .tc main_v148) := by layer_skip opsL3
theorem keep4_v148 (W : Valuation τ sig (Elt Ideal)) :
    after (opsL4 (F := Ideal)) W (Proc.devRef .tc main_v148) = W (Proc.devRef .tc main_v148) := by layer_skip opsL4

end Cert.ReferenceIdeal.RFold

end
-- ==== Proof.RefLayer0.lean ====
/-
  Layer 0 of the reference program read back. The layer is a straight line of 56 array operations, each writing one
  fresh buffer. Folding a straight line from any contents, the buffer its last operation writes holds that
  operation's function of its operands' contents, and so on back to buffers the line does not write. The line is read
  in three consecutive parts — up to the sum of the aggregated neighbour term and the self term; from there up to the
  product with the reciprocal square root of the variance; the rest (scale, shift, the maximum with zero and the
  residual sum) — each over arbitrary starting contents, and the parts are joined: running a concatenation is
  running its parts in turn, and a buffer no operation writes keeps its contents.
-/
import proofs.«115942_j16338055594707_1_alg».proof.Proof.RefOps
import proofs.«115942_j16338055594707_1_alg».proof.Proof.RTerms

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

namespace L0

/-- Running a concatenation of two lines is running them in turn. -/
theorem after_app {Val : EltTy → Type} (l₁ l₂ : List (HloOp τ sig Val)) (W : Valuation τ sig Val) :
    after (l₁ ++ l₂) W = after l₂ (after l₁ W) := by
  induction l₁ generalizing W with
  | nil => rfl
  | cons op l ih => rw [List.cons_append, after_cons, after_cons, ih]

/-- A buffer no operation of a line writes is kept by every initial segment of the line … -/
theorem keep_take {Val : EltTy → Type} {b : DevRef τ sig} (l : List (HloOp τ sig Val)) (n : Nat)
    (V : Valuation τ sig Val) (h : ∀ op ∈ l, b ∉ op.writes) : after (l.take n) V b = V b :=
  after_of_forall_not_mem _ _ fun op ho => h op (List.mem_of_mem_take ho)
/-- … and by every final segment. -/
theorem keep_drop {Val : EltTy → Type} {b : DevRef τ sig} (l : List (HloOp τ sig Val)) (n : Nat)
    (V : Valuation τ sig Val) (h : ∀ op ∈ l, b ∉ op.writes) : after (l.drop n) V b = V b :=
  after_of_forall_not_mem _ _ fun op ho => h op (List.mem_of_mem_drop ho)

/-- The layer's line. -/
abbrev line : List (HloOp τ sig (Elt Ideal)) := q0
/-- Its first 23 operations, its next 19, and its last 14. -/
abbrev partA : List (HloOp τ sig (Elt Ideal)) := List.take 23 line
abbrev partB : List (HloOp τ sig (Elt Ideal)) := List.take 19 (List.drop 23 line)
abbrev partC : List (HloOp τ sig (Elt Ideal)) := List.drop 19 (List.drop 23 line)

theorem line_split : line = partA ++ (partB ++ partC) :=
  ((List.take_append_drop 23 line).symm).trans
    (congrArg (List.take 23 line ++ ·) (List.take_append_drop 19 (List.drop 23 line)).symm)

/-- No operation of the line writes the named buffer: every operation's result buffer is another reference. -/
local macro "line_skips" : tactic =>
  `(tactic| (refine List.forall_iff_forall_mem.mp ?_
             simp only [line, q0, List.flatten_cons, List.flatten_nil, List.append_nil, List.cons_append,
      List.nil_append, List.Forall, nullary_writes, unary_writes, binary_writes, ternary_writes, quaternary_writes,
      reshape_writes, binaryIndexed_writes, Finset.mem_singleton]
             repeat' apply And.intro
             all_goals exact devRef_ne_of_ne (by decide)))

theorem nw_x : ∀ op ∈ line, (Proc.devRef .tc main_arg0) ∉ op.writes := by line_skips
theorem nw_a6 : ∀ op ∈ line, (Proc.devRef .tc main_arg6) ∉ op.writes := by line_skips
theorem nw_a7 : ∀ op ∈ line, (Proc.devRef .tc main_arg7) ∉ op.writes := by line_skips
theorem nw_a8 : ∀ op ∈ line, (Proc.devRef .tc main_arg8) ∉ op.writes := by line_skips
theorem nw_a9 : ∀ op ∈ line, (Proc.devRef .tc main_arg9) ∉ op.writes := by line_skips
theorem nw_a10 : ∀ op ∈ line, (Proc.devRef .tc main_arg10) ∉ op.writes := by line_skips

/-- A buffer the line does not write, after the first part, and after the first two parts. -/
theorem keepA {b : DevRef τ sig} (h : ∀ op ∈ line, b ∉ op.writes) (W : Valuation τ sig (Elt Ideal)) :
    after partA W b = W b := keep_take line 23 W h
theorem keepBA {b : DevRef τ sig} (h : ∀ op ∈ line, b ∉ op.writes) (W : Valuation τ sig (Elt Ideal)) :
    after partB (after partA W) b = W b :=
  (keep_take (List.drop 23 line) 19 _ fun op ho => h op (List.mem_of_mem_drop ho)).trans (keepA h W)

/-- The first part: the aggregated neighbour term plus the self term. -/
theorem readA (W : Valuation τ sig (Elt Ideal)) :
    after partA W (Proc.devRef .tc main_v19)
      = addf (RT.aggR (Host.dotGeneral (φ₁ := .f32) dot_S50000x128_S128x128_S50000x128_1_0_0_1_n_n none (W (Proc.devRef .tc main_arg0))
            (RT.wOf 0 slices_S6x128x128_S1x128x128_0_0_0 (W (Proc.devRef .tc main_arg4))))
          (W (Proc.devRef .tc main_arg1)) (W (Proc.devRef .tc main_arg2)) (W (Proc.devRef .tc main_arg3)))
        (Host.dotGeneral (φ₁ := .f32) dot_S50000x128_S128x128_S50000x128_1_0_0_1_n_n none (W (Proc.devRef .tc main_arg0))
          (RT.wOf 0 slices_S6x128x128_S1x128x128_0_0_0 (W (Proc.devRef .tc main_arg5)))) := by
  simp only [partA, line, q0, List.cons_append, List.nil_append, List.take_succ_cons, List.take_zero]
  after_results_simp
  rfl

/-- The second part: add the bias row, subtract the mean row, multiply by the reciprocal square root row. -/
theorem readB (V : Valuation τ sig (Elt Ideal)) :
    after partB V (Proc.devRef .tc main_v37)
      = mulf (subf (addf (V (Proc.devRef .tc main_v19)) (RT.down (RT.rowV 0 slices_S6x128_S1x128_0_0 (V (Proc.devRef .tc main_arg6)))))
          (RT.down (RT.rowV 0 slices_S6x128_S1x128_0_0 (V (Proc.devRef .tc main_arg9)))))
        (RT.down (RT.rsV 0 slices_S6x128_S1x128_0_0 (V (Proc.devRef .tc main_arg10)))) := by
  simp only [partB, line, q0, List.cons_append, List.nil_append, List.drop_succ_cons, List.drop_zero,
    List.take_succ_cons, List.take_zero]
  after_results_simp
  rfl

/-- The third part: scale, shift, the maximum with zero, and the residual sum. -/
theorem readC (V : Valuation τ sig (Elt Ideal)) :
    after partC V (Proc.devRef .tc main_v49)
      = addf (V (Proc.devRef .tc main_arg0)) (maximumf
          (addf (mulf (V (Proc.devRef .tc main_v37)) (RT.down (RT.rowV 0 slices_S6x128_S1x128_0_0 (V (Proc.devRef .tc main_arg7)))))
            (RT.down (RT.rowV 0 slices_S6x128_S1x128_0_0 (V (Proc.devRef .tc main_arg8)))))
          (broadcastInDim S50000x128 ![] bcast_S_S50000x128 (constant (F := Ideal) S_ .f32 0x00000000#32))) := by
  simp only [partC, line, q0, List.cons_append, List.nil_append, List.drop_succ_cons, List.drop_zero]
  after_results_simp
  rfl

end L0

open L0 in
/-- Layer 0 read back: the buffer the layer's last operation writes holds the layer function of the node array
    the layer starts from and of the ten other inputs, whatever the contents before it. -/
theorem layer0 (W : Valuation τ sig (Elt Ideal)) :
    after (opsL0 (F := Ideal)) W (Proc.devRef .tc main_v49)
      = RT.rLayer 0 slices_S6x128x128_S1x128x128_0_0_0 slices_S6x128_S1x128_0_0
        (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) (W (Proc.devRef .tc main_arg8))
        (W (Proc.devRef .tc main_arg9)) (W (Proc.devRef .tc main_arg10)) := by
  show after line W _ = _
  rw [line_split, after_app, after_app, readC, readB, readA, keepBA nw_x, keepBA nw_a7, keepBA nw_a8,
    keepA nw_a6, keepA nw_a9, keepA nw_a10]
  rfl

end Cert.ReferenceIdeal.RFold

end
-- ==== Proof.RefLayer2.lean ====
/-
  Layer 2 of the reference program read back. The layer is a straight line of 56 array operations, each writing one
  fresh buffer. Folding a straight line from any contents, the buffer its last operation writes holds that
  operation's function of its operands' contents, and so on back to buffers the line does not write. The line is read
  in three consecutive parts — up to the sum of the aggregated neighbour term and the self term; from there up to the
  product with the reciprocal square root of the variance; the rest (scale, shift, the maximum with zero and the
  residual sum) — each over arbitrary starting contents, and the parts are joined: running a concatenation is
  running its parts in turn, and a buffer no operation writes keeps its contents.
-/
import proofs.«115942_j16338055594707_1_alg».proof.Proof.RefOps
import proofs.«115942_j16338055594707_1_alg».proof.Proof.RTerms

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

namespace L2

/-- Running a concatenation of two lines is running them in turn. -/
theorem after_app {Val : EltTy → Type} (l₁ l₂ : List (HloOp τ sig Val)) (W : Valuation τ sig Val) :
    after (l₁ ++ l₂) W = after l₂ (after l₁ W) := by
  induction l₁ generalizing W with
  | nil => rfl
  | cons op l ih => rw [List.cons_append, after_cons, after_cons, ih]

/-- A buffer no operation of a line writes is kept by every initial segment of the line … -/
theorem keep_take {Val : EltTy → Type} {b : DevRef τ sig} (l : List (HloOp τ sig Val)) (n : Nat)
    (V : Valuation τ sig Val) (h : ∀ op ∈ l, b ∉ op.writes) : after (l.take n) V b = V b :=
  after_of_forall_not_mem _ _ fun op ho => h op (List.mem_of_mem_take ho)
/-- … and by every final segment. -/
theorem keep_drop {Val : EltTy → Type} {b : DevRef τ sig} (l : List (HloOp τ sig Val)) (n : Nat)
    (V : Valuation τ sig Val) (h : ∀ op ∈ l, b ∉ op.writes) : after (l.drop n) V b = V b :=
  after_of_forall_not_mem _ _ fun op ho => h op (List.mem_of_mem_drop ho)

/-- The layer's line. -/
abbrev line : List (HloOp τ sig (Elt Ideal)) := q3 ++ q4
/-- Its first 23 operations, its next 19, and its last 14. -/
abbrev partA : List (HloOp τ sig (Elt Ideal)) := List.take 23 line
abbrev partB : List (HloOp τ sig (Elt Ideal)) := List.take 19 (List.drop 23 line)
abbrev partC : List (HloOp τ sig (Elt Ideal)) := List.drop 19 (List.drop 23 line)

theorem line_split : line = partA ++ (partB ++ partC) :=
  ((List.take_append_drop 23 line).symm).trans
    (congrArg (List.take 23 line ++ ·) (List.take_append_drop 19 (List.drop 23 line)).symm)

/-- No operation of the line writes the named buffer: every operation's result buffer is another reference. -/
local macro "line_skips" : tactic =>
  `(tactic| (refine List.forall_iff_forall_mem.mp ?_
             simp only [line, q3, q4, List.flatten_cons, List.flatten_nil, List.append_nil, List.cons_append,
      List.nil_append, List.Forall, nullary_writes, unary_writes, binary_writes, ternary_writes, quaternary_writes,
      reshape_writes, binaryIndexed_writes, Finset.mem_singleton]
             repeat' apply And.intro
             all_goals exact devRef_ne_of_ne (by decide)))

theorem nw_x : ∀ op ∈ line, (Proc.devRef .tc main_v49) ∉ op.writes := by line_skips
theorem nw_a6 : ∀ op ∈ line, (Proc.devRef .tc main_arg6) ∉ op.writes := by line_skips
theorem nw_a7 : ∀ op ∈ line, (Proc.devRef .tc main_arg7) ∉ op.writes := by line_skips
theorem nw_a8 : ∀ op ∈ line, (Proc.devRef .tc main_arg8) ∉ op.writes := by line_skips
theorem nw_a9 : ∀ op ∈ line, (Proc.devRef .tc main_arg9) ∉ op.writes := by line_skips
theorem nw_a10 : ∀ op ∈ line, (Proc.devRef .tc main_arg10) ∉ op.writes := by line_skips

/-- A buffer the line does not write, after the first part, and after the first two parts. -/
theorem keepA {b : DevRef τ sig} (h : ∀ op ∈ line, b ∉ op.writes) (W : Valuation τ sig (Elt Ideal)) :
    after partA W b = W b := keep_take line 23 W h
theorem keepBA {b : DevRef τ sig} (h : ∀ op ∈ line, b ∉ op.writes) (W : Valuation τ sig (Elt Ideal)) :
    after partB (after partA W) b = W b :=
  (keep_take (List.drop 23 line) 19 _ fun op ho => h op (List.mem_of_mem_drop ho)).trans (keepA h W)

/-- The first part: the aggregated neighbour term plus the self term. -/
theorem readA (W : Valuation τ sig (Elt Ideal)) :
    after partA W (Proc.devRef .tc main_v118)
      = addf (RT.aggR (Host.dotGeneral (φ₁ := .f32) dot_S50000x128_S128x128_S50000x128_1_0_0_1_n_n none (W (Proc.devRef .tc main_v49))
            (RT.wOf 2 slices_S6x128x128_S1x128x128_2_0_0 (W (Proc.devRef .tc main_arg4))))
          (W (Proc.devRef .tc main_arg1)) (W (Proc.devRef .tc main_arg2)) (W (Proc.devRef .tc main_arg3)))
        (Host.dotGeneral (φ₁ := .f32) dot_S50000x128_S128x128_S50000x128_1_0_0_1_n_n none (W (Proc.devRef .tc main_v49))
          (RT.wOf 2 slices_S6x128x128_S1x128x128_2_0_0 (W (Proc.devRef .tc main_arg5)))) := by
  simp only [partA, line, q3, q4, List.cons_append, List.nil_append, List.take_succ_cons, List.take_zero]
  after_results_simp
  rfl

/-- The second part: add the bias row, subtract the mean row, multiply by the reciprocal square root row. -/
theorem readB (V : Valuation τ sig (Elt Ideal)) :
    after partB V (Proc.devRef .tc main_v136)
      = mulf (subf (addf (V (Proc.devRef .tc main_v118)) (RT.down (RT.rowV 2 slices_S6x128_S1x128_2_0 (V (Proc.devRef .tc main_arg6)))))
          (RT.down (RT.rowV 2 slices_S6x128_S1x128_2_0 (V (Proc.devRef .tc main_arg9)))))
        (RT.down (RT.rsV 2 slices_S6x128_S1x128_2_0 (V (Proc.devRef .tc main_arg10)))) := by
  simp only [partB, line, q3, q4, List.cons_append, List.nil_append, List.drop_succ_cons, List.drop_zero,
    List.take_succ_cons, List.take_zero]
  after_results_simp
  rfl

/-- The third part: scale, shift, the maximum with zero, and the residual sum. -/
theorem readC (V : Valuation τ sig (Elt Ideal)) :
    after partC V (Proc.devRef .tc main_v148)
      = addf (V (Proc.devRef .tc main_v49)) (maximumf
          (addf (mulf (V (Proc.devRef .tc main_v136)) (RT.down (RT.rowV 2 slices_S6x128_S1x128_2_0 (V (Proc.devRef .tc main_arg7)))))
            (RT.down (RT.rowV 2 slices_S6x128_S1x128_2_0 (V (Proc.devRef .tc main_arg8)))))
          (broadcastInDim S50000x128 ![] bcast_S_S50000x128 (constant (F := Ideal) S_ .f32 0x00000000#32))) := by
  simp only [partC, line, q3, q4, List.cons_append, List.nil_append, List.drop_succ_cons, List.drop_zero]
  after_results_simp
  rfl

end L2

open L2 in
/-- Layer 2 read back: the buffer the layer's last operation writes holds the layer function of the node array
    the layer starts from and of the ten other inputs, whatever the contents before it. -/
theorem layer2 (W : Valuation τ sig (Elt Ideal)) :
    after (opsL2 (F := Ideal)) W (Proc.devRef .tc main_v148)
      = RT.rLayer 2 slices_S6x128x128_S1x128x128_2_0_0 slices_S6x128_S1x128_2_0
        (W (Proc.devRef .tc main_v49)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) (W (Proc.devRef .tc main_arg8))
        (W (Proc.devRef .tc main_arg9)) (W (Proc.devRef .tc main_arg10)) := by
  show after line W _ = _
  rw [line_split, after_app, after_app, readC, readB, readA, keepBA nw_x, keepBA nw_a7, keepBA nw_a8,
    keepA nw_a6, keepA nw_a9, keepA nw_a10]
  rfl

end Cert.ReferenceIdeal.RFold

end
-- ==== Proof.RefLayer5.lean ====
/-
  Layer 5 of the reference program read back. The layer is a straight line of 56 array operations, each writing one
  fresh buffer. Folding a straight line from any contents, the buffer its last operation writes holds that
  operation's function of its operands' contents, and so on back to buffers the line does not write. The line is read
  in three consecutive parts — up to the sum of the aggregated neighbour term and the self term; from there up to the
  product with the reciprocal square root of the variance; the rest (scale, shift, the maximum with zero and the
  residual sum) — each over arbitrary starting contents, and the parts are joined: running a concatenation is
  running its parts in turn, and a buffer no operation writes keeps its contents.
-/
import proofs.«115942_j16338055594707_1_alg».proof.Proof.RefOps
import proofs.«115942_j16338055594707_1_alg».proof.Proof.RTerms

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

namespace L5

/-- Running a concatenation of two lines is running them in turn. -/
theorem after_app {Val : EltTy → Type} (l₁ l₂ : List (HloOp τ sig Val)) (W : Valuation τ sig Val) :
    after (l₁ ++ l₂) W = after l₂ (after l₁ W) := by
  induction l₁ generalizing W with
  | nil => rfl
  | cons op l ih => rw [List.cons_append, after_cons, after_cons, ih]

/-- A buffer no operation of a line writes is kept by every initial segment of the line … -/
theorem keep_take {Val : EltTy → Type} {b : DevRef τ sig} (l : List (HloOp τ sig Val)) (n : Nat)
    (V : Valuation τ sig Val) (h : ∀ op ∈ l, b ∉ op.writes) : after (l.take n) V b = V b :=
  after_of_forall_not_mem _ _ fun op ho => h op (List.mem_of_mem_take ho)
/-- … and by every final segment. -/
theorem keep_drop {Val : EltTy → Type} {b : DevRef τ sig} (l : List (HloOp τ sig Val)) (n : Nat)
    (V : Valuation τ sig Val) (h : ∀ op ∈ l, b ∉ op.writes) : after (l.drop n) V b = V b :=
  after_of_forall_not_mem _ _ fun op ho => h op (List.mem_of_mem_drop ho)

/-- The layer's line. -/
abbrev line : List (HloOp τ sig (Elt Ideal)) := q9 ++ q10
/-- Its first 23 operations, its next 19, and its last 14. -/
abbrev partA : List (HloOp τ sig (Elt Ideal)) := List.take 23 line
abbrev partB : List (HloOp τ sig (Elt Ideal)) := List.take 19 (List.drop 23 line)
abbrev partC : List (HloOp τ sig (Elt Ideal)) := List.drop 19 (List.drop 23 line)

theorem line_split : line = partA ++ (partB ++ partC) :=
  ((List.take_append_drop 23 line).symm).trans
    (congrArg (List.take 23 line ++ ·) (List.take_append_drop 19 (List.drop 23 line)).symm)

/-- No operation of the line writes the named buffer: every operation's result buffer is another reference. -/
local macro "line_skips" : tactic =>
  `(tactic| (refine List.forall_iff_forall_mem.mp ?_
             simp only [line, q9, q10, List.flatten_cons, List.flatten_nil, List.append_nil, List.cons_append,
      List.nil_append, List.Forall, nullary_writes, unary_writes, binary_writes, ternary_writes, quaternary_writes,
      reshape_writes, binaryIndexed_writes, Finset.mem_singleton]
             repeat' apply And.intro
             all_goals exact devRef_ne_of_ne (by decide)))

theorem nw_x : ∀ op ∈ line, (Proc.devRef .tc main_v148) ∉ op.writes := by line_skips
theorem nw_a6 : ∀ op ∈ line, (Proc.devRef .tc main_arg6) ∉ op.writes := by line_skips
theorem nw_a7 : ∀ op ∈ line, (Proc.devRef .tc main_arg7) ∉ op.writes := by line_skips
theorem nw_a8 : ∀ op ∈ line, (Proc.devRef .tc main_arg8) ∉ op.writes := by line_skips
theorem nw_a9 : ∀ op ∈ line, (Proc.devRef .tc main_arg9) ∉ op.writes := by line_skips
theorem nw_a10 : ∀ op ∈ line, (Proc.devRef .tc main_arg10) ∉ op.writes := by line_skips

/-- A buffer the line does not write, after the first part, and after the first two parts. -/
theorem keepA {b : DevRef τ sig} (h : ∀ op ∈ line, b ∉ op.writes) (W : Valuation τ sig (Elt Ideal)) :
    after partA W b = W b := keep_take line 23 W h
theorem keepBA {b : DevRef τ sig} (h : ∀ op ∈ line, b ∉ op.writes) (W : Valuation τ sig (Elt Ideal)) :
    after partB (after partA W) b = W b :=
  (keep_take (List.drop 23 line) 19 _ fun op ho => h op (List.mem_of_mem_drop ho)).trans (keepA h W)

/-- The first part: the aggregated neighbour term plus the self term. -/
theorem readA (W : Valuation τ sig (Elt Ideal)) :
    after partA W (Proc.devRef .tc main_v266)
      = addf (RT.aggR (Host.dotGeneral (φ₁ := .f32) dot_S50000x128_S128x128_S50000x128_1_0_0_1_n_n none (W (Proc.devRef .tc main_v148))
            (RT.wOf 5 slices_S6x128x128_S1x128x128_5_0_0 (W (Proc.devRef .tc main_arg4))))
          (W (Proc.devRef .tc main_arg1)) (W (Proc.devRef .tc main_arg2)) (W (Proc.devRef .tc main_arg3)))
        (Host.dotGeneral (φ₁ := .f32) dot_S50000x128_S128x128_S50000x128_1_0_0_1_n_n none (W (Proc.devRef .tc main_v148))
          (RT.wOf 5 slices_S6x128x128_S1x128x128_5_0_0 (W (Proc.devRef .tc main_arg5)))) := by
  simp only [partA, line, q9, q10, List.cons_append, List.nil_append, List.take_succ_cons, List.take_zero]
  after_results_simp
  rfl

/-- The second part: add the bias row, subtract the mean row, multiply by the reciprocal square root row. -/
theorem readB (V : Valuation τ sig (Elt Ideal)) :
    after partB V (Proc.devRef .tc main_v284)
      = mulf (subf (addf (V (Proc.devRef .tc main_v266)) (RT.down (RT.rowV 5 slices_S6x128_S1x128_5_0 (V (Proc.devRef .tc main_arg6)))))
          (RT.down (RT.rowV 5 slices_S6x128_S1x128_5_0 (V (Proc.devRef .tc main_arg9)))))
        (RT.down (RT.rsV 5 slices_S6x128_S1x128_5_0 (V (Proc.devRef .tc main_arg10)))) := by
  simp only [partB, line, q9, q10, List.cons_append, List.nil_append, List.drop_succ_cons, List.drop_zero,
    List.take_succ_cons, List.take_zero]
  after_results_simp
  rfl

/-- The third part: scale, shift, the maximum with zero, and the residual sum. -/
theorem readC (V : Valuation τ sig (Elt Ideal)) :
    after partC V (Proc.devRef .tc main_v296)
      = addf (V (Proc.devRef .tc main_v148)) (maximumf
          (addf (mulf (V (Proc.devRef .tc main_v284)) (RT.down (RT.rowV 5 slices_S6x128_S1x128_5_0 (V (Proc.devRef .tc main_arg7)))))
            (RT.down (RT.rowV 5 slices_S6x128_S1x128_5_0 (V (Proc.devRef .tc main_arg8)))))
          (broadcastInDim S50000x128 ![] bcast_S_S50000x128 (constant (F := Ideal) S_ .f32 0x00000000#32))) := by
  simp only [partC, line, q9, q10, List.cons_append, List.nil_append, List.drop_succ_cons, List.drop_zero]
  after_results_simp
  rfl

end L5

open L5 in
/-- Layer 5 read back: the buffer the layer's last operation writes holds the layer function of the node array
    the layer starts from and of the ten other inputs, whatever the contents before it. -/
theorem layer5 (W : Valuation τ sig (Elt Ideal)) :
    after (opsL5 (F := Ideal)) W (Proc.devRef .tc main_v296)
      = RT.rLayer 5 slices_S6x128x128_S1x128x128_5_0_0 slices_S6x128_S1x128_5_0
        (W (Proc.devRef .tc main_v148)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) (W (Proc.devRef .tc main_arg8))
        (W (Proc.devRef .tc main_arg9)) (W (Proc.devRef .tc main_arg10)) := by
  show after line W _ = _
  rw [line_split, after_app, after_app, readC, readB, readA, keepBA nw_x, keepBA nw_a7, keepBA nw_a8,
    keepA nw_a6, keepA nw_a9, keepA nw_a10]
  rfl

end Cert.ReferenceIdeal.RFold

end
-- ==== Proof.RefFold.lean ====
/-
  The reference program's result as three layers of the contents it starts from.  The program is its six layers run
  in turn; layers 0, 2 and 5 each leave one layer function of the node array they find and of the argument arrays;
  layers 1, 3 and 4 write neither an argument array nor the results that layers 2 and 5 read.  So the buffer
  returned is layer 5 of layer 2 of layer 0 of the launched node array, and every argument array ends as it began.
-/
import proofs.«115942_j16338055594707_1_alg».proof.Proof.RefOps
import proofs.«115942_j16338055594707_1_alg».proof.Proof.RTerms
import proofs.«115942_j16338055594707_1_alg».proof.Proof.RefKeep
import proofs.«115942_j16338055594707_1_alg».proof.Proof.RefLayer0
import proofs.«115942_j16338055594707_1_alg».proof.Proof.RefLayer2
import proofs.«115942_j16338055594707_1_alg».proof.Proof.RefLayer5

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

/-- The whole program is its six layers run in turn. -/
theorem after_ops (W : Valuation τ sig (Elt Ideal)) :
    after (ops (F := Ideal)) W = after opsL5 (after opsL4 (after opsL3 (after opsL2 (after opsL1 (after opsL0 W))))) := by
  show after (q0 ++ (q1 ++ (q2 ++ (q3 ++ (q4 ++ (q5 ++ (q6 ++ (q7 ++ (q8 ++ (q9 ++ q10)))))))))) W
      = after (q9 ++ q10) (after (q7 ++ q8) (after (q5 ++ q6) (after (q3 ++ q4) (after (q1 ++ q2) (after q0 W)))))
  simp only [after_append]

/-- The result buffer after the whole program: three layers of the starting contents. -/
theorem fold_result (W : Valuation τ sig (Elt Ideal)) :
    after (ops (F := Ideal)) W (Proc.devRef .tc main_v296) = RT.rLayer 5 slices_S6x128x128_S1x128x128_5_0_0 slices_S6x128_S1x128_5_0 (RT.rLayer 2 slices_S6x128x128_S1x128x128_2_0_0 slices_S6x128_S1x128_2_0 (RT.rLayer 0 slices_S6x128x128_S1x128x128_0_0_0 slices_S6x128_S1x128_0_0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [after_ops, layer5,
    keep4_v148, keep4_arg1, keep4_arg2, keep4_arg3, keep4_arg4, keep4_arg5, keep4_arg6, keep4_arg7, keep4_arg8, keep4_arg9, keep4_arg10,
    keep3_v148, keep3_arg1, keep3_arg2, keep3_arg3, keep3_arg4, keep3_arg5, keep3_arg6, keep3_arg7, keep3_arg8, keep3_arg9, keep3_arg10,
    layer2, keep2_arg1, keep2_arg2, keep2_arg3, keep2_arg4, keep2_arg5, keep2_arg6, keep2_arg7, keep2_arg8, keep2_arg9, keep2_arg10,
    keep1_v49, keep1_arg1, keep1_arg2, keep1_arg3, keep1_arg4, keep1_arg5, keep1_arg6, keep1_arg7, keep1_arg8, keep1_arg9, keep1_arg10,
    layer0, keep0_arg1, keep0_arg2, keep0_arg3, keep0_arg4, keep0_arg5, keep0_arg6, keep0_arg7, keep0_arg8, keep0_arg9, keep0_arg10]

/-- No layer writes argument 0. -/
theorem fold_arg0 (W : Valuation τ sig (Elt Ideal)) :
    after (ops (F := Ideal)) W (Proc.devRef .tc main_arg0) = W (Proc.devRef .tc main_arg0) := by
  rw [after_ops, keep5_arg0, keep4_arg0, keep3_arg0, keep2_arg0, keep1_arg0, keep0_arg0]

/-- No layer writes argument 1. -/
theorem fold_arg1 (W : Valuation τ sig (Elt Ideal)) :
    after (ops (F := Ideal)) W (Proc.devRef .tc main_arg1) = W (Proc.devRef .tc main_arg1) := by
  rw [after_ops, keep5_arg1, keep4_arg1, keep3_arg1, keep2_arg1, keep1_arg1, keep0_arg1]

/-- No layer writes argument 2. -/
theorem fold_arg2 (W : Valuation τ sig (Elt Ideal)) :
    after (ops (F := Ideal)) W (Proc.devRef .tc main_arg2) = W (Proc.devRef .tc main_arg2) := by
  rw [after_ops, keep5_arg2, keep4_arg2, keep3_arg2, keep2_arg2, keep1_arg2, keep0_arg2]

/-- No layer writes argument 3. -/
theorem fold_arg3 (W : Valuation τ sig (Elt Ideal)) :
    after (ops (F := Ideal)) W (Proc.devRef .tc main_arg3) = W (Proc.devRef .tc main_arg3) := by
  rw [after_ops, keep5_arg3, keep4_arg3, keep3_arg3, keep2_arg3, keep1_arg3, keep0_arg3]

/-- No layer writes argument 4. -/
theorem fold_arg4 (W : Valuation τ sig (Elt Ideal)) :
    after (ops (F := Ideal)) W (Proc.devRef .tc main_arg4) = W (Proc.devRef .tc main_arg4) := by
  rw [after_ops, keep5_arg4, keep4_arg4, keep3_arg4, keep2_arg4, keep1_arg4, keep0_arg4]

/-- No layer writes argument 5. -/
theorem fold_arg5 (W : Valuation τ sig (Elt Ideal)) :
    after (ops (F := Ideal)) W (Proc.devRef .tc main_arg5) = W (Proc.devRef .tc main_arg5) := by
  rw [after_ops, keep5_arg5, keep4_arg5, keep3_arg5, keep2_arg5, keep1_arg5, keep0_arg5]

/-- No layer writes argument 6. -/
theorem fold_arg6 (W : Valuation τ sig (Elt Ideal)) :
    after (ops (F := Ideal)) W (Proc.devRef .tc main_arg6) = W (Proc.devRef .tc main_arg6) := by
  rw [after_ops, keep5_arg6, keep4_arg6, keep3_arg6, keep2_arg6, keep1_arg6, keep0_arg6]

/-- No layer writes argument 7. -/
theorem fold_arg7 (W : Valuation τ sig (Elt Ideal)) :
    after (ops (F := Ideal)) W (Proc.devRef .tc main_arg7) = W (Proc.devRef .tc main_arg7) := by
  rw [after_ops, keep5_arg7, keep4_arg7, keep3_arg7, keep2_arg7, keep1_arg7, keep0_arg7]

/-- No layer writes argument 8. -/
theorem fold_arg8 (W : Valuation τ sig (Elt Ideal)) :
    after (ops (F := Ideal)) W (Proc.devRef .tc main_arg8) = W (Proc.devRef .tc main_arg8) := by
  rw [after_ops, keep5_arg8, keep4_arg8, keep3_arg8, keep2_arg8, keep1_arg8, keep0_arg8]

/-- No layer writes argument 9. -/
theorem fold_arg9 (W : Valuation τ sig (Elt Ideal)) :
    after (ops (F := Ideal)) W (Proc.devRef .tc main_arg9) = W (Proc.devRef .tc main_arg9) := by
  rw [after_ops, keep5_arg9, keep4_arg9, keep3_arg9, keep2_arg9, keep1_arg9, keep0_arg9]

/-- No layer writes argument 10. -/
theorem fold_arg10 (W : Valuation τ sig (Elt Ideal)) :
    after (ops (F := Ideal)) W (Proc.devRef .tc main_arg10) = W (Proc.devRef .tc main_arg10) := by
  rw [after_ops, keep5_arg10, keep4_arg10, keep3_arg10, keep2_arg10, keep1_arg10, keep0_arg10]

end Cert.ReferenceIdeal.RFold

end
-- ==== Proof.RefValue.lean ====
/-
  The reference program's run, read back: from any launch memory every execution terminates, the result buffer
  holds three layers of the launched node array, and every argument array holds what it was launched with.
-/
import proofs.«115942_j16338055594707_1_alg».proof.Proof.RefFold
import proofs.«115942_j16338055594707_1_alg».proof.Proof.RefMain

set_option maxRecDepth 16384

noncomputable section

namespace Cert.ReferenceIdeal.RFold

open Cert.ReferenceIdeal Cert.ReferenceIdeal.Gen Cert.ReferenceIdeal.RunP
open Idealize.ShloMosaic Idealize.ShloMosaic.TcCoe Idealize.SL.Sem Idealize.ShloMosaic.StableHlo

/-- The contents a device's fold starts from are the launch memory at that device's buffers. -/
theorem launch_eq (m : (ℓ : Loc nD τ sig) → Buf (Elt Ideal) ℓ) (c : Dev nD) (b : Ref sig .tc) :
    launchContents m c (Proc.devRef .tc b) = m ((c.tc : Thread nD τ).loc b) := rfl

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v296) = RT.rLayer 5 slices_S6x128x128_S1x128x128_5_0_0 slices_S6x128_S1x128_5_0 (RT.rLayer 2 slices_S6x128x128_S1x128x128_2_0_0 slices_S6x128_S1x128_2_0 (RT.rLayer 0 slices_S6x128x128_S1x128x128_0_0_0 slices_S6x128_S1x128_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c main_v296).trans (fold_result (launchContents m c)),
     (h c main_arg0).trans (fold_arg0 (launchContents m c)),
     (h c main_arg1).trans (fold_arg1 (launchContents m c)),
     (h c main_arg2).trans (fold_arg2 (launchContents m c)),
     (h c main_arg3).trans (fold_arg3 (launchContents m c)),
     (h c main_arg4).trans (fold_arg4 (launchContents m c)),
     (h c main_arg5).trans (fold_arg5 (launchContents m c)),
     (h c main_arg6).trans (fold_arg6 (launchContents m c)),
     (h c main_arg7).trans (fold_arg7 (launchContents m c)),
     (h c main_arg8).trans (fold_arg8 (launchContents m c)),
     (h c main_arg9).trans (fold_arg9 (launchContents m c)),
     (h c main_arg10).trans (fold_arg10 (launchContents m c))⟩)
    (run_fold m ρ)

end Cert.ReferenceIdeal.RFold

end
-- ==== Proof.lean ====
/-
  The certificate: the kernel program (three fused matrix products and three fused batch-norm / ReLU / residual
  updates, with the edge gather and scatter-add between them on the host) against the jnp reference (six graph
  convolution layers, of which only layers 0, 2 and 5 reach the result).

  Frames.  The two kernel programs' frames are the generated ones.  The reference's frame is its run with the result
  dropped.

  Values at the ideal instance.  The kernel's result array is three layers  x ↦ x + max((agg + self) * scale + shift, 0)
  of the launch contents: each region's output array is one whole-array function of what the region finds (the row
  blocks tile the array), and the host stretches between the regions are named terms.  The reference's result is three
  layers  x ↦ x + max(((((agg + self) + b) - μ) * r) * g + β, 0)  of the same inputs, read back layer by layer.  Layer
  by layer the two are equal: the products are the same finite sums, the aggregation is the same function of equal
  supports, and the two affine arrangements agree for every extended real once the parameter rows are real and the
  variances nonnegative — which is what the precondition gives (every float input finite, and rvar ≥ 0, the domain
  on which the reference's rsqrt(rvar + eps) is defined).

  No operation was rewritten by the idealization, so the preservation claim is `True`.
-/
import proofs.«115942_j16338055594707_1_alg».proof.Defs
import proofs.«115942_j16338055594707_1_alg».proof.Proof.Gen.Kernel
import proofs.«115942_j16338055594707_1_alg».proof.Proof.Gen.Kernel.Frame
import proofs.«115942_j16338055594707_1_alg».proof.Proof.Gen.KernelIdeal
import proofs.«115942_j16338055594707_1_alg».proof.Proof.Gen.KernelIdeal.Frame
import proofs.«115942_j16338055594707_1_alg».proof.Proof.Gen.ReferenceIdeal
import proofs.«115942_j16338055594707_1_alg».proof.Proof.Gen.Pre_finite_inputs
import proofs.«115942_j16338055594707_1_alg».proof.Proof.KRun
import proofs.«115942_j16338055594707_1_alg».proof.Proof.KValue
import proofs.«115942_j16338055594707_1_alg».proof.Proof.Bridge
import proofs.«115942_j16338055594707_1_alg».proof.Proof.PreFacts
import proofs.«115942_j16338055594707_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RFold.run_value m ρ)

theorem preserves : Cert.preserves_Kernel_KernelIdeal := trivial

/-- From memories agreeing on the arguments both idealized programs end at the same three-layer function of them. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KVal.result_eq m ρ c), (h c).2⟩)
      (Cert.KernelIdeal.KRun.run_result (F := Ideal) m ρ), ?_⟩
  refine (θ_run Cert.ReferenceIdeal.defs _ _).mono (fun r h c => ⟨(h c).1.trans ?_, (h c).2⟩)
    (Cert.ReferenceIdeal.RFold.run_value m' ρ')
  obtain ⟨e0, e1, e2, e3, e4, e5, e6, e7, e8, e9, e10⟩ := hagree c
  rw [e0, e1, e2, e3, e4, e5, e6, e7, e8, e9, e10]
  obtain ⟨h6, h7, h8, h9, h10, hv⟩ := Cert.PreFacts.params_real _ _ _ _ _ _ _ _ _ _ _ (hpre c)
  rw [← Cert.Bridge.layer_eq 0 (by decide) Cert.KernelIdeal.Gen.slices_S6x128x128_S1x128x128_0_0_0
    Cert.ReferenceIdeal.Gen.slices_S6x128x128_S1x128x128_0_0_0 Cert.KernelIdeal.Gen.slices_S6x128_S1x128_0_0
    Cert.ReferenceIdeal.Gen.slices_S6x128_S1x128_0_0 _ _ _ _ _ _ _ _ _ _ _ h6 h7 h8 h9 h10 hv]
  rw [← Cert.Bridge.layer_eq 2 (by decide) Cert.KernelIdeal.Gen.slices_S6x128x128_S1x128x128_2_0_0
    Cert.ReferenceIdeal.Gen.slices_S6x128x128_S1x128x128_2_0_0 Cert.KernelIdeal.Gen.slices_S6x128_S1x128_2_0
    Cert.ReferenceIdeal.Gen.slices_S6x128_S1x128_2_0 _ _ _ _ _ _ _ _ _ _ _ h6 h7 h8 h9 h10 hv]
  rw [← Cert.Bridge.layer_eq 5 (by decide) Cert.KernelIdeal.Gen.slices_S6x128x128_S1x128x128_5_0_0
    Cert.ReferenceIdeal.Gen.slices_S6x128x128_S1x128x128_5_0_0 Cert.KernelIdeal.Gen.slices_S6x128_S1x128_5_0
    Cert.ReferenceIdeal.Gen.slices_S6x128_S1x128_5_0 _ _ _ _ _ _ _ _ _ _ _ h6 h7 h8 h9 h10 hv]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
